-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S4096x1 : Shape := ⟨2, ![4096, 1]⟩
abbrev S512x256 : Shape := ⟨2, ![512, 256]⟩
abbrev S512x1 : Shape := ⟨2, ![512, 1]⟩
abbrev S512 : Shape := ⟨1, ![512]⟩
abbrev S8192x256 : Shape := ⟨2, ![8192, 256]⟩
abbrev S8192x1 : Shape := ⟨2, ![8192, 1]⟩
abbrev S1024x256 : Shape := ⟨2, ![1024, 256]⟩
abbrev S1024x1 : Shape := ⟨2, ![1024, 1]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩

abbrev nBuf : Space → Nat
  | .hbm => 19
  | .vmem => 17
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .bf16⟩
  | .hbm, ⟨3, _⟩ => ⟨S4096x256, .bf16⟩
  | .hbm, ⟨4, _⟩ => ⟨S4096x1, .f32⟩
  | .hbm, ⟨5, _⟩ => ⟨S8192x256, .bf16⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1, .f32⟩
  | .local _ .vmem, ⟨9, _⟩ => ⟨S512x1, .f32⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_12 : BitVec 32 := 0#32
  let v32 : BitVec 1 := Scalar.cmpi .ne v31 c0_i32_12
  v32

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  broadcasts_S512x1_S512x256 : S512x1.Broadcasts S512x256
  bitsLt_bf16_f32 : FTy.bits .bf16 < FTy.bits .f32
  packedbf16_S512x256_S512x256_0_0 : (Rect.unit (s := S512x256) ![0, 0] S512x256.size inb_S512x256_S512x256_0_0).PackedRows (EltTy.packing .bf16)
  inb_S512x1_S512x1_0_0 : ∀ a, (![0, 0] : Fin 2 → Nat) a + S512x1.size a ≤ S512x1.size a
  h_S512x1 : 0 < S512x1.numel
  concatenates_S4096x256_S4096x256_S8192x256_d0 : Shape.Concatenates [S4096x256, S4096x256] S8192x256 0
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  concatenates_S4096x1_S4096x1_S8192x1_d0 : Shape.Concatenates [S4096x1, S4096x1] S8192x1 0
  bcast_S_S8192x1 : S_.BroadcastsInDim S8192x1 (![] : Fin 0 → Fin S8192x1.rank)
  reducesTo_S8192x1_S_d0_1 : S8192x1.ReducesTo [0, 1] S_
  h_S_ : 0 < S_.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .bf16 = 32 ∨ (Rect.block (s := S4096x256) S512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .bf16 = 32 ∨ (Rect.block (s := S4096x256) S512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .bf16 = 32 ∨ (Rect.block (s := S8192x256) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S4096 : Shape := ⟨1, ![4096]⟩
abbrev S4096x1 : Shape := ⟨2, ![4096, 1]⟩
abbrev S4096x2 : Shape := ⟨2, ![4096, 2]⟩

abbrev nBuf : Space → Nat
  | .hbm => 90
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x1, .i32⟩
  | .hbm, ⟨36, _⟩ => ⟨S4096x2, .i32⟩
  | .hbm, ⟨37, _⟩ => ⟨S4096, .f32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096x1, .i32⟩
  | .hbm, ⟨58, _⟩ => ⟨S4096x1, .i32⟩
  | .hbm, ⟨59, _⟩ => ⟨S4096x2, .i32⟩
  | .hbm, ⟨60, _⟩ => ⟨S4096, .f32⟩
  | .hbm, ⟨61, _⟩ => ⟨S8192, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S8192x8192, .i32⟩
  | .hbm, ⟨67, _⟩ => ⟨S8192x8192, .i32⟩
  | .hbm, ⟨68, _⟩ => ⟨S_, .i32⟩
  | .hbm, ⟨69, _⟩ => ⟨S8192x8192, .i32⟩
  | .hbm, ⟨70, _⟩ => ⟨S8192x8192, .i32⟩
  | .hbm, ⟨71, _⟩ => ⟨S8192x8192, .i1⟩
  | .hbm, ⟨72, _⟩ => ⟨S8192x8192, .i1⟩
  | .hbm, ⟨73, _⟩ => ⟨S_, .f32⟩
  | .hbm, ⟨74, _⟩ => ⟨S_, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S8192, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S8192, .f32⟩
  | .hbm, ⟨83, _⟩ => ⟨S8192, .f32⟩
  | .hbm, ⟨84, _⟩ => ⟨S8192, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_v0 : Ref sig .tc := ⟨.hbm, 15, rfl⟩
abbrev main_call1_v1 : Ref sig .tc := ⟨.hbm, 16, rfl⟩
abbrev main_call1_c : Ref sig .tc := ⟨.hbm, 17, rfl⟩
abbrev main_call1_v2 : Ref sig .tc := ⟨.hbm, 18, rfl⟩
abbrev main_call1_v3 : Ref sig .tc := ⟨.hbm, 19, rfl⟩
abbrev main_call1_c_0 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c_2 : Ref sig .tc := ⟨.hbm, 27, rfl⟩
abbrev main_call1_v9 : Ref sig .tc := ⟨.hbm, 28, rfl⟩
abbrev main_call1_v10 : Ref sig .tc := ⟨.hbm, 29, rfl⟩
abbrev main_call1_c_3 : Ref sig .tc := ⟨.hbm, 30, rfl⟩
abbrev main_call1_v11 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_v15 : Ref sig .tc := ⟨.hbm, 35, rfl⟩
abbrev main_call1_v16 : Ref sig .tc := ⟨.hbm, 36, rfl⟩
abbrev main_v8 : Ref sig .tc := ⟨.hbm, 37, rfl⟩
abbrev main_call2_v0 : Ref sig .tc := ⟨.hbm, 38, rfl⟩
abbrev main_call2_v1 : Ref sig .tc := ⟨.hbm, 39, rfl⟩
abbrev main_call2_c : Ref sig .tc := ⟨.hbm, 40, rfl⟩
abbrev main_call2_v2 : Ref sig .tc := ⟨.hbm, 41, rfl⟩
abbrev main_call2_v3 : Ref sig .tc := ⟨.hbm, 42, rfl⟩
abbrev main_call2_c_0 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c_2 : Ref sig .tc := ⟨.hbm, 50, rfl⟩
abbrev main_call2_v9 : Ref sig .tc := ⟨.hbm, 51, rfl⟩
abbrev main_call2_v10 : Ref sig .tc := ⟨.hbm, 52, rfl⟩
abbrev main_call2_c_3 : Ref sig .tc := ⟨.hbm, 53, rfl⟩
abbrev main_call2_v11 : Ref sig .tc := ⟨.hbm, 54, rfl⟩
abbrev main_call2_v12 : Ref sig .tc := ⟨.hbm, 55, rfl⟩
abbrev main_call2_v13 : Ref sig .tc := ⟨.hbm, 56, rfl⟩
abbrev main_call2_v14 : Ref sig .tc := ⟨.hbm, 57, rfl⟩
abbrev main_call2_v15 : Ref sig .tc := ⟨.hbm, 58, rfl⟩
abbrev main_call2_v16 : Ref sig .tc := ⟨.hbm, 59, rfl⟩
abbrev main_v9 : Ref sig .tc := ⟨.hbm, 60, rfl⟩
abbrev main_v10 : Ref sig .tc := ⟨.hbm, 61, rfl⟩
abbrev main_cst_0 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_c : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_cst_1 : Ref sig .tc := ⟨.hbm, 73, rfl⟩
abbrev main_call3_v0 : Ref sig .tc := ⟨.hbm, 74, rfl⟩
abbrev main_call3_v1 : Ref sig .tc := ⟨.hbm, 75, rfl⟩
abbrev main_v20 : Ref sig .tc := ⟨.hbm, 76, rfl⟩
abbrev main_cst_2 : Ref sig .tc := ⟨.hbm, 77, rfl⟩
abbrev main_v21 : Ref sig .tc := ⟨.hbm, 78, rfl⟩
abbrev main_cst_3 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_cst_4 : Ref sig .tc := ⟨.hbm, 85, rfl⟩
abbrev main_v27 : Ref sig .tc := ⟨.hbm, 86, rfl⟩
abbrev main_cst_5 : Ref sig .tc := ⟨.hbm, 87, rfl⟩
abbrev main_v28 : Ref sig .tc := ⟨.hbm, 88, rfl⟩
abbrev main_v29 : Ref sig .tc := ⟨.hbm, 89, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.FrameB0.lean ====
/-
  The first kernel (rows of the two inputs divided by their clipped norms, and the rows' inner products), as one
  region of the program entered with the TensorCore's buffers at contents `V`: what each window's staging buffer
  holds after the body at a grid point, the body's triple, the region's proof data and its obligation at every point.
  Grid point `t` works on rows 512·t … 512·t+511 of both inputs; the three outputs' blocks are the body's three
  stores, each a whole-block store of a pure function of the two input blocks.
-/
import proofs.«135420_j3994319585478_1_alg».proof.Proof.Gen.Kernel.Launch
import proofs.«135420_j3994319585478_1_alg».proof.Proof.Gen.Kernel.Skeleton
import proofs.«135420_j3994319585478_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole block of a 512×256 staging buffer, and of a 512×1 one. -/
abbrev rB : Rect S512x256 := Rect.unit (s := S512x256) ![0, 0] S512x256.size inb_S512x256_S512x256_0_0
abbrev rC : Rect S512x1 := Rect.unit (s := S512x1) ![0, 0] S512x1.size inb_S512x1_S512x1_0_0

/-- What the body leaves in the three output windows' buffers, from the two input blocks. -/
def out0_2 (x0 : Vec F S512x256 .f32) : Vec F S512x256 .bf16 :=
  View.canon [⟨rB, k0_pay4 (View.ld x0 rB)⟩]
def out0_3 (x1 : Vec F S512x256 .f32) : Vec F S512x256 .bf16 :=
  View.canon [⟨rB, k0_pay5 (View.ld x1 rB)⟩]
def out0_4 (x0 x1 : Vec F S512x256 .f32) : Vec F S512x1 .f32 :=
  View.canon [⟨rC, k0_pay3 (View.ld x0 rB) (View.ld x1 rB)⟩]

/-- One whole-block store covers the block. -/
theorem coverB (p0 : Vec F S512x256 .bf16) (y : S512x256.Idx) :
    ∃ pc ∈ ([⟨rB, p0⟩] : List (View.Piece (Elt F) S512x256 .bf16)), y ∈ pc.1.set :=
  View.cover_of_tiled [⟨rB, p0⟩] S512x256.size (by rfl) y
theorem coverC (p0 : Vec F S512x1 .f32) (y : S512x1.Idx) :
    ∃ pc ∈ ([⟨rC, p0⟩] : List (View.Piece (Elt F) S512x1 .f32)), y ∈ pc.1.set :=
  View.cover_of_tiled [⟨rC, p0⟩] S512x1.size (by rfl) y

set_option maxHeartbeats 2000000 in
/-- The body on whole staging memrefs, the inputs' at contents `x0`, `x1` and the outputs' at anything, runs to the
    continuation holding the inputs' as they were and each output's at its function of the inputs'. -/
theorem sound_kernel0 (c : Dev nD) (E : Set ℕ) (i : grid0.Coords)
    (arg1 : Memref sig .tc .vmem S512x256 .f32) (harg1 : arg1.IsWhole) (arg2 : Memref sig .tc .vmem S512x256 .f32) (harg2 : arg2.IsWhole)
    (arg3 : Memref sig .tc .vmem S512x256 .bf16) (harg3 : arg3.IsWhole) (arg4 : Memref sig .tc .vmem S512x256 .bf16) (harg4 : arg4.IsWhole)
    (arg5 : Memref sig .tc .vmem S512x1 .f32) (harg5 : arg5.IsWhole)
    (x0 x1 : Vec F S512x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)
            ∗ owns (c : Thread nD τ) arg5 fullShare (out0_4 x0 x1)) -∗ K ⟨⟩))
      ⊢ wp frame (wpE (defs₀ (F := F)) Variants.none c none) E (cc0__normalize_kernel i arg1 harg1 arg2 harg2 arg3 harg3 arg4 harg4 arg5 harg5) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverB _)
  isplitl [H3]
  · iexists _; isplitr
    swap; · iexact H3
    ipureintro
    exact View.read_writes_eq_canon _ _ _ (coverB _)
  iexists _; isplitr
  swap; · iexact H4
  ipureintro
  exact View.read_writes_eq_canon _ _ _ (coverC _)

/-- The region's proof data on core `c`: the arrays as the region finds them; after the body at point `t` each
    input's buffer at its block and each output's at its function of the input blocks; the invariant the scoped
    rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.FrameB1Runs.lean ====
/-
  The second kernel (per block of 1024 rows, the running sum over eight blocks of 1024 columns of the masked
  exponentials of the rows' inner products) as a region entered with the TensorCore's buffers at contents `V`:
  the body's two conditions in closed form over the 8×8 grid (the column block is the point's index mod 8: the
  accumulator is reset at column block 0 and the output is stored at column block 7), where the output window is
  idle, the staging and scratch memrefs, and the body's triple in each of the three cases the grid meets.
-/
import proofs.«135420_j3994319585478_1_alg».proof.Proof.Gen.Kernel.Launch
import proofs.«135420_j3994319585478_1_alg».proof.Proof.Gen.Kernel.Skeleton
import proofs.«135420_j3994319585478_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region1

/-- The body's first condition (the column block is 0), from the grid coordinates; -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- and its second (the column block is 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle; the output window is idle, and not written back, except at column block 7. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the output window, through which its contents are stated. -/
abbrev VO1_2 : View sig .tc .vmem S1024x1 .f32 := (Memref.whole cc1_stg2_0 : Memref sig .tc .vmem S1024x1 .f32).view
/-- Each window's current staging memref at point `t`, and its wholeness. -/
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
/-- The accumulator: a whole scoped buffer of the kernel's own, carried from point to point. -/
abbrev scM1_0 : Memref sig .tc .vmem S1024x1 .f32 := Memref.whole cc1_scratch0
abbrev VS1_0 : View sig .tc .vmem S1024x1 .f32 := scM1_0.view

set_option maxHeartbeats 4000000 in
/-- Column block 0 (not 7): the accumulator is reset, then the block's sums are added; the output is left alone. -/
noncomputable def kernelRun1_A (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 x1 : Vec F S1024x256 .bf16) :
    { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__denom_kernel i arg2 harg2 arg3 harg3 arg4 harg4 arg5 harg5) K } := by
  refine ⟨?_, fun xi2 E K => ?run⟩
  case run =>
    simp only [cc1__denom_kernel_eq_skeleton]; unfold cc1__denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Column blocks 1 to 6: the block's sums are added to the accumulator the point before left; the output is left alone. -/
noncomputable def kernelRun1_B (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 x1 : Vec F S1024x256 .bf16) (xs0 : Vec F S1024x1 .f32) :
    { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__denom_kernel i arg2 harg2 arg3 harg3 arg4 harg4 arg5 harg5) K } := by
  refine ⟨?_, fun xi2 E K => ?run⟩
  case run =>
    simp only [cc1__denom_kernel_eq_skeleton]; unfold cc1__denom_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Column block 7: the block's sums are added to the accumulator, and the accumulator is stored to the output. -/
noncomputable def kernelRun1_C (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x256 .bf16) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__denom_kernel i arg2 harg2 arg3 harg3 arg4 harg4 arg5 harg5) K } := by
  refine ⟨?_, ?_, fun E K => ?run⟩
  case run =>
    simp only [cc1__denom_kernel_eq_skeleton]; unfold cc1__denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Region1

end Cert.Kernel.Fr

end
-- ==== Proof.FrameB1.lean ====
/-
  The second kernel as a region, continued: what the accumulator and the output window's buffer hold after each grid
  point (by recursion on the point: reset at column block 0, one block of 1024 columns added per point, stored to the
  output at column block 7), the region's invariant (the accumulator at what the point before left), its proof data
  and its obligation at every point.
-/
import proofs.«135420_j3994319585478_1_alg».proof.Proof.Gen.Kernel.Launch
import proofs.«135420_j3994319585478_1_alg».proof.Proof.Gen.Kernel.Skeleton
import proofs.«135420_j3994319585478_1_alg».proof.Proof.Gen.Kernel.Points
import proofs.«135420_j3994319585478_1_alg».proof.Proof.FrameB1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 x1 : Vec F S1024x256 .bf16) (y : S1024x1.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1024x1.size (by sl_kernel_rfl) y
def sout1_A (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 x1 : Vec F S1024x256 .bf16) : Vec F S1024x1 .f32 :=
  VS1_0.read (Elt F) (VS1_0.writes (Elt F) VS1_0.junk (kernelRun1_A c i arg2 harg2 arg3 harg3 arg4 harg4 arg5 harg5 hc0 hc1 x0 x1).1)

theorem scover1_B (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 x1 : Vec F S1024x256 .bf16) (xs0 : Vec F S1024x1 .f32) (y : S1024x1.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S1024x1.size (by sl_kernel_rfl) y
def sout1_B (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 x1 : Vec F S1024x256 .bf16) (xs0 : Vec F S1024x1 .f32) : Vec F S1024x1 .f32 :=
  VS1_0.read (Elt F) (VS1_0.writes (Elt F) VS1_0.junk (kernelRun1_B c i arg2 harg2 arg3 harg3 arg4 harg4 arg5 harg5 hc0 hc1 x0 x1 xs0).1)

theorem cover1_C (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x256 .bf16) (xs0 : Vec F S1024x1 .f32) (y : S1024x1.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x1.size (by sl_kernel_rfl) y
def out1_C (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x256 .bf16) (xs0 : Vec F S1024x1 .f32) : Vec F S1024x1 .f32 :=
  VO1_2.read (Elt F) (VO1_2.writes (Elt F) VO1_2.junk (kernelRun1_C c i arg2 harg2 arg3 harg3 arg4 harg4 arg5 harg5 hc0 hc1 x0 x1 xs0).1)
theorem scover1_C (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x256 .bf16) (xs0 : Vec F S1024x1 .f32) (y : S1024x1.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x1.size (by sl_kernel_rfl) y
def sout1_C (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x256 .bf16) (xs0 : Vec F S1024x1 .f32) : Vec F S1024x1 .f32 :=
  VS1_0.read (Elt F) (VS1_0.writes (Elt F) VS1_0.junk (kernelRun1_C c i arg2 harg2 arg3 harg3 arg4 harg4 arg5 harg5 hc0 hc1 x0 x1 xs0).2.1)

/-- A placeholder for the output window's buffer at the points where it is idle (nothing consults it there). -/
def outIdle : Vec F S1024x1 .f32 := VO1_2.read (Elt F) VO1_2.junk

/-! ## The accumulation -/

/-- What the output window's buffer and the accumulator hold after the body at position `n`. -/
def outsAt1 (c : Dev nD) : (n : ℕ) → n < cfg1.N → Vec F S1024x1 .f32 × Vec F S1024x1 .f32
  | 0, hn => (outIdle, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (outIdle, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (outIdle, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (outIdle, sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (outIdle, sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The scoped buffers that are no staging buffer of this kernel, the accumulator at `S`, and the generator register. -/
def restWith (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S) ∗ (∃ r, prngReg c r))
/-- The same without the accumulator. -/
def restOnly (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ r, prngReg c r))

theorem restWith_elim (c : Dev nD) (S : sProp 𝕄) : restWith (F := F) c S ⊢ iprop(restOnly (F := F) c ∗ S) := by
  unfold restWith restOnly
  iintro ⟨⟨HR0, HR1, HR2, HR3, HR4, HR5, HR6, HR7, HR8, HR9, HS⟩, Hg⟩
  isplitr [HS]
  swap; · iexact HS
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  iexact Hg
theorem restWith_intro (c : Dev nD) (S : sProp 𝕄) : iprop(restOnly (F := F) c ∗ S) ⊢ restWith (F := F) c S := by
  unfold restWith restOnly
  iintro ⟨⟨HR0, HR1, HR2, HR3, HR4, HR5, HR6, HR7, HR8, HR9, Hg⟩, HS⟩
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  iexact HS

/-- The class invariant is the rest with the accumulator at anything. -/
theorem PhiA1_eq (c : Dev nD) :
    (Pipeline.ΦA spec1 c : sProp 𝕄) = restWith (F := F) c (iprop(∃ d, owns (c : Thread nD τ) scM1_0 fullShare d)) := by
  unfold Pipeline.ΦA restWith; rw [scopedRest1_eq]; simp only [scM1_0, owns_whole]; try rfl

/-- The region invariant before position `n`: before the first point the class's; afterwards the rest with the
    accumulator at what the point before left. -/
def PhiS (c : Dev nD) : (n : ℕ) → n ≤ cfg1.N → sProp 𝕄
  | 0, _ => Pipeline.ΦA spec1 c
  | n + 1, hn => restWith (F := F) c (owns (c : Thread nD τ) scM1_0 fullShare ((outsAt1 V c n hn).2))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = restWith (F := F) c (owns (c : Thread nD τ) scM1_0 fullShare ((outsAt1 V c n hn).2)) := rfl
theorem PhiS_pos (c : Dev nD) (n : ℕ) (h : n ≤ cfg1.N) (hz : n ≠ 0) :
    PhiS V c n h = restWith (F := F) c (owns (c : Thread nD τ) scM1_0 fullShare ((outsAt1 V c (n - 1) (by omega)).2)) := by
  cases n with
  | zero => exact absurd rfl hz
  | succ n => rfl

/-! ## The proof data -/

/-- The region's proof data on core `c`. The two input windows read the one stacked array, each at half of its share. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms say which case the point is in; the invariant hands the body the
    accumulator at what the point before left (at anything at a reset) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    have hrun : iprop(restOnly (F := F) c ∗ (∃ d, owns (c : Thread nD τ) scM1_0 fullShare d) ∗ (dat1 V c).owesAt () t.castSucc
          ∗ owns (c : Thread nD τ) (ms1_0 t) fullShare (iblk1 V c 0 t) ∗ owns (c : Thread nD τ) (ms1_1 t) fullShare (iblk1 V c 1 t)
          ∗ (∃ d, owns (c : Thread nD τ) (ms1_2 t) fullShare ((dat1 V c).before 2 t d)))
        ⊢ wp frame (wpE (defs₀ (F := F)) Variants.none c none) Set.univ (bodyAt1 t) (fun _ => iprop(
          restWith (F := F) c (owns (c : Thread nD τ) scM1_0 fullShare (VS1_0.read (Elt F) (VS1_0.writes (Elt F) VS1_0.junk (kernelRun1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)).1)))
          ∗ (dat1 V c).owesAt () t.castSucc ∗ owns (c : Thread nD τ) (ms1_0 t) fullShare (iblk1 V c 0 t) ∗ owns (c : Thread nD τ) (ms1_1 t) fullShare (iblk1 V c 1 t)
          ∗ (∃ d, owns (c : Thread nD τ) (ms1_2 t) fullShare ((dat1 V c).before 2 t d)))) := by
      unfold bodyAt1
      iintro ⟨HR, HS0, Ho, H0, H1, ⟨%d2, H2⟩⟩
      iapply ((kernelRun1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0]
      · iapply (restWith_intro (F := F) c _)
        isplitl [HR]; · iexact HR
        unfold owns; iexists _; isplitr
        swap; · iexact HS0
        ipureintro; exact View.read_writes_of_cover _ _ _ _ _ (scover1_A c _ _ _ _ _ _ _ _ _ _ _ _ _)
      isplitl [Ho]; · iexact Ho
      isplitl [H0]; · iexact H0
      isplitl [H1]; · iexact H1
      iexists _; iexact H2
    refine BIBase.Entails.trans ?_ hrun
    by_cases hz : t.val = 0
    · rw [PhiS_castSucc V c t, PhiS_zero V c _ _ hz, PhiA1_eq]
      iintro ⟨HΦ, Ho, ⟨%d0, H0⟩, ⟨%d1, H1⟩, H2⟩
      ihave HΦ' := (restWith_elim (F := F) c _) $$ HΦ
      icases HΦ' with ⟨HR, HS0⟩
      isplitl [HR]; · iexact HR
      isplitl [HS0]; · iexact HS0
      isplitl [Ho]; · iexact Ho
      isplitl [H0]; · iexact H0
      isplitl [H1]; · iexact H1
      iexact H2
    · rw [PhiS_castSucc V c t, PhiS_pos V c _ _ hz]
      iintro ⟨HΦ, Ho, ⟨%d0, H0⟩, ⟨%d1, H1⟩, H2⟩
      ihave HΦ' := (restWith_elim (F := F) c _) $$ HΦ
      icases HΦ' with ⟨HR, HS0⟩
      isplitl [HR]; · iexact HR
      isplitl [HS0]; · iexists _; iexact HS0
      isplitl [Ho]; · iexact Ho
      isplitl [H0]; · iexact H0
      isplitl [H1]; · iexact H1
      iexact H2
  · have hz : t.val ≠ 0 := fun h => h0 (by rw [h])
    rw [PhiS_castSucc V c t, PhiS_pos V c _ _ hz]
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      iintro ⟨HΦ, Ho, ⟨%d0, H0⟩, ⟨%d1, H1⟩, ⟨%d2, H2⟩⟩
      ihave HΦ' := (restWith_elim (F := F) c _) $$ HΦ
      icases HΦ' with ⟨HR, HS0⟩
      iapply ((kernelRun1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR HS0]
      · iapply (restWith_intro (F := F) c _)
        isplitl [HR]; · iexact HR
        unfold owns; iexists _; isplitr
        swap; · iexact HS0
        ipureintro; exact View.read_writes_of_cover _ _ _ _ _ (scover1_C c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      iintro ⟨HΦ, Ho, ⟨%d0, H0⟩, ⟨%d1, H1⟩, ⟨%d2, H2⟩⟩
      ihave HΦ' := (restWith_elim (F := F) c _) $$ HΦ
      icases HΦ' with ⟨HR, HS0⟩
      iapply ((kernelRun1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0]
      · iapply (restWith_intro (F := F) c _)
        isplitl [HR]; · iexact HR
        unfold owns; iexists _; isplitr
        swap; · iexact HS0
        ipureintro; exact View.read_writes_of_cover _ _ _ _ _ (scover1_B c _ _ _ _ _ _ _ _ _ _ _ _ _ _)
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point; -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- and after the last point the invariant gives it back, the accumulator's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro H
  ihave H' := (restWith_elim (F := F) c _) $$ H
  icases H' with ⟨HR, HS0⟩
  iapply (restWith_intro (F := F) c _)
  isplitl [HR]; · iexact HR
  iexists _; iexact HS0

end Region1

end Cert.Kernel.Fr

end
-- ==== Proof.RunB.lean ====
/-
  The whole program as a run: the TensorCore's buffer contents at every boundary between the program's items (the
  first kernel's region, the host concatenation, the second kernel's region, the host operations that finish the loss),
  each region as a segment entered from the contents before it and left at the contents after it, and the run: every
  weakly fair execution terminates with every unscoped buffer at the last boundary's contents — in particular the
  result and the two inputs. The second kernel reads the one stacked array through two windows: each holds half of
  the array's share, split at the region's entry and joined at its exit.
-/
import proofs.«135420_j3994319585478_1_alg».proof.Proof.Gen.Kernel.Launch
import proofs.«135420_j3994319585478_1_alg».proof.Proof.Gen.Kernel.Skeleton
import proofs.«135420_j3994319585478_1_alg».proof.Proof.Gen.Kernel.Points
import proofs.«135420_j3994319585478_1_alg».proof.Proof.FrameB0
import proofs.«135420_j3994319585478_1_alg».proof.Proof.FrameB1
import proofs.«135420_j3994319585478_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- After the first region: its arrays at what its write-backs leave, every other buffer as before. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)
/-- After the concatenation. -/
def W2 (c : Dev nD) : Valuation τ sig (Elt F) := StableHlo.after hostOps1 (W1 m ρ c)
abbrev U2 : (c : Dev nD) → (b : Ref sig .tc) → Buf (Elt F) ((c : Thread nD τ).loc b) := fun c b => W2 m ρ c b
/-- After the second region: the denominators' array at what its write-backs leave, every other buffer as before. -/
def W3 (c : Dev nD) : Valuation τ sig (Elt F) :=
  Function.update (W2 m ρ c) (Proc.devRef .tc main_v2) ((dat1 (U2 m ρ) c).arrAt 2 cfg1.N)
abbrev U3 : (c : Dev nD) → (b : Ref sig .tc) → Buf (Elt F) ((c : Thread nD τ).loc b) := fun c b => W3 m ρ c b
theorem U3_main_v2 (c : Dev nD) : U3 m ρ c main_v2 = (dat1 (U2 m ρ) c).arrAt 2 cfg1.N := by
  unfold U3 W3; exact Function.update_self ..
theorem U3_of_ne (c : Dev nD) (b : Ref sig .tc) (hb : b ≠ main_v2) : U3 m ρ c b = U2 m ρ c b := by
  unfold U3 W3; exact Function.update_of_ne (StableHlo.devRef_ne_of_ne hb) ..
/-- After the last host operations. -/
def W4 (c : Dev nD) : Valuation τ sig (Elt F) := StableHlo.after hostOps2 (W3 m ρ c)

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (U0 m ρ) c
  | ⟨1, _⟩ => fun c => dat1 (U2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The first region as a segment -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment: the stacked array's share split between the two windows that read it -/

/-- The buffers behind the second kernel's windows: the stacked array (windows 0 and 1) and the denominators'. -/
theorem arrBufs1_eq (c : Dev nD) (V : (b : Ref sig .tc) → Buf (Elt F) ((c : Thread nD τ).loc b)) :
    (Pipeline.arrBufs (Ix := Unit) (Name := ℕ) (U := Pipeline.UD sig nD τ) (Lvl := ℕ) spec1 c V : sProp 𝕄)
      = iprop((((c : Thread nD τ).loc main_v1) ↦{fullShare} V main_v1) ∗ (((c : Thread nD τ).loc main_v2) ↦{fullShare} V main_v2)) := by
  unfold Pipeline.arrBufs
  rw [BI.bigSep_eq_bigSepL_of_eq [main_v1, main_v2] (by decide) (by decide)]; rfl

/-- The region's arrays, window by window. -/
theorem arrays1_eq (c : Dev nD) (G : (w : Fin cfg1.W) → Buf (Elt F) ((cfg1.win w).arr.view.loc (c : Thread nD τ))) :
    ((pdats m ρ 1 c).arrays G : sProp 𝕄)
      = iprop((((c : Thread nD τ).loc main_v1) ↦{fullShare.left} G 0) ∗ (((c : Thread nD τ).loc main_v1) ↦{fullShare.right} G 1) ∗ (((c : Thread nD τ).loc main_v2) ↦{fullShare} G 2)) := by
  unfold Pipeline.Dat.arrays
  rw [bigSep_W1]
  have e0 : ((Pipeline.pin (pcfgs (F := F)) adm 1).win (0 : Fin 3)).arr.view.set = Finset.univ := (arr_whole1 0).set_eq_univ
  have e1 : ((Pipeline.pin (pcfgs (F := F)) adm 1).win (1 : Fin 3)).arr.view.set = Finset.univ := (arr_whole1 1).set_eq_univ
  have e2 : ((Pipeline.pin (pcfgs (F := F)) adm 1).win (2 : Fin 3)).arr.view.set = Finset.univ := (arr_whole1 2).set_eq_univ
  rw [e0, e1, e2]
  rfl

/-- ENTRY: the unscoped buffers at the contents before the region are the region's arrays, the stacked array's share
    split in two, and the rest. -/
theorem entry1 (c : Dev nD) :
    (StableHlo.held (c : Thread nD τ) (Pipeline.ucRefs τ sig) (W2 m ρ c) : sProp 𝕄)
      ⊢ iprop((pdats m ρ 1 c).arrays ((pdats m ρ 1 c).arrAt · 0)
          ∗ Pipeline.unscopedRest (Ix := Unit) (Name := ℕ) (U := Pipeline.UD sig nD τ) (Lvl := ℕ) spec1 c (U2 m ρ c)) := by
  rw [← Pipeline.unscopedBufs_held (Ix := Unit) (Name := ℕ) (U := Pipeline.UD sig nD τ) (Lvl := ℕ) c (W2 m ρ c),
    Pipeline.unscopedBufs_split₀ (Pipeline.pin (pcfgs (F := F)) adm) 1 winFacts₀1.arr_unscoped c (U2 m ρ c)]
  show iprop(Pipeline.arrBufs (Ix := Unit) (Name := ℕ) (U := Pipeline.UD sig nD τ) (Lvl := ℕ) spec1 c (U2 m ρ c)
      ∗ Pipeline.unscopedRest (Ix := Unit) (Name := ℕ) (U := Pipeline.UD sig nD τ) (Lvl := ℕ) spec1 c (U2 m ρ c)) ⊢ _
  rw [arrBufs1_eq, arrays1_eq]
  iintro ⟨⟨H1, H2⟩, Hrest⟩
  ihave H1' := (pointsTo_share (PosShare.mem_left_op_right fullShare)).1 $$ H1
  icases H1' with ⟨Hl, Hr⟩
  isplitr [Hrest]
  swap; · iexact Hrest
  isplitl [Hl]; · iexact Hl
  isplitl [Hr]; · iexact Hr
  iexact H2

/-- EXIT: the region's arrays at what it leaves (the stacked array as it was, the denominators' as written back) and
    the rest are the unscoped buffers at the contents after the region. -/
theorem exit1 (c : Dev nD) :
    iprop((pdats m ρ 1 c).arrays ((pdats m ρ 1 c).arrAt · cfg1.N)
          ∗ Pipeline.unscopedRest (Ix := Unit) (Name := ℕ) (U := Pipeline.UD sig nD τ) (Lvl := ℕ) spec1 c (U2 m ρ c))
      ⊢ (StableHlo.held (c : Thread nD τ) (Pipeline.ucRefs τ sig) (W3 m ρ c) : sProp 𝕄) := by
  rw [← Pipeline.unscopedBufs_held (Ix := Unit) (Name := ℕ) (U := Pipeline.UD sig nD τ) (Lvl := ℕ) c (W3 m ρ c),
    Pipeline.unscopedBufs_split₀ (Pipeline.pin (pcfgs (F := F)) adm) 1 winFacts₀1.arr_unscoped c (U3 m ρ c)]
  show _ ⊢ iprop(Pipeline.arrBufs (Ix := Unit) (Name := ℕ) (U := Pipeline.UD sig nD τ) (Lvl := ℕ) spec1 c (U3 m ρ c)
      ∗ Pipeline.unscopedRest (Ix := Unit) (Name := ℕ) (U := Pipeline.UD sig nD τ) (Lvl := ℕ) spec1 c (U3 m ρ c))
  rw [arrBufs1_eq, arrays1_eq]
  have h0 : (pdats m ρ 1 c).arrAt 0 cfg1.N = U3 m ρ c main_v1 :=
    ((dat1 (U2 m ρ) c).arrAt_in 0 rfl _).trans ((A_eq1 (U2 m ρ) c 0).trans (U3_of_ne m ρ c main_v1 (by decide)).symm)
  have h1 : (pdats m ρ 1 c).arrAt 1 cfg1.N = U3 m ρ c main_v1 :=
    ((dat1 (U2 m ρ) c).arrAt_in 1 rfl _).trans ((A_eq1 (U2 m ρ) c 1).trans (U3_of_ne m ρ c main_v1 (by decide)).symm)
  have h2 : (pdats m ρ 1 c).arrAt 2 cfg1.N = U3 m ρ c main_v2 := (U3_main_v2 m ρ c).symm
  have hrest : (Pipeline.unscopedRest (Ix := Unit) (Name := ℕ) (U := Pipeline.UD sig nD τ) (Lvl := ℕ) spec1 c (U2 m ρ c) : sProp 𝕄)
      = Pipeline.unscopedRest (Ix := Unit) (Name := ℕ) (U := Pipeline.UD sig nD τ) (Lvl := ℕ) spec1 c (U3 m ρ c) := by
    unfold Pipeline.unscopedRest
    exact bigSep_congr fun b hb => by
      rw [U3_of_ne m ρ c b (fun e => (Finset.mem_sdiff.mp hb).2 (Finset.mem_image.mpr ⟨2, Finset.mem_univ _, e.symm⟩))]
  rw [h0, h1, h2, hrest]
  iintro ⟨⟨Hl, Hr, H2⟩, Hrest⟩
  isplitr [Hrest]
  swap; · iexact Hrest
  isplitr [H2]
  swap; · iexact H2
  iapply (pointsTo_share (PosShare.mem_left_op_right fullShare)).2
  isplitl [Hl]; · iexact Hl
  iexact Hr

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (U2 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U2 m ρ) c)
    unfold Pipeline.ΦA
    iintro ⟨Hp, -, Hr⟩
    isplitl [Hr]; · iexact Hr
    iexact Hp
  hout c := by
    rw [Pipeline.ownSems0_none]
    refine BIBase.Entails.trans (hout1 (U2 m ρ) c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m ρ c); isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

set_option backward.isDefEq.respectTransparency.types false in
/-- THE RUN: from any memory with zero counters, every weakly fair execution of @main on the TensorCores terminates,
    nothing faulting, and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj embL defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c) ⊢ _
      iintro ⟨Hh, Hp, HO⟩
      isplitr [HO]
      swap; · iexact HO
      isplitl [Hh]; · iexact Hh
      iexact Hp⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The inputs end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := U3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := U3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (U0 m ρ) c).arrAt_in 1 rfl _).trans (A_eq0 (U0 m ρ) c 1))
    _ = m ((c : Thread nD τ).loc main_arg1) := rfl

/-- The run with the result named: the result buffer at the last boundary's contents, the inputs as launched. -/
theorem run_result : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v11 (by decide)),
     (h c _ (mem_uc main_arg0 (by decide))).trans (W4_main_arg0 m ρ c),
     (h c _ (mem_uc main_arg1 (by decide))).trans (W4_main_arg1 m ρ c)⟩) (run_main m ρ)

/-- The frame: the program runs and its inputs end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.Kernel.Fr

end
-- ==== Proof.FrameI0.lean ====
/-
  The first kernel (rows of the two inputs divided by their clipped norms, and the rows' inner products), as one
  region of the program entered with the TensorCore's buffers at contents `V`: what each window's staging buffer
  holds after the body at a grid point, the body's triple, the region's proof data and its obligation at every point.
  Grid point `t` works on rows 512·t … 512·t+511 of both inputs; the three outputs' blocks are the body's three
  stores, each a whole-block store of a pure function of the two input blocks.
-/
import proofs.«135420_j3994319585478_1_alg».proof.Proof.Gen.KernelIdeal.Launch
import proofs.«135420_j3994319585478_1_alg».proof.Proof.Gen.KernelIdeal.Skeleton
import proofs.«135420_j3994319585478_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole block of a 512×256 staging buffer, and of a 512×1 one. -/
abbrev rB : Rect S512x256 := Rect.unit (s := S512x256) ![0, 0] S512x256.size inb_S512x256_S512x256_0_0
abbrev rC : Rect S512x1 := Rect.unit (s := S512x1) ![0, 0] S512x1.size inb_S512x1_S512x1_0_0

/-- What the body leaves in the three output windows' buffers, from the two input blocks. -/
def out0_2 (x0 : Vec F S512x256 .f32) : Vec F S512x256 .bf16 :=
  View.canon [⟨rB, k0_pay4 (View.ld x0 rB)⟩]
def out0_3 (x1 : Vec F S512x256 .f32) : Vec F S512x256 .bf16 :=
  View.canon [⟨rB, k0_pay5 (View.ld x1 rB)⟩]
def out0_4 (x0 x1 : Vec F S512x256 .f32) : Vec F S512x1 .f32 :=
  View.canon [⟨rC, k0_pay3 (View.ld x0 rB) (View.ld x1 rB)⟩]

/-- One whole-block store covers the block. -/
theorem coverB (p0 : Vec F S512x256 .bf16) (y : S512x256.Idx) :
    ∃ pc ∈ ([⟨rB, p0⟩] : List (View.Piece (Elt F) S512x256 .bf16)), y ∈ pc.1.set :=
  View.cover_of_tiled [⟨rB, p0⟩] S512x256.size (by rfl) y
theorem coverC (p0 : Vec F S512x1 .f32) (y : S512x1.Idx) :
    ∃ pc ∈ ([⟨rC, p0⟩] : List (View.Piece (Elt F) S512x1 .f32)), y ∈ pc.1.set :=
  View.cover_of_tiled [⟨rC, p0⟩] S512x1.size (by rfl) y

set_option maxHeartbeats 2000000 in
/-- The body on whole staging memrefs, the inputs' at contents `x0`, `x1` and the outputs' at anything, runs to the
    continuation holding the inputs' as they were and each output's at its function of the inputs'. -/
theorem sound_kernel0 (c : Dev nD) (E : Set ℕ) (i : grid0.Coords)
    (arg1 : Memref sig .tc .vmem S512x256 .f32) (harg1 : arg1.IsWhole) (arg2 : Memref sig .tc .vmem S512x256 .f32) (harg2 : arg2.IsWhole)
    (arg3 : Memref sig .tc .vmem S512x256 .bf16) (harg3 : arg3.IsWhole) (arg4 : Memref sig .tc .vmem S512x256 .bf16) (harg4 : arg4.IsWhole)
    (arg5 : Memref sig .tc .vmem S512x1 .f32) (harg5 : arg5.IsWhole)
    (x0 x1 : Vec F S512x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)
            ∗ owns (c : Thread nD τ) arg5 fullShare (out0_4 x0 x1)) -∗ K ⟨⟩))
      ⊢ wp frame (wpE (defs₀ (F := F)) Variants.none c none) E (cc0__normalize_kernel i arg1 harg1 arg2 harg2 arg3 harg3 arg4 harg4 arg5 harg5) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverB _)
  isplitl [H3]
  · iexists _; isplitr
    swap; · iexact H3
    ipureintro
    exact View.read_writes_eq_canon _ _ _ (coverB _)
  iexists _; isplitr
  swap; · iexact H4
  ipureintro
  exact View.read_writes_eq_canon _ _ _ (coverC _)

/-- The region's proof data on core `c`: the arrays as the region finds them; after the body at point `t` each
    input's buffer at its block and each output's at its function of the input blocks; the invariant the scoped
    rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.FrameI1Runs.lean ====
/-
  The second kernel (per block of 1024 rows, the running sum over eight blocks of 1024 columns of the masked
  exponentials of the rows' inner products) as a region entered with the TensorCore's buffers at contents `V`:
  the body's two conditions in closed form over the 8×8 grid (the column block is the point's index mod 8: the
  accumulator is reset at column block 0 and the output is stored at column block 7), where the output window is
  idle, the staging and scratch memrefs, and the body's triple in each of the three cases the grid meets.
-/
import proofs.«135420_j3994319585478_1_alg».proof.Proof.Gen.KernelIdeal.Launch
import proofs.«135420_j3994319585478_1_alg».proof.Proof.Gen.KernelIdeal.Skeleton
import proofs.«135420_j3994319585478_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region1

/-- The body's first condition (the column block is 0), from the grid coordinates; -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- and its second (the column block is 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle; the output window is idle, and not written back, except at column block 7. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the output window, through which its contents are stated. -/
abbrev VO1_2 : View sig .tc .vmem S1024x1 .f32 := (Memref.whole cc1_stg2_0 : Memref sig .tc .vmem S1024x1 .f32).view
/-- Each window's current staging memref at point `t`, and its wholeness. -/
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
/-- The accumulator: a whole scoped buffer of the kernel's own, carried from point to point. -/
abbrev scM1_0 : Memref sig .tc .vmem S1024x1 .f32 := Memref.whole cc1_scratch0
abbrev VS1_0 : View sig .tc .vmem S1024x1 .f32 := scM1_0.view

set_option maxHeartbeats 4000000 in
/-- Column block 0 (not 7): the accumulator is reset, then the block's sums are added; the output is left alone. -/
noncomputable def kernelRun1_A (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 x1 : Vec F S1024x256 .bf16) :
    { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__denom_kernel i arg2 harg2 arg3 harg3 arg4 harg4 arg5 harg5) K } := by
  refine ⟨?_, fun xi2 E K => ?run⟩
  case run =>
    simp only [cc1__denom_kernel_eq_skeleton]; unfold cc1__denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Column blocks 1 to 6: the block's sums are added to the accumulator the point before left; the output is left alone. -/
noncomputable def kernelRun1_B (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 x1 : Vec F S1024x256 .bf16) (xs0 : Vec F S1024x1 .f32) :
    { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__denom_kernel i arg2 harg2 arg3 harg3 arg4 harg4 arg5 harg5) K } := by
  refine ⟨?_, fun xi2 E K => ?run⟩
  case run =>
    simp only [cc1__denom_kernel_eq_skeleton]; unfold cc1__denom_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Column block 7: the block's sums are added to the accumulator, and the accumulator is stored to the output. -/
noncomputable def kernelRun1_C (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x256 .bf16) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__denom_kernel i arg2 harg2 arg3 harg3 arg4 harg4 arg5 harg5) K } := by
  refine ⟨?_, ?_, fun E K => ?run⟩
  case run =>
    simp only [cc1__denom_kernel_eq_skeleton]; unfold cc1__denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Region1

end Cert.KernelIdeal.Fr

end
-- ==== Proof.FrameI1.lean ====
/-
  The second kernel as a region, continued: what the accumulator and the output window's buffer hold after each grid
  point (by recursion on the point: reset at column block 0, one block of 1024 columns added per point, stored to the
  output at column block 7), the region's invariant (the accumulator at what the point before left), its proof data
  and its obligation at every point.
-/
import proofs.«135420_j3994319585478_1_alg».proof.Proof.Gen.KernelIdeal.Launch
import proofs.«135420_j3994319585478_1_alg».proof.Proof.Gen.KernelIdeal.Skeleton
import proofs.«135420_j3994319585478_1_alg».proof.Proof.Gen.KernelIdeal.Points
import proofs.«135420_j3994319585478_1_alg».proof.Proof.FrameI1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 x1 : Vec F S1024x256 .bf16) (y : S1024x1.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1024x1.size (by sl_kernel_rfl) y
def sout1_A (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 x1 : Vec F S1024x256 .bf16) : Vec F S1024x1 .f32 :=
  VS1_0.read (Elt F) (VS1_0.writes (Elt F) VS1_0.junk (kernelRun1_A c i arg2 harg2 arg3 harg3 arg4 harg4 arg5 harg5 hc0 hc1 x0 x1).1)

theorem scover1_B (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 x1 : Vec F S1024x256 .bf16) (xs0 : Vec F S1024x1 .f32) (y : S1024x1.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S1024x1.size (by sl_kernel_rfl) y
def sout1_B (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 x1 : Vec F S1024x256 .bf16) (xs0 : Vec F S1024x1 .f32) : Vec F S1024x1 .f32 :=
  VS1_0.read (Elt F) (VS1_0.writes (Elt F) VS1_0.junk (kernelRun1_B c i arg2 harg2 arg3 harg3 arg4 harg4 arg5 harg5 hc0 hc1 x0 x1 xs0).1)

theorem cover1_C (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x256 .bf16) (xs0 : Vec F S1024x1 .f32) (y : S1024x1.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x1.size (by sl_kernel_rfl) y
def out1_C (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x256 .bf16) (xs0 : Vec F S1024x1 .f32) : Vec F S1024x1 .f32 :=
  VO1_2.read (Elt F) (VO1_2.writes (Elt F) VO1_2.junk (kernelRun1_C c i arg2 harg2 arg3 harg3 arg4 harg4 arg5 harg5 hc0 hc1 x0 x1 xs0).1)
theorem scover1_C (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x256 .bf16) (xs0 : Vec F S1024x1 .f32) (y : S1024x1.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x1.size (by sl_kernel_rfl) y
def sout1_C (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x256 .bf16) (xs0 : Vec F S1024x1 .f32) : Vec F S1024x1 .f32 :=
  VS1_0.read (Elt F) (VS1_0.writes (Elt F) VS1_0.junk (kernelRun1_C c i arg2 harg2 arg3 harg3 arg4 harg4 arg5 harg5 hc0 hc1 x0 x1 xs0).2.1)

/-- A placeholder for the output window's buffer at the points where it is idle (nothing consults it there). -/
def outIdle : Vec F S1024x1 .f32 := VO1_2.read (Elt F) VO1_2.junk

/-! ## The accumulation -/

/-- What the output window's buffer and the accumulator hold after the body at position `n`. -/
def outsAt1 (c : Dev nD) : (n : ℕ) → n < cfg1.N → Vec F S1024x1 .f32 × Vec F S1024x1 .f32
  | 0, hn => (outIdle, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (outIdle, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (outIdle, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (outIdle, sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (outIdle, sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The scoped buffers that are no staging buffer of this kernel, the accumulator at `S`, and the generator register. -/
def restWith (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S) ∗ (∃ r, prngReg c r))
/-- The same without the accumulator. -/
def restOnly (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ r, prngReg c r))

theorem restWith_elim (c : Dev nD) (S : sProp 𝕄) : restWith (F := F) c S ⊢ iprop(restOnly (F := F) c ∗ S) := by
  unfold restWith restOnly
  iintro ⟨⟨HR0, HR1, HR2, HR3, HR4, HR5, HR6, HR7, HR8, HR9, HS⟩, Hg⟩
  isplitr [HS]
  swap; · iexact HS
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  iexact Hg
theorem restWith_intro (c : Dev nD) (S : sProp 𝕄) : iprop(restOnly (F := F) c ∗ S) ⊢ restWith (F := F) c S := by
  unfold restWith restOnly
  iintro ⟨⟨HR0, HR1, HR2, HR3, HR4, HR5, HR6, HR7, HR8, HR9, Hg⟩, HS⟩
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  iexact HS

/-- The class invariant is the rest with the accumulator at anything. -/
theorem PhiA1_eq (c : Dev nD) :
    (Pipeline.ΦA spec1 c : sProp 𝕄) = restWith (F := F) c (iprop(∃ d, owns (c : Thread nD τ) scM1_0 fullShare d)) := by
  unfold Pipeline.ΦA restWith; rw [scopedRest1_eq]; simp only [scM1_0, owns_whole]; try rfl

/-- The region invariant before position `n`: before the first point the class's; afterwards the rest with the
    accumulator at what the point before left. -/
def PhiS (c : Dev nD) : (n : ℕ) → n ≤ cfg1.N → sProp 𝕄
  | 0, _ => Pipeline.ΦA spec1 c
  | n + 1, hn => restWith (F := F) c (owns (c : Thread nD τ) scM1_0 fullShare ((outsAt1 V c n hn).2))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = restWith (F := F) c (owns (c : Thread nD τ) scM1_0 fullShare ((outsAt1 V c n hn).2)) := rfl
theorem PhiS_pos (c : Dev nD) (n : ℕ) (h : n ≤ cfg1.N) (hz : n ≠ 0) :
    PhiS V c n h = restWith (F := F) c (owns (c : Thread nD τ) scM1_0 fullShare ((outsAt1 V c (n - 1) (by omega)).2)) := by
  cases n with
  | zero => exact absurd rfl hz
  | succ n => rfl

/-! ## The proof data -/

/-- The region's proof data on core `c`. The two input windows read the one stacked array, each at half of its share. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms say which case the point is in; the invariant hands the body the
    accumulator at what the point before left (at anything at a reset) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    have hrun : iprop(restOnly (F := F) c ∗ (∃ d, owns (c : Thread nD τ) scM1_0 fullShare d) ∗ (dat1 V c).owesAt () t.castSucc
          ∗ owns (c : Thread nD τ) (ms1_0 t) fullShare (iblk1 V c 0 t) ∗ owns (c : Thread nD τ) (ms1_1 t) fullShare (iblk1 V c 1 t)
          ∗ (∃ d, owns (c : Thread nD τ) (ms1_2 t) fullShare ((dat1 V c).before 2 t d)))
        ⊢ wp frame (wpE (defs₀ (F := F)) Variants.none c none) Set.univ (bodyAt1 t) (fun _ => iprop(
          restWith (F := F) c (owns (c : Thread nD τ) scM1_0 fullShare (VS1_0.read (Elt F) (VS1_0.writes (Elt F) VS1_0.junk (kernelRun1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)).1)))
          ∗ (dat1 V c).owesAt () t.castSucc ∗ owns (c : Thread nD τ) (ms1_0 t) fullShare (iblk1 V c 0 t) ∗ owns (c : Thread nD τ) (ms1_1 t) fullShare (iblk1 V c 1 t)
          ∗ (∃ d, owns (c : Thread nD τ) (ms1_2 t) fullShare ((dat1 V c).before 2 t d)))) := by
      unfold bodyAt1
      iintro ⟨HR, HS0, Ho, H0, H1, ⟨%d2, H2⟩⟩
      iapply ((kernelRun1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0]
      · iapply (restWith_intro (F := F) c _)
        isplitl [HR]; · iexact HR
        unfold owns; iexists _; isplitr
        swap; · iexact HS0
        ipureintro; exact View.read_writes_of_cover _ _ _ _ _ (scover1_A c _ _ _ _ _ _ _ _ _ _ _ _ _)
      isplitl [Ho]; · iexact Ho
      isplitl [H0]; · iexact H0
      isplitl [H1]; · iexact H1
      iexists _; iexact H2
    refine BIBase.Entails.trans ?_ hrun
    by_cases hz : t.val = 0
    · rw [PhiS_castSucc V c t, PhiS_zero V c _ _ hz, PhiA1_eq]
      iintro ⟨HΦ, Ho, ⟨%d0, H0⟩, ⟨%d1, H1⟩, H2⟩
      ihave HΦ' := (restWith_elim (F := F) c _) $$ HΦ
      icases HΦ' with ⟨HR, HS0⟩
      isplitl [HR]; · iexact HR
      isplitl [HS0]; · iexact HS0
      isplitl [Ho]; · iexact Ho
      isplitl [H0]; · iexact H0
      isplitl [H1]; · iexact H1
      iexact H2
    · rw [PhiS_castSucc V c t, PhiS_pos V c _ _ hz]
      iintro ⟨HΦ, Ho, ⟨%d0, H0⟩, ⟨%d1, H1⟩, H2⟩
      ihave HΦ' := (restWith_elim (F := F) c _) $$ HΦ
      icases HΦ' with ⟨HR, HS0⟩
      isplitl [HR]; · iexact HR
      isplitl [HS0]; · iexists _; iexact HS0
      isplitl [Ho]; · iexact Ho
      isplitl [H0]; · iexact H0
      isplitl [H1]; · iexact H1
      iexact H2
  · have hz : t.val ≠ 0 := fun h => h0 (by rw [h])
    rw [PhiS_castSucc V c t, PhiS_pos V c _ _ hz]
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      iintro ⟨HΦ, Ho, ⟨%d0, H0⟩, ⟨%d1, H1⟩, ⟨%d2, H2⟩⟩
      ihave HΦ' := (restWith_elim (F := F) c _) $$ HΦ
      icases HΦ' with ⟨HR, HS0⟩
      iapply ((kernelRun1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR HS0]
      · iapply (restWith_intro (F := F) c _)
        isplitl [HR]; · iexact HR
        unfold owns; iexists _; isplitr
        swap; · iexact HS0
        ipureintro; exact View.read_writes_of_cover _ _ _ _ _ (scover1_C c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      iintro ⟨HΦ, Ho, ⟨%d0, H0⟩, ⟨%d1, H1⟩, ⟨%d2, H2⟩⟩
      ihave HΦ' := (restWith_elim (F := F) c _) $$ HΦ
      icases HΦ' with ⟨HR, HS0⟩
      iapply ((kernelRun1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0]
      · iapply (restWith_intro (F := F) c _)
        isplitl [HR]; · iexact HR
        unfold owns; iexists _; isplitr
        swap; · iexact HS0
        ipureintro; exact View.read_writes_of_cover _ _ _ _ _ (scover1_B c _ _ _ _ _ _ _ _ _ _ _ _ _ _)
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point; -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- and after the last point the invariant gives it back, the accumulator's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro H
  ihave H' := (restWith_elim (F := F) c _) $$ H
  icases H' with ⟨HR, HS0⟩
  iapply (restWith_intro (F := F) c _)
  isplitl [HR]; · iexact HR
  iexists _; iexact HS0

end Region1

end Cert.KernelIdeal.Fr

end
-- ==== Proof.RunI.lean ====
/-
  The whole program as a run: the TensorCore's buffer contents at every boundary between the program's items (the
  first kernel's region, the host concatenation, the second kernel's region, the host operations that finish the loss),
  each region as a segment entered from the contents before it and left at the contents after it, and the run: every
  weakly fair execution terminates with every unscoped buffer at the last boundary's contents — in particular the
  result and the two inputs. The second kernel reads the one stacked array through two windows: each holds half of
  the array's share, split at the region's entry and joined at its exit.
-/
import proofs.«135420_j3994319585478_1_alg».proof.Proof.Gen.KernelIdeal.Launch
import proofs.«135420_j3994319585478_1_alg».proof.Proof.Gen.KernelIdeal.Skeleton
import proofs.«135420_j3994319585478_1_alg».proof.Proof.Gen.KernelIdeal.Points
import proofs.«135420_j3994319585478_1_alg».proof.Proof.FrameI0
import proofs.«135420_j3994319585478_1_alg».proof.Proof.FrameI1
import proofs.«135420_j3994319585478_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- After the first region: its arrays at what its write-backs leave, every other buffer as before. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)
/-- After the concatenation. -/
def W2 (c : Dev nD) : Valuation τ sig (Elt F) := StableHlo.after hostOps1 (W1 m ρ c)
abbrev U2 : (c : Dev nD) → (b : Ref sig .tc) → Buf (Elt F) ((c : Thread nD τ).loc b) := fun c b => W2 m ρ c b
/-- After the second region: the denominators' array at what its write-backs leave, every other buffer as before. -/
def W3 (c : Dev nD) : Valuation τ sig (Elt F) :=
  Function.update (W2 m ρ c) (Proc.devRef .tc main_v2) ((dat1 (U2 m ρ) c).arrAt 2 cfg1.N)
abbrev U3 : (c : Dev nD) → (b : Ref sig .tc) → Buf (Elt F) ((c : Thread nD τ).loc b) := fun c b => W3 m ρ c b
theorem U3_main_v2 (c : Dev nD) : U3 m ρ c main_v2 = (dat1 (U2 m ρ) c).arrAt 2 cfg1.N := by
  unfold U3 W3; exact Function.update_self ..
theorem U3_of_ne (c : Dev nD) (b : Ref sig .tc) (hb : b ≠ main_v2) : U3 m ρ c b = U2 m ρ c b := by
  unfold U3 W3; exact Function.update_of_ne (StableHlo.devRef_ne_of_ne hb) ..
/-- After the last host operations. -/
def W4 (c : Dev nD) : Valuation τ sig (Elt F) := StableHlo.after hostOps2 (W3 m ρ c)

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (U0 m ρ) c
  | ⟨1, _⟩ => fun c => dat1 (U2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The first region as a segment -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment: the stacked array's share split between the two windows that read it -/

/-- The buffers behind the second kernel's windows: the stacked array (windows 0 and 1) and the denominators'. -/
theorem arrBufs1_eq (c : Dev nD) (V : (b : Ref sig .tc) → Buf (Elt F) ((c : Thread nD τ).loc b)) :
    (Pipeline.arrBufs (Ix := Unit) (Name := ℕ) (U := Pipeline.UD sig nD τ) (Lvl := ℕ) spec1 c V : sProp 𝕄)
      = iprop((((c : Thread nD τ).loc main_v1) ↦{fullShare} V main_v1) ∗ (((c : Thread nD τ).loc main_v2) ↦{fullShare} V main_v2)) := by
  unfold Pipeline.arrBufs
  rw [BI.bigSep_eq_bigSepL_of_eq [main_v1, main_v2] (by decide) (by decide)]; rfl

/-- The region's arrays, window by window. -/
theorem arrays1_eq (c : Dev nD) (G : (w : Fin cfg1.W) → Buf (Elt F) ((cfg1.win w).arr.view.loc (c : Thread nD τ))) :
    ((pdats m ρ 1 c).arrays G : sProp 𝕄)
      = iprop((((c : Thread nD τ).loc main_v1) ↦{fullShare.left} G 0) ∗ (((c : Thread nD τ).loc main_v1) ↦{fullShare.right} G 1) ∗ (((c : Thread nD τ).loc main_v2) ↦{fullShare} G 2)) := by
  unfold Pipeline.Dat.arrays
  rw [bigSep_W1]
  have e0 : ((Pipeline.pin (pcfgs (F := F)) adm 1).win (0 : Fin 3)).arr.view.set = Finset.univ := (arr_whole1 0).set_eq_univ
  have e1 : ((Pipeline.pin (pcfgs (F := F)) adm 1).win (1 : Fin 3)).arr.view.set = Finset.univ := (arr_whole1 1).set_eq_univ
  have e2 : ((Pipeline.pin (pcfgs (F := F)) adm 1).win (2 : Fin 3)).arr.view.set = Finset.univ := (arr_whole1 2).set_eq_univ
  rw [e0, e1, e2]
  rfl

/-- ENTRY: the unscoped buffers at the contents before the region are the region's arrays, the stacked array's share
    split in two, and the rest. -/
theorem entry1 (c : Dev nD) :
    (StableHlo.held (c : Thread nD τ) (Pipeline.ucRefs τ sig) (W2 m ρ c) : sProp 𝕄)
      ⊢ iprop((pdats m ρ 1 c).arrays ((pdats m ρ 1 c).arrAt · 0)
          ∗ Pipeline.unscopedRest (Ix := Unit) (Name := ℕ) (U := Pipeline.UD sig nD τ) (Lvl := ℕ) spec1 c (U2 m ρ c)) := by
  rw [← Pipeline.unscopedBufs_held (Ix := Unit) (Name := ℕ) (U := Pipeline.UD sig nD τ) (Lvl := ℕ) c (W2 m ρ c),
    Pipeline.unscopedBufs_split₀ (Pipeline.pin (pcfgs (F := F)) adm) 1 winFacts₀1.arr_unscoped c (U2 m ρ c)]
  show iprop(Pipeline.arrBufs (Ix := Unit) (Name := ℕ) (U := Pipeline.UD sig nD τ) (Lvl := ℕ) spec1 c (U2 m ρ c)
      ∗ Pipeline.unscopedRest (Ix := Unit) (Name := ℕ) (U := Pipeline.UD sig nD τ) (Lvl := ℕ) spec1 c (U2 m ρ c)) ⊢ _
  rw [arrBufs1_eq, arrays1_eq]
  iintro ⟨⟨H1, H2⟩, Hrest⟩
  ihave H1' := (pointsTo_share (PosShare.mem_left_op_right fullShare)).1 $$ H1
  icases H1' with ⟨Hl, Hr⟩
  isplitr [Hrest]
  swap; · iexact Hrest
  isplitl [Hl]; · iexact Hl
  isplitl [Hr]; · iexact Hr
  iexact H2

/-- EXIT: the region's arrays at what it leaves (the stacked array as it was, the denominators' as written back) and
    the rest are the unscoped buffers at the contents after the region. -/
theorem exit1 (c : Dev nD) :
    iprop((pdats m ρ 1 c).arrays ((pdats m ρ 1 c).arrAt · cfg1.N)
          ∗ Pipeline.unscopedRest (Ix := Unit) (Name := ℕ) (U := Pipeline.UD sig nD τ) (Lvl := ℕ) spec1 c (U2 m ρ c))
      ⊢ (StableHlo.held (c : Thread nD τ) (Pipeline.ucRefs τ sig) (W3 m ρ c) : sProp 𝕄) := by
  rw [← Pipeline.unscopedBufs_held (Ix := Unit) (Name := ℕ) (U := Pipeline.UD sig nD τ) (Lvl := ℕ) c (W3 m ρ c),
    Pipeline.unscopedBufs_split₀ (Pipeline.pin (pcfgs (F := F)) adm) 1 winFacts₀1.arr_unscoped c (U3 m ρ c)]
  show _ ⊢ iprop(Pipeline.arrBufs (Ix := Unit) (Name := ℕ) (U := Pipeline.UD sig nD τ) (Lvl := ℕ) spec1 c (U3 m ρ c)
      ∗ Pipeline.unscopedRest (Ix := Unit) (Name := ℕ) (U := Pipeline.UD sig nD τ) (Lvl := ℕ) spec1 c (U3 m ρ c))
  rw [arrBufs1_eq, arrays1_eq]
  have h0 : (pdats m ρ 1 c).arrAt 0 cfg1.N = U3 m ρ c main_v1 :=
    ((dat1 (U2 m ρ) c).arrAt_in 0 rfl _).trans ((A_eq1 (U2 m ρ) c 0).trans (U3_of_ne m ρ c main_v1 (by decide)).symm)
  have h1 : (pdats m ρ 1 c).arrAt 1 cfg1.N = U3 m ρ c main_v1 :=
    ((dat1 (U2 m ρ) c).arrAt_in 1 rfl _).trans ((A_eq1 (U2 m ρ) c 1).trans (U3_of_ne m ρ c main_v1 (by decide)).symm)
  have h2 : (pdats m ρ 1 c).arrAt 2 cfg1.N = U3 m ρ c main_v2 := (U3_main_v2 m ρ c).symm
  have hrest : (Pipeline.unscopedRest (Ix := Unit) (Name := ℕ) (U := Pipeline.UD sig nD τ) (Lvl := ℕ) spec1 c (U2 m ρ c) : sProp 𝕄)
      = Pipeline.unscopedRest (Ix := Unit) (Name := ℕ) (U := Pipeline.UD sig nD τ) (Lvl := ℕ) spec1 c (U3 m ρ c) := by
    unfold Pipeline.unscopedRest
    exact bigSep_congr fun b hb => by
      rw [U3_of_ne m ρ c b (fun e => (Finset.mem_sdiff.mp hb).2 (Finset.mem_image.mpr ⟨2, Finset.mem_univ _, e.symm⟩))]
  rw [h0, h1, h2, hrest]
  iintro ⟨⟨Hl, Hr, H2⟩, Hrest⟩
  isplitr [Hrest]
  swap; · iexact Hrest
  isplitr [H2]
  swap; · iexact H2
  iapply (pointsTo_share (PosShare.mem_left_op_right fullShare)).2
  isplitl [Hl]; · iexact Hl
  iexact Hr

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (U2 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U2 m ρ) c)
    unfold Pipeline.ΦA
    iintro ⟨Hp, -, Hr⟩
    isplitl [Hr]; · iexact Hr
    iexact Hp
  hout c := by
    rw [Pipeline.ownSems0_none]
    refine BIBase.Entails.trans (hout1 (U2 m ρ) c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m ρ c); isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

set_option backward.isDefEq.respectTransparency.types false in
/-- THE RUN: from any memory with zero counters, every weakly fair execution of @main on the TensorCores terminates,
    nothing faulting, and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj embL defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c) ⊢ _
      iintro ⟨Hh, Hp, HO⟩
      isplitr [HO]
      swap; · iexact HO
      isplitl [Hh]; · iexact Hh
      iexact Hp⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The inputs end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := U3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := U3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (U0 m ρ) c).arrAt_in 1 rfl _).trans (A_eq0 (U0 m ρ) c 1))
    _ = m ((c : Thread nD τ).loc main_arg1) := rfl

/-- The run with the result named: the result buffer at the last boundary's contents, the inputs as launched. -/
theorem run_result : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v11 (by decide)),
     (h c _ (mem_uc main_arg0 (by decide))).trans (W4_main_arg0 m ρ c),
     (h c _ (mem_uc main_arg1 (by decide))).trans (W4_main_arg1 m ρ c)⟩) (run_main m ρ)

/-- The frame: the program runs and its inputs end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.KernelIdeal.Fr

end
-- ==== Proof.Spec.lean ====
/-
  The loss both programs compute, as one function of the two input matrices, on the extended reals.

  Rows of `zi` and `zj` (4096 rows of 256 entries each) are divided by their Euclidean norm clipped below at
  `eps`; the 8192 unit rows are stacked (`zi`'s first); `sim r c` is the inner product of unit rows `r`
  and `c`; row `r`'s partner is the row 4096 away; the loss is minus the mean over the 8192 rows of
  `log (exp (sim r (partner r) / half) / den r)`, where `den r` sums `exp (sim r c / half)` over the columns
  `c ≠ r`. The three float literals are kept as their words (the same word on both sides is never evaluated).
-/
import Idealize.ShloMosaic.PureOps.Ideal
import Idealize.ShloMosaic.Lib.ValueIdx

noncomputable section

namespace Cert.NtXent

open Idealize.ShloMosaic

/-- The clip of the norm, the temperature and the row count, as the programs' words. -/
def eps : EReal := Ideal.ofBits .f32 0x322BCC77#32
def half : EReal := Ideal.ofBits .f32 0x3F000000#32
def cnt : EReal := Ideal.ofBits .f32 0x46000000#32

/-- A row's Euclidean norm, clipped below at `eps`. -/
def nrm (z : Fin 4096 → Fin 256 → EReal) (r : Fin 4096) : EReal :=
  max (Ideal.sqrt (∑ d : Fin 256, z r d * z r d)) eps

/-- A row divided by its clipped norm. -/
def unitRow (z : Fin 4096 → Fin 256 → EReal) (r : Fin 4096) (d : Fin 256) : EReal :=
  Ideal.div (z r d) (nrm z r)

/-- The 8192 unit rows stacked: `zi`'s, then `zj`'s. -/
def zn (zi zj : Fin 4096 → Fin 256 → EReal) (r : Fin 8192) (d : Fin 256) : EReal :=
  if h : r.val < 4096 then unitRow zi ⟨r.val, h⟩ d else unitRow zj ⟨r.val - 4096, by omega⟩ d

/-- The inner product of unit rows `r` and `c`. -/
def sim (zi zj : Fin 4096 → Fin 256 → EReal) (r c : Fin 8192) : EReal :=
  ∑ d : Fin 256, zn zi zj r d * zn zi zj c d

/-- The row 4096 away. -/
def partner (r : Fin 8192) : Fin 8192 :=
  if h : r.val < 4096 then ⟨r.val + 4096, by omega⟩ else ⟨r.val - 4096, by omega⟩

/-- Row `r`'s denominator: the sum over the other columns of `exp (sim r c / half)`. -/
def den (zi zj : Fin 4096 → Fin 256 → EReal) (r : Fin 8192) : EReal :=
  ∑ c : Fin 8192, if r = c then 0 else Ideal.exp (Ideal.div (sim zi zj r c) half)

/-- Row `r`'s term of the loss. -/
def term (zi zj : Fin 4096 → Fin 256 → EReal) (r : Fin 8192) : EReal :=
  Ideal.log (Ideal.div (Ideal.exp (Ideal.div (sim zi zj r (partner r)) half)) (den zi zj r))

/-- The loss. -/
def loss (zi zj : Fin 4096 → Fin 256 → EReal) : EReal :=
  - Ideal.div (∑ r : Fin 8192, term zi zj r) cnt

end Cert.NtXent

end
-- ==== Proof.LibHostIx.lean ====
/-
  Host operations on literal-shaped arrays read at one index, for any extents.

  Layout: two matrices stacked by rows; a scalar, a column, a row and a vector broadcast to a larger array;
  a unit-stride slice of a vector. Arithmetic at the ideal values: the sum over each row of a matrix and
  the sum of a vector, each from an initial value; the product of a matrix with the transpose of another
  (both contracted along their second axis) at an entry; and the element of a matrix picked by a pair of
  start indices, each read as a signed integer and clamped into its axis. Words: the 32-bit word of a natural
  below 8192 under the signed remainder by 4096, when two such words are equal or negative, and a bit read as
  an unsigned integer at the ideal values.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.RefValLib

open Idealize.ShloMosaic Idealize.ShloMosaic.ValueIdx

/-! ## Layout -/

section Layout
variable {α : Type}

/-- Stacked by rows, at a row below the first height: the first matrix at the same row and column. -/
theorem concatenate_rows_apply_left {A B T C : Nat}
    (x₁ : (⟨2, ![A, C]⟩ : Shape).Idx → α) (x₂ : (⟨2, ![B, C]⟩ : Shape).Idx → α)
    (h : Shape.Concatenates [⟨2, ![A, C]⟩, ⟨2, ![B, C]⟩] ⟨2, ![T, C]⟩ 0)
    (p : Fin T) (k : Fin C) (hp : p.val < A) :
    concatenate ⟨2, ![T, C]⟩ 0 [⟨⟨2, ![A, C]⟩, x₁⟩, ⟨⟨2, ![B, C]⟩, x₂⟩] h (ix2 p k)
      = x₁ (ix2 ⟨p.val, hp⟩ k) :=
  concatenate_pair_apply_left _ x₁ x₂ h (ix2 p k) rfl (ix2 ⟨p.val, hp⟩ k)
    (fun b => match b with | ⟨0, _⟩ => rfl | ⟨1, _⟩ => rfl)

/-- Stacked by rows, at row `A + p'`: the second matrix at row `p'` and the same column. -/
theorem concatenate_rows_apply_right {A B T C : Nat}
    (x₁ : (⟨2, ![A, C]⟩ : Shape).Idx → α) (x₂ : (⟨2, ![B, C]⟩ : Shape).Idx → α)
    (h : Shape.Concatenates [⟨2, ![A, C]⟩, ⟨2, ![B, C]⟩] ⟨2, ![T, C]⟩ 0)
    (p : Fin T) (k : Fin C) (p' : Fin B) (hp : p.val = A + p'.val) :
    concatenate ⟨2, ![T, C]⟩ 0 [⟨⟨2, ![A, C]⟩, x₁⟩, ⟨⟨2, ![B, C]⟩, x₂⟩] h (ix2 p k)
      = x₂ (ix2 p' k) :=
  concatenate_pair_apply_right _ x₁ x₂ h (ix2 p k) rfl rfl (ix2 p' k)
    (fun b hb => match b, hb with
      | ⟨0, _⟩, hb => (hb rfl).elim
      | ⟨1, _⟩, _ => rfl)
    (by show p'.val + A = p.val; omega)

/-- Two one-column matrices side by side, at column 0: the first. -/
theorem concatenate_cols2_apply_zero {R : Nat}
    (x₁ x₂ : (⟨2, ![R, 1]⟩ : Shape).Idx → α)
    (h : Shape.Concatenates [⟨2, ![R, 1]⟩, ⟨2, ![R, 1]⟩] ⟨2, ![R, 2]⟩ 1) (r : Fin R) :
    concatenate ⟨2, ![R, 2]⟩ 1 [⟨⟨2, ![R, 1]⟩, x₁⟩, ⟨⟨2, ![R, 1]⟩, x₂⟩] h (ix2 r (0 : Fin 2))
      = x₁ (ix2 r (0 : Fin 1)) :=
  concatenate_pair_apply_left _ x₁ x₂ h (ix2 r (0 : Fin 2)) rfl (ix2 r (0 : Fin 1))
    (fun b => match b with | ⟨0, _⟩ => rfl | ⟨1, _⟩ => rfl)

/-- Two one-column matrices side by side, at column 1: the second. -/
theorem concatenate_cols2_apply_one {R : Nat}
    (x₁ x₂ : (⟨2, ![R, 1]⟩ : Shape).Idx → α)
    (h : Shape.Concatenates [⟨2, ![R, 1]⟩, ⟨2, ![R, 1]⟩] ⟨2, ![R, 2]⟩ 1) (r : Fin R) :
    concatenate ⟨2, ![R, 2]⟩ 1 [⟨⟨2, ![R, 1]⟩, x₁⟩, ⟨⟨2, ![R, 1]⟩, x₂⟩] h (ix2 r (1 : Fin 2))
      = x₂ (ix2 r (0 : Fin 1)) :=
  concatenate_pair_apply_right _ x₁ x₂ h (ix2 r (1 : Fin 2)) rfl rfl (ix2 r (0 : Fin 1))
    (fun b hb => match b, hb with
      | ⟨0, _⟩, _ => rfl
      | ⟨1, _⟩, hb => (hb rfl).elim)
    rfl

/-- A scalar broadcast to any shape reads the scalar everywhere. -/
theorem broadcastInDim_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A vector as a one-column matrix reads, at `(e, z)`, the vector at `e`. -/
theorem broadcastInDim_col_apply {R : Nat} (x : (⟨1, ![R]⟩ : Shape).Idx → α)
    (h : (⟨1, ![R]⟩ : Shape).BroadcastsInDim ⟨2, ![R, 1]⟩ ![0]) (e : Fin R) (z : Fin 1) :
    broadcastInDim ⟨2, ![R, 1]⟩ ![0] h x (ix2 e z) = x (ix1 e) :=
  broadcastInDim_apply _ h x (ix2 e z) (ix1 e) (fun a => match a with
    | ⟨0, _⟩ => by
      show e.val = if R = 1 then 0 else e.val
      have := e.isLt
      split <;> omega)

/-- A vector as a one-row matrix reads, at `(z, c)`, the vector at `c`. -/
theorem broadcastInDim_row_apply {n : Nat} (x : (⟨1, ![n]⟩ : Shape).Idx → α)
    (h : (⟨1, ![n]⟩ : Shape).BroadcastsInDim ⟨2, ![1, n]⟩ ![1]) (z : Fin 1) (c : Fin n) :
    broadcastInDim ⟨2, ![1, n]⟩ ![1] h x (ix2 z c) = x (ix1 c) :=
  broadcastInDim_apply _ h x (ix2 z c) (ix1 c) (fun a => match a with
    | ⟨0, _⟩ => by
      show c.val = if n = 1 then 0 else c.val
      have := c.isLt
      split <;> omega)

/-- A one-column matrix broadcast along its columns reads, at `(p, c)`, the column's entry of row `p`. -/
theorem broadcastInDim_colwide_apply {a b : Nat} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) :=
  broadcastInDim_apply _ h x (ix2 p c) (ix2 p (0 : Fin 1)) (fun ax => match ax with
    | ⟨0, _⟩ => by
      show p.val = if a = 1 then 0 else p.val
      have := p.isLt
      split <;> omega
    | ⟨1, _⟩ => by
      show 0 = if 1 = 1 then 0 else c.val
      rfl)

/-- A one-row matrix broadcast along its rows reads, at `(p, c)`, the row's entry of column `c`. -/
theorem broadcastInDim_rowwide_apply {a b : Nat} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) :=
  broadcastInDim_apply _ h x (ix2 p c) (ix2 (0 : Fin 1) c) (fun ax => match ax with
    | ⟨0, _⟩ => by
      show 0 = if 1 = 1 then 0 else p.val
      rfl
    | ⟨1, _⟩ => by
      show c.val = if b = 1 then 0 else c.val
      have := c.isLt
      split <;> omega)

/-- The slice's side condition bounds the positions read. -/
theorem slices1_lt {M R o : Nat}
    (h : (⟨1, ![M]⟩ : Shape).Slices ![o] ⟨1, ![R]⟩) (r : Fin R) : o + r.val < M := by
  have h0 : o + R ≤ M := h.2 0
  have := r.isLt
  omega

/-- A slice of a vector at `r`: the vector at `o + r`. -/
theorem slice1_apply {M R o : Nat} (x : (⟨1, ![M]⟩ : Shape).Idx → α)
    (h : (⟨1, ![M]⟩ : Shape).Slices ![o] ⟨1, ![R]⟩) (r : Fin R) :
    extractStridedSlice ⟨1, ![R]⟩ ![o] x h (ix1 r) = x (ix1 ⟨o + r.val, slices1_lt h r⟩) :=
  extractStridedSlice_apply _ x h (ix1 r) (ix1 ⟨o + r.val, slices1_lt h r⟩) (fun a => match a with
    | ⟨0, _⟩ => rfl)

end Layout

/-! ## Sums -/

section Sums
variable {φ : FTy}

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) :=
  Fintype.sum_equiv idxEquiv1 f (fun a => f (ix1 a)) (fun i => congrArg f (eq_ix1 i))

/-- The host's sum over each row of a matrix, from an initial scalar: at row `i` the initial value plus the sum of the row. -/
theorem hostReduceAdd_rows {a b : Nat} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel)
    (hr : (⟨2, ![a, b]⟩ : Shape).Reduces [1] ⟨1, ![a]⟩) (i : Fin a) :
    Host.reduceAdd (F := Ideal) x init h hu (ix1 i) = init ix0 + ∑ k : Fin b, x (ix2 i k) := by
  show Ideal.hostReduceAdd h x (init (Shape.Idx.first hu)) (ix1 i) = _
  rw [Ideal.hostReduceAdd_single h hr x _ (ix1 i), eq_ix0 (Shape.Idx.first hu)]
  exact congrArg (init ix0 + ·) (Finset.sum_congr rfl fun k _ => congrArg x (funext fun c => Fin.ext (by
    match c with
    | ⟨0, _⟩ => rfl
    | ⟨1, _⟩ => rfl)))

/-- The host's sum of a vector, from an initial scalar: the initial value plus the sum of the entries. -/
theorem hostReduceAdd_vec {n : Nat} (x : FVec Ideal ⟨1, ![n]⟩ φ) (init : (⟨0, ![]⟩ : Shape).Idx → Ideal φ)
    (h : (⟨1, ![n]⟩ : Shape).ReducesTo [0] ⟨0, ![]⟩) (hu : 0 < (⟨0, ![]⟩ : Shape).numel)
    (j : (⟨0, ![]⟩ : Shape).Idx) :
    Host.reduceAdd (F := Ideal) x init h hu j = init ix0 + ∑ i : Fin n, x (ix1 i) := by
  show Ideal.hostReduceAdd h x (init (Shape.Idx.first hu)) j = _
  rw [Ideal.hostReduceAdd_total h (fun b => b.elim0) x _ j, eq_ix0 (Shape.Idx.first hu), sum_idx1]

end Sums

/-! ## A product with a transposed matrix -/

section Dot

/-- The host's product of an `M × K` matrix with the transpose of an `N × K` matrix (both contracted along their
    second axis, no batch axis) at entry `(a, b)`: the sum over the contracted coordinate of the products of the
    entries `A (a, c)` and `B (b, c)`. -/
theorem dotGeneral_nt_apply {M N K : ℕ} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (F := Ideal) (⟨[1], [1], [0], [0], [], [], w⟩ : DotDims _ _ _) prec A B (ix2 a b)
      = ∑ c : Fin K, A (ix2 a c) * B (ix2 b c) := by
  simp only [Host.dotGeneral]
  rw [Ideal.dotGeneral_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Dot

/-! ## One element of a matrix picked by a pair of start indices -/

section Gather
variable {α : Type}

/-- The dimension numbers of a gather of single elements of a matrix: operand `[M, N]`, start indices `[R, 2]` (row, column), result `[R]`; both operand axes collapsed. -/
abbrev elemDims (M N R : Nat)
    (wf : GatherDims.WF ⟨2, ![M, N]⟩ ⟨2, ![R, 2]⟩ ⟨1, ![R]⟩ [] [0, 1] [] [0, 1] [] 1 ![1, 1]) :
    GatherDims ⟨2, ![M, N]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The gather read at `i`: the matrix at the start index `(idx[i, 0], idx[i, 1])`, each component read signed and clamped into its axis. -/
theorem gather_elem_apply {M N R w : Nat} (hM : 0 < M) (hN : 0 < N)
    (wf : GatherDims.WF ⟨2, ![M, N]⟩ ⟨2, ![R, 2]⟩ ⟨1, ![R]⟩ [] [0, 1] [] [0, 1] [] 1 ![1, 1])
    (x : (⟨2, ![M, N]⟩ : Shape).Idx → α) (idx : IVec ⟨2, ![R, 2]⟩ w) (i : Fin R) :
    Host.gather (elemDims M N R wf) x idx (ix1 i)
      = x (ix2 ⟨min (idx (ix2 i (0 : Fin 2))).toInt.toNat (M - 1), by omega⟩
               ⟨min (idx (ix2 i (1 : Fin 2))).toInt.toNat (N - 1), by omega⟩) := by
  have key : ∀ a : Fin 2, (elemDims M N R wf).start (ix1 i) idx a + (elemDims M N R wf).batchCoord (ix1 i) a
      + (elemDims M N R wf).offCoord (ix1 i) a
      = ((ix2 (⟨min (idx (ix2 i (0 : Fin 2))).toInt.toNat (M - 1), by omega⟩ : Fin M)
               (⟨min (idx (ix2 i (1 : Fin 2))).toInt.toNat (N - 1), by omega⟩ : Fin N)) a).val := by
    refine Fin.forall_fin_two.2 ⟨?_, ?_⟩
    · rw [GatherDims.batchCoord_eq_zero _ _ _ List.not_mem_nil,
        GatherDims.offCoord_eq_zero _ _ _ (fun h => ((GatherDims.mem_sKept _ _).mp h).1 (by simp))]
      simp only [Nat.add_zero]
      unfold GatherDims.start
      rw [dif_pos (show (0 : Fin 2) ∈ (elemDims M N R wf).startIndexMap by simp)]
      have hsi : (elemDims M N R wf).siIdx (ix1 i) ⟨List.idxOf (0 : Fin 2) (elemDims M N R wf).startIndexMap,
          List.idxOf_lt_length_iff.2 (by simp)⟩ = ix2 i (0 : Fin 2) := by
        funext b; refine Fin.ext ?_
        match b with
        | ⟨0, _⟩ => rfl
        | ⟨1, _⟩ => rfl
      rw [hsi]
      rfl
    · rw [GatherDims.batchCoord_eq_zero _ _ _ List.not_mem_nil,
        GatherDims.offCoord_eq_zero _ _ _ (fun h => ((GatherDims.mem_sKept _ _).mp h).1 (by simp))]
      simp only [Nat.add_zero]
      unfold GatherDims.start
      rw [dif_pos (show (1 : Fin 2) ∈ (elemDims M N R wf).startIndexMap by simp)]
      have hsi : (elemDims M N R wf).siIdx (ix1 i) ⟨List.idxOf (1 : Fin 2) (elemDims M N R wf).startIndexMap,
          List.idxOf_lt_length_iff.2 (by simp)⟩ = ix2 i (1 : Fin 2) := by
        funext b; refine Fin.ext ?_
        match b with
        | ⟨0, _⟩ => rfl
        | ⟨1, _⟩ => rfl
      rw [hsi]
      rfl
  unfold Host.gather
  exact congrArg x (funext fun a => Fin.ext (key a))

end Gather

/-! ## Words: the 32-bit word of a small natural under the signed remainder and comparisons, and a bit as a float -/

section Words

/-- The word of a natural below `2 ^ 32` reads back as the natural. -/
theorem toNat_ofNat_lt (n : Nat) (hn : n < 2 ^ 32) : (BitVec.ofNat 32 n).toNat = n := by
  rw [BitVec.toNat_ofNat, Nat.mod_eq_of_lt hn]

/-- The word of a natural below `2 ^ 31` has its sign bit clear. -/
theorem msb_ofNat_small (n : Nat) (hn : n < 2 ^ 31) : (BitVec.ofNat 32 n).msb = false := by
  rw [BitVec.msb_eq_decide, toNat_ofNat_lt n (by omega)]
  exact decide_eq_false (by omega)

/-- The host's signed remainder of the word of `p < 8192` by 4096 is the word of `p % 4096`: no division corner, both sign bits clear. -/
theorem remsi_ofNat (p : Nat) (hp : p < 8192) : IntOp.remsi .host (BitVec.ofNat 32 p) 4096#32 = BitVec.ofNat 32 (p % 4096) := by
  have hc : ¬ IntOp.SDivCorner (BitVec.ofNat 32 p) 4096#32 := by
    rintro (h | ⟨_, h⟩)
    · exact absurd h (by decide)
    · exact absurd h (by decide)
  unfold IntOp.remsi
  rw [if_neg hc]
  apply BitVec.eq_of_toNat_eq
  rw [BitVec.srem_eq]
  have h1 : (BitVec.ofNat 32 p).msb = false := msb_ofNat_small p (by omega)
  have h2 : (4096#32 : BitVec 32).msb = false := by decide
  simp only [h1, h2]
  have h3 : (4096#32 : BitVec 32).toNat = 4096 := by decide
  rw [BitVec.toNat_umod, toNat_ofNat_lt p (by omega), h3, toNat_ofNat_lt _ (by omega)]

/-- The word of a natural below `2 ^ 31` is not negative. -/
theorem slt_zero_ofNat (n : Nat) (hn : n < 2 ^ 31) : IntOp.cmpi .slt (BitVec.ofNat 32 n) 0#32 = 0#1 := by
  show BitVec.ofBool ((BitVec.ofNat 32 n).slt 0#32) = 0#1
  have : (BitVec.ofNat 32 n).slt 0#32 = false := by
    rw [BitVec.slt_eq_decide, BitVec.toInt_eq_toNat_of_msb (msb_ofNat_small n hn)]
    exact decide_eq_false (by simp; omega)
  rw [this]; rfl

/-- The words of two naturals below `2 ^ 32` differ exactly when the naturals do. -/
theorem cmpi_ne_ofNat (m n : Nat) (hm : m < 2 ^ 32) (hn : n < 2 ^ 32) :
    IntOp.cmpi .ne (BitVec.ofNat 32 m) (BitVec.ofNat 32 n) = if m = n then 0#1 else 1#1 := by
  show BitVec.ofBool (BitVec.ofNat 32 m != BitVec.ofNat 32 n) = _
  by_cases e : m = n
  · subst e; simp
  · have : BitVec.ofNat 32 m ≠ BitVec.ofNat 32 n := fun h => e (by
      have := congrArg BitVec.toNat h
      rwa [toNat_ofNat_lt m hm, toNat_ofNat_lt n hn] at this)
    rw [if_neg e, (bne_iff_ne.2 this : (BitVec.ofNat 32 m != BitVec.ofNat 32 n) = true)]
    rfl

/-- A bit read as an unsigned integer at the ideal values is `1` or `0`. -/
theorem uitofp_bit (b : BitVec 1) : (FloatOps.uitofp (F := Ideal) .f32 b : EReal) = if b = 1#1 then 1 else 0 := by
  show (((b.toNat : ℝ)) : EReal) = _
  rcases BitVec.eq_zero_or_eq_one b with h | h
  · subst h; simp
  · subst h; simp

end Words

end Cert.RefValLib

end
-- ==== Proof.HostGlue.lean ====
/-
  The host operations between and after the two kernels, read as values on the extended reals.

  The one operation between the kernels stacks the two arrays of unit rows; the twelve after the
  second kernel stack the column of partner inner products on itself, divide by the temperature,
  exponentiate, divide by the denominators, take logarithms, sum all 8192 entries onto zero, divide
  by the row count and negate. Each is read at an index; the result is the closed expression in the
  column of inner products and the column of denominators.
-/
import proofs.«135420_j3994319585478_1_alg».proof.Proof.Gen.KernelIdeal.Regions
import proofs.«135420_j3994319585478_1_alg».proof.Proof.Spec
import proofs.«135420_j3994319585478_1_alg».proof.Proof.LibHostIx
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.HostGlue

open Idealize.ShloMosaic Cert.KernelIdeal Cert.KernelIdeal.Gen Idealize.ShloMosaic.ValueIdx
open Idealize.ShloMosaic.TcCoe

/-! ## General readings -/

/-- The host's sum of a whole matrix from an initial scalar: the initial value plus the double sum. -/
theorem hostReduceAdd_matrix {φ : FTy} {a b : Nat} (x : FVec Idealize.ShloMosaic.Ideal ⟨2, ![a, b]⟩ φ)
    (init : (⟨0, ![]⟩ : Shape).Idx → Idealize.ShloMosaic.Ideal φ)
    (h : (⟨2, ![a, b]⟩ : Shape).ReducesTo [0, 1] ⟨0, ![]⟩) (hu : 0 < (⟨0, ![]⟩ : Shape).numel)
    (j : (⟨0, ![]⟩ : Shape).Idx) :
    Host.reduceAdd (F := Idealize.ShloMosaic.Ideal) x init h hu j
      = init ix0 + ∑ i : Fin a, ∑ k : Fin b, x (ix2 i k) := by
  show Ideal.hostReduceAdd h x (init (Shape.Idx.first hu)) j = _
  rw [Ideal.hostReduceAdd_total h (fun b => b.elim0) x _ j, eq_ix0 (Shape.Idx.first hu), sum_idx2]

/-- A column of 4096 entries stacked on itself reads, at row `r`, the column at `r mod 4096`. -/
theorem stackedColumn_apply (p : S4096x1.Idx → EReal) (r : Fin 8192) :
    concatenate S8192x1 0 [⟨S4096x1, p⟩, ⟨S4096x1, p⟩] concatenates_S4096x1_S4096x1_S8192x1_d0
        (ix2 r (0 : Fin 1))
      = p (ix2 ⟨r.val % 4096, by omega⟩ (0 : Fin 1)) := by
  have hr := r.isLt
  by_cases h : r.val < 4096
  · rw [Cert.RefValLib.concatenate_rows_apply_left p p _ r (0 : Fin 1) h]
    exact congrArg (fun i : Fin 4096 => p (ix2 i (0 : Fin 1)))
      (Fin.ext (by show r.val = r.val % 4096; omega))
  · rw [Cert.RefValLib.concatenate_rows_apply_right p p _ r (0 : Fin 1) ⟨r.val - 4096, by omega⟩
      (by show r.val = 4096 + (r.val - 4096); omega)]
    exact congrArg (fun i : Fin 4096 => p (ix2 i (0 : Fin 1)))
      (Fin.ext (by show r.val - 4096 = r.val % 4096; omega))

/-- Two arrays of 4096 rows stacked read, at row `r`, the first below 4096 and the second from there on. -/
theorem stackedRows_apply (x y : S4096x256.Idx → EReal) (r : Fin 8192) (d : Fin 256) :
    concatenate S8192x256 0 [⟨S4096x256, x⟩, ⟨S4096x256, y⟩] concatenates_S4096x256_S4096x256_S8192x256_d0
        (ix2 r d)
      = if h : r.val < 4096 then x (ix2 ⟨r.val, h⟩ d) else y (ix2 ⟨r.val - 4096, by omega⟩ d) := by
  have hr := r.isLt
  by_cases h : r.val < 4096
  · rw [dif_pos h]
    exact Cert.RefValLib.concatenate_rows_apply_left x y _ r d h
  · rw [dif_neg h]
    exact Cert.RefValLib.concatenate_rows_apply_right x y _ r d ⟨r.val - 4096, by omega⟩
      (by show r.val = 4096 + (r.val - 4096); omega)

/-! ## The twelve operations after the second kernel, as one function of the two columns they read -/

/-- The operations' term over the column `p` of inner products and the column `D` of denominators. -/
def tail (p : S4096x1.Idx → EReal) (D : S8192x1.Idx → EReal) : S_.Idx → EReal :=
  Host.negf (F := Idealize.ShloMosaic.Ideal)
    (Host.divf (F := Idealize.ShloMosaic.Ideal)
      (Host.reduceAdd (F := Idealize.ShloMosaic.Ideal)
        (Host.log (F := Idealize.ShloMosaic.Ideal)
          (Host.divf (F := Idealize.ShloMosaic.Ideal)
            (Host.exp (F := Idealize.ShloMosaic.Ideal)
              (Host.divf (F := Idealize.ShloMosaic.Ideal)
                (concatenate S8192x1 0 [⟨S4096x1, p⟩, ⟨S4096x1, p⟩] concatenates_S4096x1_S4096x1_S8192x1_d0)
                (broadcastInDim S8192x1 ![] bcast_S_S8192x1
                  (constant (F := Idealize.ShloMosaic.Ideal) S_ .f32 0x3F000000#32))))
            D))
        (constant (F := Idealize.ShloMosaic.Ideal) S_ .f32 0x00000000#32) reducesTo_S8192x1_S_d0_1 h_S_)
      (constant (F := Idealize.ShloMosaic.Ideal) S_ .f32 0x46000000#32))

/-- One entry of the column summed. -/
theorem tail_entry (p : S4096x1.Idx → EReal) (D : S8192x1.Idx → EReal) (r : Fin 8192) :
    Host.log (F := Idealize.ShloMosaic.Ideal)
        (Host.divf (F := Idealize.ShloMosaic.Ideal)
          (Host.exp (F := Idealize.ShloMosaic.Ideal)
            (Host.divf (F := Idealize.ShloMosaic.Ideal)
              (concatenate S8192x1 0 [⟨S4096x1, p⟩, ⟨S4096x1, p⟩] concatenates_S4096x1_S4096x1_S8192x1_d0)
              (broadcastInDim S8192x1 ![] bcast_S_S8192x1
                (constant (F := Idealize.ShloMosaic.Ideal) S_ .f32 0x3F000000#32))))
          D) (ix2 r (0 : Fin 1))
      = Ideal.log (Ideal.div (Ideal.exp (Ideal.div (p (ix2 ⟨r.val % 4096, by omega⟩ (0 : Fin 1)))
          Cert.NtXent.half)) (D (ix2 r (0 : Fin 1)))) := by
  show Ideal.log (Ideal.div (Ideal.exp (Ideal.div
      (concatenate S8192x1 0 [⟨S4096x1, p⟩, ⟨S4096x1, p⟩] concatenates_S4096x1_S4096x1_S8192x1_d0
        (ix2 r (0 : Fin 1)))
      (broadcastInDim S8192x1 ![] bcast_S_S8192x1
        (constant (F := Idealize.ShloMosaic.Ideal) S_ .f32 0x3F000000#32) (ix2 r (0 : Fin 1)))))
      (D (ix2 r (0 : Fin 1)))) = _
  rw [stackedColumn_apply, Cert.RefValLib.broadcastInDim_scalar_apply]
  rfl

/-- The term at its one index: minus the mean of the 8192 logarithms. -/
theorem tail_apply (p : S4096x1.Idx → EReal) (D : S8192x1.Idx → EReal) (j : S_.Idx) :
    tail p D j
      = - Ideal.div (∑ r : Fin 8192, Ideal.log (Ideal.div (Ideal.exp (Ideal.div
            (p (ix2 ⟨r.val % 4096, by omega⟩ (0 : Fin 1))) Cert.NtXent.half)) (D (ix2 r (0 : Fin 1)))))
          Cert.NtXent.cnt := by
  unfold tail
  show - Ideal.div (Host.reduceAdd (F := Idealize.ShloMosaic.Ideal) _ _ reducesTo_S8192x1_S_d0_1 h_S_ j)
      Cert.NtXent.cnt = _
  rw [hostReduceAdd_matrix]
  refine congrArg (fun s : EReal => - Ideal.div s Cert.NtXent.cnt) ?_
  show Ideal.ofBits .f32 0x00000000#32 + _ = _
  rw [Ideal.ofBits_zero_f32, zero_add]
  refine Finset.sum_congr rfl (fun r _ => ?_)
  rw [Fin.sum_univ_one]
  exact tail_entry p D r

/-! ## The buffers' contents around the two stretches -/

variable (m : (ℓ : Loc nD τ sig) → Buf (Elt Idealize.ShloMosaic.Ideal) ℓ)
  (outs : Outs (F := Idealize.ShloMosaic.Ideal)) (c : Dev nD)

theorem V1_main_v0_0 : V1 m outs c main_v0_0 = outs 1 main_v0_0 c := by
  simp only [V1, Function.update_of_ne (StableHlo.devRef_ne_of_ne (by decide) : (Proc.devRef .tc main_v0_0 : DevRef τ sig) ≠ Proc.devRef .tc main_v0_1), Function.update_of_ne (StableHlo.devRef_ne_of_ne (by decide) : (Proc.devRef .tc main_v0_0 : DevRef τ sig) ≠ Proc.devRef .tc main_v0_2), Function.update_self]

theorem V1_main_v0_1 : V1 m outs c main_v0_1 = outs 1 main_v0_1 c := by
  simp only [V1, Function.update_of_ne (StableHlo.devRef_ne_of_ne (by decide) : (Proc.devRef .tc main_v0_1 : DevRef τ sig) ≠ Proc.devRef .tc main_v0_2), Function.update_self]

theorem V1_main_v0_2 : V1 m outs c main_v0_2 = outs 1 main_v0_2 c := by
  simp only [V1, Function.update_self]

/-- The stretch between the kernels writes only the stacked array. -/
theorem V2_keeps (b : Ref sig .tc) (hb : b ≠ main_v1) : V2 m outs c b = V1 m outs c b :=
  V2_of m outs c b (by simpa using hb)

/-- The stacked array as the concatenation of what the first kernel left. -/
theorem V2_main_v1_eq :
    (V2 m outs c main_v1 : S8192x256.Idx → EReal)
      = concatenate S8192x256 0 [⟨S4096x256, (outs 1 main_v0_0 c : S4096x256.Idx → EReal)⟩,
          ⟨S4096x256, (outs 1 main_v0_1 c : S4096x256.Idx → EReal)⟩]
          concatenates_S4096x256_S4096x256_S8192x256_d0 := by
  rw [← V1_main_v0_0 m outs c, ← V1_main_v0_1 m outs c]
  dsimp only [V2, hostOps1]
  after_results

theorem V2_main_v1_apply (r : Fin 8192) (d : Fin 256) :
    (V2 m outs c main_v1 : S8192x256.Idx → EReal) (ix2 r d)
      = if h : r.val < 4096 then (outs 1 main_v0_0 c : S4096x256.Idx → EReal) (ix2 ⟨r.val, h⟩ d)
        else (outs 1 main_v0_1 c : S4096x256.Idx → EReal) (ix2 ⟨r.val - 4096, by omega⟩ d) := by
  rw [V2_main_v1_eq m outs c]
  exact stackedRows_apply _ _ r d

theorem V3_main_v2 : V3 m outs c main_v2 = outs 3 main_v2 c := by
  simp only [V3, Function.update_self]

theorem V3_main_v0_2 : V3 m outs c main_v0_2 = outs 1 main_v0_2 c :=
  (V3_of m outs c main_v0_2 (by decide)).trans <|
    (V2_of m outs c main_v0_2 (by decide)).trans (V1_main_v0_2 m outs c)

/-- The result buffer as the operations' term over what the two kernels left. -/
theorem V4_main_v11_term :
    (V4 m outs c main_v11 : S_.Idx → EReal)
      = tail (outs 1 main_v0_2 c : S4096x1.Idx → EReal) (outs 3 main_v2 c : S8192x1.Idx → EReal) := by
  rw [← V3_main_v0_2 m outs c, ← V3_main_v2 m outs c]
  dsimp only [V4, hostOps2]
  after_results
  rfl

theorem V4_main_v11_eq :
    (V4 m outs c main_v11 : S_.Idx → EReal)
      = fun _ => - Ideal.div (∑ r : Fin 8192, Ideal.log (Ideal.div (Ideal.exp (Ideal.div
            ((outs 1 main_v0_2 c : S4096x1.Idx → EReal) (ix2 ⟨r.val % 4096, by omega⟩ (0 : Fin 1)))
            Cert.NtXent.half)) ((outs 3 main_v2 c : S8192x1.Idx → EReal) (ix2 r (0 : Fin 1)))))
          Cert.NtXent.cnt := by
  rw [V4_main_v11_term m outs c]
  funext j
  exact tail_apply _ _ j

end Cert.KernelIdeal.HostGlue

end
-- ==== Proof.HostGlueW.lean ====
/-
  The two stretches of host operations over ANY contents of the buffers they read: the stretch
  between the kernels stacks the two arrays of unit rows and changes nothing else; the stretch after
  the second kernel leaves, in the result buffer, minus the mean of the 8192 logarithms, and changes
  nothing it does not write.
-/
import proofs.«135420_j3994319585478_1_alg».proof.Proof.HostGlue

noncomputable section

namespace Cert.KernelIdeal.HostGlue

open Idealize.ShloMosaic Cert.KernelIdeal Cert.KernelIdeal.Gen Idealize.ShloMosaic.ValueIdx
open Idealize.ShloMosaic.TcCoe

variable (W : Valuation τ sig (Elt Idealize.ShloMosaic.Ideal))

/-- The stretch between the kernels writes only the stacked array. -/
theorem after1_keeps (b : Ref sig .tc) (hb : b ≠ main_v1) :
    StableHlo.after hostOps1 W (Proc.devRef .tc b) = W (Proc.devRef .tc b) :=
  StableHlo.after_of_writes_sub hostOps1 W hostOps1_writes (by simpa using hb)

/-- The stacked array as the concatenation of the two arrays read. -/
theorem after1_main_v1_eq :
    (StableHlo.after hostOps1 W (Proc.devRef .tc main_v1) : S8192x256.Idx → EReal)
      = concatenate S8192x256 0 [⟨S4096x256, (W (Proc.devRef .tc main_v0_0) : S4096x256.Idx → EReal)⟩,
          ⟨S4096x256, (W (Proc.devRef .tc main_v0_1) : S4096x256.Idx → EReal)⟩]
          concatenates_S4096x256_S4096x256_S8192x256_d0 := by
  dsimp only [hostOps1]
  after_results

theorem after1_main_v1_apply (r : Fin 8192) (d : Fin 256) :
    (StableHlo.after hostOps1 W (Proc.devRef .tc main_v1) : S8192x256.Idx → EReal) (ix2 r d)
      = if h : r.val < 4096 then (W (Proc.devRef .tc main_v0_0) : S4096x256.Idx → EReal) (ix2 ⟨r.val, h⟩ d)
        else (W (Proc.devRef .tc main_v0_1) : S4096x256.Idx → EReal) (ix2 ⟨r.val - 4096, by omega⟩ d) := by
  rw [after1_main_v1_eq W]
  exact stackedRows_apply _ _ r d

/-- The stretch after the second kernel changes nothing it does not write. -/
theorem after2_keeps (b : Ref sig .tc) (hb : b ∉ hostOps2_W) :
    StableHlo.after hostOps2 W (Proc.devRef .tc b) = W (Proc.devRef .tc b) :=
  StableHlo.after_of_writes_sub hostOps2 W hostOps2_writes hb

/-- The result buffer as the operations' term over the two columns read. -/
theorem after2_main_v11_term :
    (StableHlo.after hostOps2 W (Proc.devRef .tc main_v11) : S_.Idx → EReal)
      = tail (W (Proc.devRef .tc main_v0_2) : S4096x1.Idx → EReal)
          (W (Proc.devRef .tc main_v2) : S8192x1.Idx → EReal) := by
  dsimp only [hostOps2]
  after_results
  rfl

theorem after2_main_v11_eq :
    (StableHlo.after hostOps2 W (Proc.devRef .tc main_v11) : S_.Idx → EReal)
      = fun _ => - Ideal.div (∑ r : Fin 8192, Ideal.log (Ideal.div (Ideal.exp (Ideal.div
            ((W (Proc.devRef .tc main_v0_2) : S4096x1.Idx → EReal) (ix2 ⟨r.val % 4096, by omega⟩ (0 : Fin 1)))
            Cert.NtXent.half)) ((W (Proc.devRef .tc main_v2) : S8192x1.Idx → EReal) (ix2 r (0 : Fin 1)))))
          Cert.NtXent.cnt := by
  rw [after2_main_v11_term W]
  funext j
  exact tail_apply _ _ j

end Cert.KernelIdeal.HostGlue

end
-- ==== Proof.LossAlgebra.lean ====
/-
  Mathlib-only algebra joining a blockwise arrangement of the loss to the specification:
  a running sum over eight blocks of 1024 columns is the sum over all 8192 columns; the
  similarity of a row with its partner is the inner product of the two unit rows with the same
  index; and the loss is determined by the partner similarities and the denominators.
-/
import proofs.«135420_j3994319585478_1_alg».proof.Proof.Spec

noncomputable section

namespace Cert.NtXent

open Idealize.ShloMosaic

/-- Column `j` of block `k`. -/
def blockCol (k : Fin 8) (j : Fin 1024) : Fin 8192 := ⟨k.val * 1024 + j.val, by omega⟩

/-- The running sum kept block by block: block 0's partial sum onto zero, then one block at a time. -/
def accBlocks (f : Fin 8192 → EReal) : ℕ → EReal
  | 0 => 0 + ∑ j : Fin 1024, f ⟨0 * 1024 + j.val, by omega⟩
  | k+1 => accBlocks f k + ∑ j : Fin 1024,
      (if h : (k+1) * 1024 + j.val < 8192 then f ⟨(k+1) * 1024 + j.val, h⟩ else 0)

/-- A sum over 8192 columns as eight blocks of 1024. -/
theorem sum_blocks (f : Fin 8192 → EReal) :
    ∑ c : Fin 8192, f c = ∑ k : Fin 8, ∑ j : Fin 1024, f (blockCol k j) := by
  rw [← Fintype.sum_prod_type']
  have e : (Fin 8 × Fin 1024) ≃ Fin 8192 := (finProdFinEquiv : Fin 8 × Fin 1024 ≃ Fin (8 * 1024))
  refine (Fintype.sum_equiv (finProdFinEquiv : Fin 8 × Fin 1024 ≃ Fin (8 * 1024)) _ _ ?_).symm
  rintro ⟨k, j⟩
  congr 1
  apply Fin.ext
  simp [blockCol, finProdFinEquiv]
  omega

theorem accBlocks_seven (f : Fin 8192 → EReal) : accBlocks f 7 = ∑ c : Fin 8192, f c := by
  rw [sum_blocks, Fin.sum_univ_eight]
  simp only [accBlocks, zero_add, blockCol]
  have hg : ∀ (k : ℕ) (hk : k < 8), (∑ j : Fin 1024,
      (if h : k * 1024 + j.val < 8192 then f ⟨k * 1024 + j.val, h⟩ else 0))
      = ∑ j : Fin 1024, f ⟨k * 1024 + j.val, by omega⟩ := by
    intro k hk
    refine Finset.sum_congr rfl (fun j _ => ?_)
    rw [dif_pos]
  simp only [Nat.reduceAdd]
  rw [hg 1 (by omega), hg 2 (by omega), hg 3 (by omega), hg 4 (by omega), hg 5 (by omega),
    hg 6 (by omega), hg 7 (by omega)]
  rfl

theorem partner_lo (a : Fin 4096) : partner ⟨a.val, by omega⟩ = ⟨a.val + 4096, by omega⟩ := by
  unfold partner
  exact dif_pos a.isLt

theorem partner_hi (a : Fin 4096) : partner ⟨a.val + 4096, by omega⟩ = ⟨a.val, by omega⟩ := by
  have ha := a.isLt
  unfold partner
  rw [dif_neg (by show ¬ (a.val + 4096 < 4096); omega)]
  exact Fin.ext (by show a.val + 4096 - 4096 = a.val; omega)

theorem zn_lo (zi zj : Fin 4096 → Fin 256 → EReal) (a : Fin 4096) (d : Fin 256) :
    zn zi zj ⟨a.val, by omega⟩ d = unitRow zi a d := by
  unfold zn
  exact dif_pos a.isLt

theorem zn_hi (zi zj : Fin 4096 → Fin 256 → EReal) (a : Fin 4096) (d : Fin 256) :
    zn zi zj ⟨a.val + 4096, by omega⟩ d = unitRow zj a d := by
  have ha := a.isLt
  unfold zn
  rw [dif_neg (by show ¬ (a.val + 4096 < 4096); omega)]
  exact congrArg (fun r => unitRow zj r d) (Fin.ext (by show a.val + 4096 - 4096 = a.val; omega))

theorem sim_partner_lo (zi zj : Fin 4096 → Fin 256 → EReal) (a : Fin 4096) :
    sim zi zj ⟨a.val, by omega⟩ (partner ⟨a.val, by omega⟩)
      = ∑ d : Fin 256, unitRow zi a d * unitRow zj a d := by
  rw [partner_lo]
  unfold sim
  exact Finset.sum_congr rfl (fun d _ => by rw [zn_lo, zn_hi])

theorem sim_partner_hi (zi zj : Fin 4096 → Fin 256 → EReal) (a : Fin 4096) :
    sim zi zj ⟨a.val + 4096, by omega⟩ (partner ⟨a.val + 4096, by omega⟩)
      = ∑ d : Fin 256, unitRow zi a d * unitRow zj a d := by
  rw [partner_hi]
  unfold sim
  exact Finset.sum_congr rfl (fun d _ => by rw [zn_lo, zn_hi, mul_comm])

theorem loss_eq_of (zi zj : Fin 4096 → Fin 256 → EReal) (P D : Fin 8192 → EReal)
    (hP : ∀ r, P r = sim zi zj r (partner r)) (hD : ∀ r, D r = den zi zj r) :
    - Ideal.div (∑ r : Fin 8192, Ideal.log (Ideal.div (Ideal.exp (Ideal.div (P r) half)) (D r))) cnt
      = loss zi zj := by
  unfold loss term
  simp only [hP, hD]

end Cert.NtXent

end
-- ==== Proof.LossJoin.lean ====
/-
  The loss from a column of 4096 partner inner products read twice (row `r` reads entry `r mod 4096`)
  and a column of 8192 denominators.
-/
import proofs.«135420_j3994319585478_1_alg».proof.Proof.LossAlgebra

noncomputable section

namespace Cert.NtXent

open Idealize.ShloMosaic

/-- Row `r`'s similarity with its partner is the inner product of the unit rows `r mod 4096` of the two inputs. -/
theorem sim_partner_mod (zi zj : Fin 4096 → Fin 256 → EReal) (r : Fin 8192) :
    sim zi zj r (partner r)
      = ∑ d : Fin 256, unitRow zi ⟨r.val % 4096, by omega⟩ d * unitRow zj ⟨r.val % 4096, by omega⟩ d := by
  have hr := r.isLt
  by_cases h : r.val < 4096
  · have e : (⟨r.val % 4096, by omega⟩ : Fin 4096) = ⟨r.val, h⟩ := Fin.ext (by show r.val % 4096 = r.val; omega)
    rw [e]
    exact sim_partner_lo zi zj ⟨r.val, h⟩
  · have e : (⟨r.val % 4096, by omega⟩ : Fin 4096) = ⟨r.val - 4096, by omega⟩ :=
      Fin.ext (by show r.val % 4096 = r.val - 4096; omega)
    have er : r = ⟨(⟨r.val - 4096, by omega⟩ : Fin 4096).val + 4096, by show r.val - 4096 + 4096 < 8192; omega⟩ :=
      Fin.ext (by show r.val = r.val - 4096 + 4096; omega)
    rw [e]
    conv_lhs => rw [er]
    exact sim_partner_hi zi zj ⟨r.val - 4096, by omega⟩

theorem loss_eq_of_column (zi zj : Fin 4096 → Fin 256 → EReal) (p : Fin 4096 → EReal) (D : Fin 8192 → EReal)
    (hp : ∀ a, p a = ∑ d : Fin 256, unitRow zi a d * unitRow zj a d) (hD : ∀ r, D r = den zi zj r) :
    - Ideal.div (∑ r : Fin 8192, Ideal.log (Ideal.div (Ideal.exp
        (Ideal.div (p ⟨r.val % 4096, by omega⟩) half)) (D r))) cnt = loss zi zj :=
  loss_eq_of zi zj (fun r => p ⟨r.val % 4096, by omega⟩) D
    (fun r => (hp _).trans (sim_partner_mod zi zj r).symm) hD

/-- A column of partner inner products read at `r mod 4096` is row `r`'s similarity with its partner. -/
theorem pos_join (zi zj : Fin 4096 → Fin 256 → EReal) (p : Fin 4096 → EReal)
    (hp : ∀ a, p a = ∑ d : Fin 256, unitRow zi a d * unitRow zj a d) (r : Fin 8192) :
    p ⟨r.val % 4096, by omega⟩ = sim zi zj r (partner r) :=
  (hp _).trans (sim_partner_mod zi zj r).symm

/-- Two arrays of unit rows stacked are the 8192 unit rows. -/
theorem zn_stack (zi zj : Fin 4096 → Fin 256 → EReal) (u0 u1 : Fin 4096 → Fin 256 → EReal)
    (h0 : ∀ a d, u0 a d = unitRow zi a d) (h1 : ∀ a d, u1 a d = unitRow zj a d) (r : Fin 8192) (d : Fin 256) :
    (if h : r.val < 4096 then u0 ⟨r.val, h⟩ d else u1 ⟨r.val - 4096, by omega⟩ d) = zn zi zj r d := by
  unfold zn
  by_cases h : r.val < 4096
  · rw [dif_pos h, dif_pos h]; exact h0 _ _
  · rw [dif_neg h, dif_neg h]; exact h1 _ _

/-- The denominator kept block by block. -/
theorem den_of_blocks (zi zj : Fin 4096 → Fin 256 → EReal) (r : Fin 8192) :
    accBlocks (fun c => if r = c then 0 else Ideal.exp (Ideal.div (sim zi zj r c) half)) 7 = den zi zj r := by
  rw [accBlocks_seven]
  rfl

end Cert.NtXent

end
-- ==== Proof.LibKeepdims.lean ====
/-
  Column ("keepdims") layout forms, one-axis reductions of a matrix and the one-hot mask, read at an index.

  A reduction that keeps its axis as a unit axis leaves a column `[a, 1]`; the next operation broadcasts the column along
  the rows' entries. Lib/ValueLayout.lean has the leading-unit-axis casts and the row broadcast `[1, b] → [a, b]`; here are
  the column cast `[a] → [a, 1]` and the column broadcast `[a, 1] → [a, b]`, in the same style.

  At the ideal values a `vector.multi_reduction` of a matrix over one of its two axes is the sum (or the fold of `max`)
  over that axis's coordinates with the other coordinate fixed: PureOps/Ideal/Laws.lean's one-axis readings with the
  inserted index written by coordinates.

  The one-hot mask `(iota along d == w)` converted to a float is `1` where the coordinate's word is `w` and `0` elsewhere; a
  sum of products with it keeps the one selected term, whatever the other factor is (on the extended reals `x * 0 = 0` and
  `x * 1 = x` for every `x`, infinite or not).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibKeepdims

open Idealize.ShloMosaic Idealize.ShloMosaic.ValueIdx

/-! ## The column cast and the column broadcast -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A matrix reduced over one axis, at the ideal values -/

section Reduce
variable {φ : FTy}

/-- The sum over the entries of each row: `[a, b]` reduced over axis 1, read at row `i`. -/
theorem multiReduction_add_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

/-- The sum over the rows of each column: `[a, b]` reduced over axis 0, read at column `k`. -/
theorem multiReduction_add_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (k : Fin b) :
    multiReduction .add [0] ⟨1, ![b]⟩ src acc h hφ hacc (ix1 k) = ∑ i : Fin a, src (ix2 i k) :=
  (Ideal.multiReduction_add_single src acc h hφ hacc (ix1 k)).trans
    (Finset.sum_congr rfl fun i _ => congrArg src (funext fun c => Fin.ext (by
      match c with
      | ⟨0, _⟩ => rfl
      | ⟨1, _⟩ => rfl)))

/-- The maximum over the entries of each row, from the accumulator's value: `[a, b]` reduced by `max` over axis 1. -/
theorem multiReduction_maximumf_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg ((Finset.univ : Finset (Fin b)).fold max (Ideal.ofBits φ acc)) (funext fun k => congrArg src (funext fun c => Fin.ext (by
      match c with
      | ⟨0, _⟩ => rfl
      | ⟨1, _⟩ => rfl))))

end Reduce

/-! ## The one-hot mask -/

section Mask

/-- Two naturals below `2 ^ 32` have the same 32-bit word exactly when they are equal. -/
theorem ofNat32_eq_iff {n b : ℕ} (hn : n < 2 ^ 32) (hb : b < 2 ^ 32) : BitVec.ofNat 32 n = BitVec.ofNat 32 b ↔ n = b := by
  constructor
  · intro e
    have := congrArg BitVec.toNat e
    rwa [BitVec.toNat_ofNat, BitVec.toNat_ofNat, Nat.mod_eq_of_lt hn, Nat.mod_eq_of_lt hb] at this
  · intro e; rw [e]

/-- A comparison bit, widened to a word and read as a signed integer at the ideal values, is `1` or `0`. -/
theorem sitofp_extui_cmpi_eq (x y : BitVec 32) (h : 1 < 32) :
    (FloatOps.sitofp (F := Ideal) .f32 ((IntOp.cmpi .eq x y).setWidth 32) : EReal) = if x = y then 1 else 0 := by
  show (((((BitVec.ofBool (x == y)).setWidth 32).toInt : ℝ)) : EReal) = _
  by_cases e : x = y
  · have h1 : ((BitVec.ofBool true).setWidth 32).toInt = 1 := by decide
    rw [if_pos e, beq_iff_eq.2 e, h1, Int.cast_one, EReal.coe_one]
  · have h0 : ((BitVec.ofBool false).setWidth 32).toInt = 0 := by decide
    rw [if_neg e, beq_eq_false_iff_ne.2 e, h0, Int.cast_zero, EReal.coe_zero]

/-- The mask `(iota along d == w)` as a float: `1` where the coordinate's word is `w`, `0` elsewhere. -/
theorem mask_apply (s : Shape) (d : Fin s.rank) (h : s.Iotas .tc 32 [d]) (w : BitVec 32) (hlt : 1 < 32) (i : s.Idx) :
    (sitofp .f32 (extui 32 (cmpi .eq (iota .tc s 32 [d] h) (broadcast s w)) hlt) : FVec Ideal s .f32) i
      = if BitVec.ofNat 32 (i d).val = w then (1 : EReal) else 0 := by
  rw [sitofp_apply, extui_apply]
  show (FloatOps.sitofp (F := Ideal) .f32 ((IntOp.cmpi .eq (iota .tc s 32 [d] h i) w).setWidth 32) : EReal) = _
  rw [iota_single_apply, sitofp_extui_cmpi_eq _ _ hlt]

/-- The same against the word of a natural `b`: the mask picks the coordinate `b`. -/
theorem mask_ofNat_apply (s : Shape) (d : Fin s.rank) (h : s.Iotas .tc 32 [d]) (b : ℕ) (hlt : 1 < 32) (i : s.Idx)
    (hi : (i d).val < 2 ^ 32) (hb : b < 2 ^ 32) :
    (sitofp .f32 (extui 32 (cmpi .eq (iota .tc s 32 [d] h) (broadcast s (BitVec.ofNat 32 b))) hlt) : FVec Ideal s .f32) i
      = if (i d).val = b then (1 : EReal) else 0 := by
  rw [mask_apply]
  by_cases e : (i d).val = b
  · rw [if_pos e, if_pos ((ofNat32_eq_iff hi hb).2 e)]
  · rw [if_neg e, if_neg (fun e' => e ((ofNat32_eq_iff hi hb).1 e'))]

/-- A sum of products with a one-hot factor keeps the selected term. No finiteness is asked: on the extended reals
    `x * 0 = 0` and `x * 1 = x` for every `x`. -/
theorem sum_mul_onehot {n : ℕ} (f : Fin n → EReal) (b : Fin n) :
    ∑ l : Fin n, f l * (if l.val = b.val then (1 : EReal) else 0) = f b := by
  rw [Finset.sum_eq_single b]
  · rw [if_pos rfl, mul_one]
  · intro l _ hl
    rw [if_neg (fun e => hl (Fin.ext e)), mul_zero]
  · intro hb; exact absurd (Finset.mem_univ b) hb

end Mask

end Cert.LibKeepdims

end
-- ==== Proof.KernelPay0.lean ====
/-
  The values the row-normalisation body stores, read at an index, at the ideal values.

  Each row of a 512 x 256 block is divided by the larger of its Euclidean norm and the clip; the third stored value is,
  per row, the inner product of the two normalised rows.
-/
import proofs.«135420_j3994319585478_1_alg».proof.Proof.Gen.KernelIdeal.Skeleton
import proofs.«135420_j3994319585478_1_alg».proof.Proof.Spec
import proofs.«135420_j3994319585478_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Cert.KernelIdeal Cert.KernelIdeal.Gen ValueIdx Cert.LibKeepdims

/-- The sum of each row's entries of a 512 x 256 block, at row `p`. -/
theorem rowsum512_apply (v : FVec Ideal S512x256 .f32) (p : Fin 512) :
    multiReduction .add [1] S512 v 0x00000000#32 reduces_S512x256_S512 (.inl rfl) rfl (ix1 p) = ∑ e : Fin 256, v (ix2 p e) :=
  multiReduction_add_axis1 v _ _ _ _ p

/-- A matrix divided, row by row, by the larger of the row's Euclidean norm and the clip, at entry `(p, d)`. -/
theorem normalize_apply (x : FVec Ideal S512x256 .f32) (p : Fin 512) (d : Fin 256) :
    divf x (broadcastTo S512x256 (maximumf (sqrt (shapeCast S512x1
        (multiReduction .add [1] S512 (mulf x x) 0x00000000#32 reduces_S512x256_S512 (.inl rfl) rfl) shapeCasts_S512_S512x1))
        (broadcast S512x1 (Scalar.ofBits (F := Ideal) .f32 0x322BCC77#32))) broadcasts_S512x1_S512x256) (ix2 p d)
      = Ideal.div (x (ix2 p d)) (max (Ideal.sqrt (∑ e : Fin 256, x (ix2 p e) * x (ix2 p e))) Cert.NtXent.eps) := by
  rw [divf_apply, broadcastTo_a1_ab_apply, maximumf_apply]
  show Ideal.div _ (max (Ideal.sqrt (shapeCast S512x1 _ shapeCasts_S512_S512x1 (ix2 p (0 : Fin 1)))) _) = _
  rw [shapeCast_a_a1_apply]
  exact congrArg (fun t => Ideal.div (x (ix2 p d)) (max (Ideal.sqrt t) Cert.NtXent.eps)) (rowsum512_apply (mulf x x) p)

theorem pay1_apply (x0 : Vec Ideal S512x256 .f32) (p : Fin 512) (d : Fin 256) :
    k0_pay1 (F := Ideal) x0 (ix2 p d)
      = Ideal.div (x0 (ix2 p d)) (max (Ideal.sqrt (∑ e : Fin 256, x0 (ix2 p e) * x0 (ix2 p e))) Cert.NtXent.eps) :=
  normalize_apply x0 p d

theorem pay2_apply (x1 : Vec Ideal S512x256 .f32) (p : Fin 512) (d : Fin 256) :
    k0_pay2 (F := Ideal) x1 (ix2 p d)
      = Ideal.div (x1 (ix2 p d)) (max (Ideal.sqrt (∑ e : Fin 256, x1 (ix2 p e) * x1 (ix2 p e))) Cert.NtXent.eps) :=
  normalize_apply x1 p d

/-- The first normalised block as stored (narrowing is the identity at the ideal values). -/
theorem pay4_apply (x0 : Vec Ideal S512x256 .f32) (p : Fin 512) (d : Fin 256) :
    k0_pay4 (F := Ideal) x0 (ix2 p d)
      = Ideal.div (x0 (ix2 p d)) (max (Ideal.sqrt (∑ e : Fin 256, x0 (ix2 p e) * x0 (ix2 p e))) Cert.NtXent.eps) :=
  pay1_apply x0 p d

/-- The second normalised block as stored. -/
theorem pay5_apply (x1 : Vec Ideal S512x256 .f32) (p : Fin 512) (d : Fin 256) :
    k0_pay5 (F := Ideal) x1 (ix2 p d)
      = Ideal.div (x1 (ix2 p d)) (max (Ideal.sqrt (∑ e : Fin 256, x1 (ix2 p e) * x1 (ix2 p e))) Cert.NtXent.eps) :=
  pay2_apply x1 p d

/-- The row inner products of the two normalised blocks, as a column. -/
theorem pay3_apply (x0 x1 : Vec Ideal S512x256 .f32) (p : Fin 512) :
    k0_pay3 (F := Ideal) x0 x1 (ix2 p (0 : Fin 1))
      = ∑ d : Fin 256, k0_pay4 (F := Ideal) x0 (ix2 p d) * k0_pay5 (F := Ideal) x1 (ix2 p d) := by
  show shapeCast S512x1 (multiReduction .add [1] S512 (mulf (k0_pay1 (F := Ideal) x0) (k0_pay2 (F := Ideal) x1)) 0x00000000#32
      reduces_S512x256_S512 (.inl rfl) rfl) shapeCasts_S512_S512x1 (ix2 p (0 : Fin 1)) = _
  rw [shapeCast_a_a1_apply]
  exact rowsum512_apply (mulf (k0_pay1 (F := Ideal) x0) (k0_pay2 (F := Ideal) x1)) p

end Cert.KernelIdeal.Pay

end
-- ==== Proof.ValueI0.lean ====
/-
  The first kernel's three output arrays after its region, index by index, at the ideal values.

  Grid point `t` reads rows 512·t … 512·t+511 of the two input matrices and writes back the same rows of the three
  outputs: each row of the first input divided by its clipped Euclidean norm, the same for the second input, and per
  row the inner product of the two unit rows. An entry of a written block depends only on its own row of the inputs,
  so block `t` of each output is the restriction of one whole-array function to those rows; the eight blocks cover
  all 4096 rows (row `r` lies in the block of point `r / 512`), hence each output array ends holding that function.
-/
import proofs.«135420_j3994319585478_1_alg».proof.Proof.FrameI0
import proofs.«135420_j3994319585478_1_alg».proof.Proof.KernelPay0
import proofs.«135420_j3994319585478_1_alg».proof.Proof.Spec
import Idealize.ShloMosaic.Lib.Pipeline.Value
import Idealize.ShloMosaic.Lib.ValueIdx

noncomputable section

open scoped BigOperators

namespace Cert.KernelIdeal.Val0

open Idealize.ShloMosaic Idealize.ShloMosaic.TcCoe Idealize.SL.Sem
open Idealize.ShloMosaic.Pipeline (Dat)
open Cert.KernelIdeal Cert.KernelIdeal.Gen Cert.KernelIdeal.Fr Cert.KernelIdeal.Pay ValueIdx

variable (V : (c : Dev nD) → (b : Ref sig .tc) → Buf (Elt Idealize.ShloMosaic.Ideal) ((c : Thread nD τ).loc b)) (c : Dev nD)

theorem hz : (![0, 0] : Fin 2 → Nat) = fun _ => 0 := funext fun a => by fin_cases a <;> rfl

/-- The two input matrices as the region finds them, by row and column. -/
abbrev zi : Fin 4096 → Fin 256 → EReal := fun a d => (V c main_arg0 : S4096x256.Idx → EReal) (ix2 a d)
abbrev zj : Fin 4096 → Fin 256 → EReal := fun a d => (V c main_arg1 : S4096x256.Idx → EReal) (ix2 a d)

/-- What the three output arrays end holding, index by index. -/
def G2 : S4096x256.Idx → EReal := fun j => Cert.NtXent.unitRow (zi V c) (j 0) (j 1)
def G3 : S4096x256.Idx → EReal := fun j => Cert.NtXent.unitRow (zj V c) (j 0) (j 1)
def G4 : S4096x1.Idx → EReal := fun j => ∑ d : Fin 256, Cert.NtXent.unitRow (zi V c) (j 0) d * Cert.NtXent.unitRow (zj V c) (j 0) d

/-- The printed index maps over the grid: every window's block at point `t` is block `(t, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- A row of an input block at point `t` is row `512 t + p` of its array. -/
theorem iblk0_0_apply (t : Fin cfg0.N) (x : S512x256.Idx) (k : S4096x256.Idx)
    (hk0 : (k 0).val = 512 * t.val + (x 0).val) (hk1 : (k 1).val = (x 1).val) :
    (iblk0 V c 0 t : Vec Idealize.ShloMosaic.Ideal S512x256 .f32) x = (V c main_arg0 : S4096x256.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 512 + 1 * (x 0).val = (k 0).val; rw [e0, hk0]; omega
  | ⟨1, _⟩ => show win0_0.index t 1 * 256 + 1 * (x 1).val = (k 1).val; rw [e1, hk1]; omega

theorem iblk0_1_apply (t : Fin cfg0.N) (x : S512x256.Idx) (k : S4096x256.Idx)
    (hk0 : (k 0).val = 512 * t.val + (x 0).val) (hk1 : (k 1).val = (x 1).val) :
    (iblk0 V c 1 t : Vec Idealize.ShloMosaic.Ideal S512x256 .f32) x = (V c main_arg1 : S4096x256.Idx → EReal) k := by
  obtain ⟨-, -, e0, e1, -⟩ := idx_facts t
  unfold iblk0
  rw [View.read_apply]
  show V c main_arg1 _ = V c main_arg1 _
  congr 1
  funext a
  apply Fin.ext
  match a with
  | ⟨0, _⟩ => show win0_1.index t 0 * 512 + 1 * (x 0).val = (k 0).val; rw [e0, hk0]; omega
  | ⟨1, _⟩ => show win0_1.index t 1 * 256 + 1 * (x 1).val = (k 1).val; rw [e1, hk1]; omega

/-- A block whose rows are rows `512 t + p` of an array, normalised row by row, holds those rows of the array's unit rows. -/
theorem unit_of_rows (A : S4096x256.Idx → EReal) (x0 : Vec Idealize.ShloMosaic.Ideal S512x256 .f32) (t : ℕ)
    (hx : ∀ (x : S512x256.Idx) (k : S4096x256.Idx), (k 0).val = 512 * t + (x 0).val → (k 1).val = (x 1).val → x0 x = A k)
    (p : Fin 512) (d : Fin 256) (a : Fin 4096) (ha : a.val = 512 * t + p.val) :
    Idealize.ShloMosaic.Ideal.div (x0 (ix2 p d)) (max (Idealize.ShloMosaic.Ideal.sqrt (∑ e : Fin 256, x0 (ix2 p e) * x0 (ix2 p e))) Cert.NtXent.eps)
      = Cert.NtXent.unitRow (fun a d => A (ix2 a d)) a d := by
  have h : ∀ e : Fin 256, x0 (ix2 p e) = A (ix2 a e) := fun e => hx (ix2 p e) (ix2 a e) ha rfl
  simp only [h]
  rfl

theorem blk2_of (x0 : Vec Idealize.ShloMosaic.Ideal S512x256 .f32) (t : ℕ)
    (hx : ∀ (x : S512x256.Idx) (k : S4096x256.Idx), (k 0).val = 512 * t + (x 0).val → (k 1).val = (x 1).val → x0 x = (V c main_arg0 : S4096x256.Idx → EReal) k)
    (y : S512x256.Idx) (k : S4096x256.Idx) (hk0 : (k 0).val = 512 * t + (y 0).val) (hk1 : (k 1).val = (y 1).val) :
    k0_pay4 (F := Idealize.ShloMosaic.Ideal) x0 y = G2 V c k := by
  obtain ⟨p, d, rfl⟩ : ∃ (p : Fin 512) (d : Fin 256), y = ix2 p d := ⟨y 0, y 1, eq_ix2 y⟩
  obtain ⟨a, b, rfl⟩ : ∃ (a : Fin 4096) (b : Fin 256), k = ix2 a b := ⟨k 0, k 1, eq_ix2 k⟩
  obtain rfl : b = d := Fin.ext hk1
  exact (pay4_apply x0 p b).trans (unit_of_rows _ x0 t hx p b a hk0)

theorem blk3_of (x1 : Vec Idealize.ShloMosaic.Ideal S512x256 .f32) (t : ℕ)
    (hx : ∀ (x : S512x256.Idx) (k : S4096x256.Idx), (k 0).val = 512 * t + (x 0).val → (k 1).val = (x 1).val → x1 x = (V c main_arg1 : S4096x256.Idx → EReal) k)
    (y : S512x256.Idx) (k : S4096x256.Idx) (hk0 : (k 0).val = 512 * t + (y 0).val) (hk1 : (k 1).val = (y 1).val) :
    k0_pay5 (F := Idealize.ShloMosaic.Ideal) x1 y = G3 V c k := by
  obtain ⟨p, d, rfl⟩ : ∃ (p : Fin 512) (d : Fin 256), y = ix2 p d := ⟨y 0, y 1, eq_ix2 y⟩
  obtain ⟨a, b, rfl⟩ : ∃ (a : Fin 4096) (b : Fin 256), k = ix2 a b := ⟨k 0, k 1, eq_ix2 k⟩
  obtain rfl : b = d := Fin.ext hk1
  exact (pay5_apply x1 p b).trans (unit_of_rows _ x1 t hx p b a hk0)

theorem blk4_of (x0 x1 : Vec Idealize.ShloMosaic.Ideal S512x256 .f32) (t : ℕ)
    (hx0 : ∀ (x : S512x256.Idx) (k : S4096x256.Idx), (k 0).val = 512 * t + (x 0).val → (k 1).val = (x 1).val → x0 x = (V c main_arg0 : S4096x256.Idx → EReal) k)
    (hx1 : ∀ (x : S512x256.Idx) (k : S4096x256.Idx), (k 0).val = 512 * t + (x 0).val → (k 1).val = (x 1).val → x1 x = (V c main_arg1 : S4096x256.Idx → EReal) k)
    (y : S512x1.Idx) (k : S4096x1.Idx) (hk0 : (k 0).val = 512 * t + (y 0).val) :
    k0_pay3 (F := Idealize.ShloMosaic.Ideal) x0 x1 y = G4 V c k := by
  obtain ⟨p, q, rfl⟩ : ∃ (p : Fin 512) (q : Fin 1), y = ix2 p q := ⟨y 0, y 1, eq_ix2 y⟩
  obtain ⟨a, b, rfl⟩ : ∃ (a : Fin 4096) (b : Fin 1), k = ix2 a b := ⟨k 0, k 1, eq_ix2 k⟩
  obtain rfl : q = 0 := Subsingleton.elim _ _
  refine (pay3_apply x0 x1 p).trans ?_
  show _ = ∑ d : Fin 256, Cert.NtXent.unitRow (zi V c) a d * Cert.NtXent.unitRow (zj V c) a d
  refine Finset.sum_congr rfl fun d _ => ?_
  exact congrArg₂ (· * ·) (blk2_of V c x0 t hx0 (ix2 p d) (ix2 a d) hk0 rfl) (blk3_of V c x1 t hx1 (ix2 p d) (ix2 a d) hk0 rfl)

/-- What point `t` writes back to each output array is block `t` of the array's final contents. -/
theorem flushed2_eq (t : Fin cfg0.N) :
    (dat0 V c).flushed 2 t = ((cfg0.win 2).blk t).view.read (Elt Idealize.ShloMosaic.Ideal) (G2 V c) := by
  show (cfg0.win 2).cut (grid0.coords t) ((dat0 V c).after 2 t) = _
  rw [after0_2]
  unfold out0_2
  rw [View.canon_unit_zero hz]
  simp only [View.ld_unit_zero (S := S512x256) hz]
  obtain ⟨-, -, -, -, e0, e1, -⟩ := idx_facts t
  funext j
  show k0_pay4 (F := Idealize.ShloMosaic.Ideal) (iblk0 V c 0 t) _ = G2 V c (((cfg0.win 2).blk t).view.emb j)
  refine blk2_of V c (iblk0 V c 0 t) t.val (fun x k h0 h1 => iblk0_0_apply V c t x k h0 h1) _ _ ?_ ?_
  · show win0_2.index t 0 * 512 + 1 * (j 0).val = 512 * t.val + (j 0).val; rw [e0]; omega
  · show win0_2.index t 1 * 256 + 1 * (j 1).val = (j 1).val; rw [e1]; omega

theorem flushed3_eq (t : Fin cfg0.N) :
    (dat0 V c).flushed 3 t = ((cfg0.win 3).blk t).view.read (Elt Idealize.ShloMosaic.Ideal) (G3 V c) := by
  show (cfg0.win 3).cut (grid0.coords t) ((dat0 V c).after 3 t) = _
  rw [after0_3]
  unfold out0_3
  rw [View.canon_unit_zero hz]
  simp only [View.ld_unit_zero (S := S512x256) hz]
  obtain ⟨-, -, -, -, -, -, e0, e1, -⟩ := idx_facts t
  funext j
  show k0_pay5 (F := Idealize.ShloMosaic.Ideal) (iblk0 V c 1 t) _ = G3 V c (((cfg0.win 3).blk t).view.emb j)
  refine blk3_of V c (iblk0 V c 1 t) t.val (fun x k h0 h1 => iblk0_1_apply V c t x k h0 h1) _ _ ?_ ?_
  · show win0_3.index t 0 * 512 + 1 * (j 0).val = 512 * t.val + (j 0).val; rw [e0]; omega
  · show win0_3.index t 1 * 256 + 1 * (j 1).val = (j 1).val; rw [e1]; omega

theorem flushed4_eq (t : Fin cfg0.N) :
    (dat0 V c).flushed 4 t = ((cfg0.win 4).blk t).view.read (Elt Idealize.ShloMosaic.Ideal) (G4 V c) := by
  show (cfg0.win 4).cut (grid0.coords t) ((dat0 V c).after 4 t) = _
  rw [after0_4]
  unfold out0_4
  rw [View.canon_unit_zero hz]
  simp only [View.ld_unit_zero (S := S512x256) hz]
  obtain ⟨-, -, -, -, -, -, -, -, e0, e1⟩ := idx_facts t
  funext j
  show k0_pay3 (F := Idealize.ShloMosaic.Ideal) (iblk0 V c 0 t) (iblk0 V c 1 t) _ = G4 V c (((cfg0.win 4).blk t).view.emb j)
  refine blk4_of V c (iblk0 V c 0 t) (iblk0 V c 1 t) t.val (fun x k h0 h1 => iblk0_0_apply V c t x k h0 h1)
    (fun x k h0 h1 => iblk0_1_apply V c t x k h0 h1) _ _ ?_
  show win0_4.index t 0 * 512 + 1 * (j 0).val = 512 * t.val + (j 0).val; rw [e0]; omega

/-- An index of an output array is in point `t`'s block iff each coordinate is in the block's range on its axis. -/
theorem mem_blk2 (t : Fin cfg0.N) (i : S4096x256.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v0_0).slice (win0_2.rect t)).set ↔ _
  rw [View.set_slice_whole, Rect.mem_set_unit]
  exact Iff.rfl
theorem mem_blk3 (t : Fin cfg0.N) (i : S4096x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v0_1).slice (win0_3.rect t)).set ↔ _
  rw [View.set_slice_whole, Rect.mem_set_unit]
  exact Iff.rfl
theorem mem_blk4 (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v0_2).slice (win0_4.rect t)).set ↔ _
  rw [View.set_slice_whole, Rect.mem_set_unit]
  exact Iff.rfl

/-- The point whose blocks hold row `r`. -/
theorem point_of_row (r : ℕ) (hr : r < 4096) : ∃ t : Fin cfg0.N, t.val = r / 512 :=
  ⟨⟨r / 512, lt_of_lt_of_eq (by omega) N_0.symm⟩, rfl⟩

/-- Every index of each output array is in the block of the point that holds its row. -/
theorem cover2 (i : S4096x256.Idx) : ∃ t : Fin cfg0.N, (cfg0.win 2).flush t = true ∧ i ∈ ((cfg0.win 2).blk t).view.set := by
  have hi0 : (i 0).val < 4096 := (i 0).isLt
  have hi1 : (i 1).val < 256 := (i 1).isLt
  obtain ⟨t, ht⟩ := point_of_row (i 0).val hi0
  obtain ⟨-, -, -, -, e0, e1, -⟩ := idx_facts t
  refine ⟨t, flush0_2 t, ?_⟩
  rw [mem_blk2]
  intro a
  match a with
  | ⟨0, _⟩ => show win0_2.index t 0 * 512 ≤ (i 0).val ∧ (i 0).val < win0_2.index t 0 * 512 + 512; rw [e0, ht]; omega
  | ⟨1, _⟩ => show win0_2.index t 1 * 256 ≤ (i 1).val ∧ (i 1).val < win0_2.index t 1 * 256 + 256; rw [e1]; omega
theorem cover3 (i : S4096x256.Idx) : ∃ t : Fin cfg0.N, (cfg0.win 3).flush t = true ∧ i ∈ ((cfg0.win 3).blk t).view.set := by
  have hi0 : (i 0).val < 4096 := (i 0).isLt
  have hi1 : (i 1).val < 256 := (i 1).isLt
  obtain ⟨t, ht⟩ := point_of_row (i 0).val hi0
  obtain ⟨-, -, -, -, -, -, e0, e1, -⟩ := idx_facts t
  refine ⟨t, flush0_3 t, ?_⟩
  rw [mem_blk3]
  intro a
  match a with
  | ⟨0, _⟩ => show win0_3.index t 0 * 512 ≤ (i 0).val ∧ (i 0).val < win0_3.index t 0 * 512 + 512; rw [e0, ht]; omega
  | ⟨1, _⟩ => show win0_3.index t 1 * 256 ≤ (i 1).val ∧ (i 1).val < win0_3.index t 1 * 256 + 256; rw [e1]; omega
theorem cover4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  obtain ⟨t, ht⟩ := point_of_row (i 0).val hi0
  obtain ⟨-, -, -, -, -, -, -, -, e0, e1⟩ := idx_facts t
  refine ⟨t, flush0_4 t, ?_⟩
  rw [mem_blk4]
  intro a
  match a with
  | ⟨0, _⟩ => show win0_4.index t 0 * 512 ≤ (i 0).val ∧ (i 0).val < win0_4.index t 0 * 512 + 512; rw [e0, ht]; omega
  | ⟨1, _⟩ => show win0_4.index t 1 * 1 ≤ (i 1).val ∧ (i 1).val < win0_4.index t 1 * 1 + 1; rw [e1]; omega

/-- The three output arrays after the region. -/
theorem final2 : (dat0 V c).arrAt 2 cfg0.N = G2 V c :=
  (dat0 V c).arrAt_eq_of_cover 2 (G2 V c) (fun t _ => flushed2_eq V c t) cover2
theorem final3 : (dat0 V c).arrAt 3 cfg0.N = G3 V c :=
  (dat0 V c).arrAt_eq_of_cover 3 (G3 V c) (fun t _ => flushed3_eq V c t) cover3
theorem final4 : (dat0 V c).arrAt 4 cfg0.N = G4 V c :=
  (dat0 V c).arrAt_eq_of_cover 4 (G4 V c) (fun t _ => flushed4_eq V c t) cover4

/-- The first output holds the first input's unit rows, the second the second's, the third the rows' inner products. -/
theorem arr2_apply (a : Fin 4096) (d : Fin 256) :
    ((dat0 V c).arrAt 2 cfg0.N : S4096x256.Idx → EReal) (ix2 a d) = Cert.NtXent.unitRow (zi V c) a d :=
  congrFun (final2 V c) (ix2 a d)
theorem arr3_apply (a : Fin 4096) (d : Fin 256) :
    ((dat0 V c).arrAt 3 cfg0.N : S4096x256.Idx → EReal) (ix2 a d) = Cert.NtXent.unitRow (zj V c) a d :=
  congrFun (final3 V c) (ix2 a d)
theorem arr4_apply (a : Fin 4096) :
    ((dat0 V c).arrAt 4 cfg0.N : S4096x1.Idx → EReal) (ix2 a (0 : Fin 1))
      = ∑ d : Fin 256, Cert.NtXent.unitRow (zi V c) a d * Cert.NtXent.unitRow (zj V c) a d :=
  congrFun (final4 V c) (ix2 a (0 : Fin 1))

end Cert.KernelIdeal.Val0

end
-- ==== Proof.ResultI.lean ====
/-
  The program's result on the extended reals: the stacked array holds the 8192 unit rows, the column of
  inner products the partner similarities, the column written by the second kernel the denominators,
  so the last host operations leave the loss of the two input matrices in the result buffer.
-/
import proofs.«135420_j3994319585478_1_alg».proof.Proof.RunI
import proofs.«135420_j3994319585478_1_alg».proof.Proof.HostGlueW
import proofs.«135420_j3994319585478_1_alg».proof.Proof.LossJoin
import proofs.«135420_j3994319585478_1_alg».proof.Proof.ValueI0

set_option maxRecDepth 16384

noncomputable section

namespace Cert.KernelIdeal.Res

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.KernelIdeal.HostGlue

variable (m : (ℓ : Loc nD τ sig) → Buf (Elt Idealize.ShloMosaic.Ideal) ℓ) (ρ : Dev nD → PrngReg) (c : Dev nD)

/-- The two input matrices as launched, by row and column. -/
abbrev zi : Fin 4096 → Fin 256 → EReal :=
  fun a d => (m ((c : Thread nD τ).loc main_arg0) : S4096x256.Idx → EReal) (ix2 a d)
abbrev zj : Fin 4096 → Fin 256 → EReal :=
  fun a d => (m ((c : Thread nD τ).loc main_arg1) : S4096x256.Idx → EReal) (ix2 a d)

theorem W2_eq : W2 m ρ c = StableHlo.after hostOps1 (W1 m ρ c) := by unfold W2; rfl
theorem W4_eq : W4 m ρ c = StableHlo.after hostOps2 (W3 m ρ c) := by unfold W4; rfl

theorem W1_main_v0_0 : W1 m ρ c (Proc.devRef .tc main_v0_0) = (dat0 (U0 m ρ) c).arrAt 2 cfg0.N := W1_arr m ρ c 2
theorem W1_main_v0_1 : W1 m ρ c (Proc.devRef .tc main_v0_1) = (dat0 (U0 m ρ) c).arrAt 3 cfg0.N := W1_arr m ρ c 3
theorem W1_main_v0_2 : W1 m ρ c (Proc.devRef .tc main_v0_2) = (dat0 (U0 m ρ) c).arrAt 4 cfg0.N := W1_arr m ρ c 4

/-- The column of inner products reaches the last host operations as the first kernel left it. -/
theorem W3_main_v0_2 : W3 m ρ c (Proc.devRef .tc main_v0_2) = (dat0 (U0 m ρ) c).arrAt 4 cfg0.N :=
  (U3_of_ne m ρ c main_v0_2 (by decide)).trans <|
    (congrFun (W2_eq m ρ c) (Proc.devRef .tc main_v0_2)).trans <|
      (after1_keeps (W1 m ρ c) main_v0_2 (by decide)).trans (W1_main_v0_2 m ρ c)

section Join

variable
  (harr2 : ∀ (a : Fin 4096) (d : Fin 256),
    ((dat0 (U0 m ρ) c).arrAt 2 cfg0.N : S4096x256.Idx → EReal) (ix2 a d) = Cert.NtXent.unitRow (zi m c) a d)
  (harr3 : ∀ (a : Fin 4096) (d : Fin 256),
    ((dat0 (U0 m ρ) c).arrAt 3 cfg0.N : S4096x256.Idx → EReal) (ix2 a d) = Cert.NtXent.unitRow (zj m c) a d)
  (harr4 : ∀ (a : Fin 4096),
    ((dat0 (U0 m ρ) c).arrAt 4 cfg0.N : S4096x1.Idx → EReal) (ix2 a (0 : Fin 1))
      = ∑ d : Fin 256, Cert.NtXent.unitRow (zi m c) a d * Cert.NtXent.unitRow (zj m c) a d)
  (hden : (∀ (r : Fin 8192) (d : Fin 256),
      (U2 m ρ c main_v1 : S8192x256.Idx → EReal) (ix2 r d) = Cert.NtXent.zn (zi m c) (zj m c) r d) →
    ∀ r : Fin 8192, ((dat1 (U2 m ρ) c).arrAt 2 cfg1.N : S8192x1.Idx → EReal) (ix2 r (0 : Fin 1))
      = Cert.NtXent.den (zi m c) (zj m c) r)

include harr2 harr3 in
/-- The stacked array holds the 8192 unit rows. -/
theorem stacked (r : Fin 8192) (d : Fin 256) :
    (U2 m ρ c main_v1 : S8192x256.Idx → EReal) (ix2 r d) = Cert.NtXent.zn (zi m c) (zj m c) r d := by
  have e : (U2 m ρ c main_v1 : S8192x256.Idx → EReal)
      = (StableHlo.after hostOps1 (W1 m ρ c) (Proc.devRef .tc main_v1) : S8192x256.Idx → EReal) :=
    congrFun (W2_eq m ρ c) (Proc.devRef .tc main_v1)
  rw [e, after1_main_v1_apply (W1 m ρ c) r d]
  exact Cert.NtXent.zn_stack (zi m c) (zj m c)
    (fun a d => (W1 m ρ c (Proc.devRef .tc main_v0_0) : S4096x256.Idx → EReal) (ix2 a d))
    (fun a d => (W1 m ρ c (Proc.devRef .tc main_v0_1) : S4096x256.Idx → EReal) (ix2 a d))
    (fun a d => (congrFun (W1_main_v0_0 m ρ c) (ix2 a d)).trans (harr2 a d))
    (fun a d => (congrFun (W1_main_v0_1 m ρ c) (ix2 a d)).trans (harr3 a d)) r d

include harr2 harr3 harr4 hden in
/-- The result buffer holds the loss of the two input matrices. -/
theorem result_eq :
    (W4 m ρ c (Proc.devRef .tc main_v11) : S_.Idx → EReal)
      = fun _ => Cert.NtXent.loss (zi m c) (zj m c) := by
  have e : (W4 m ρ c (Proc.devRef .tc main_v11) : S_.Idx → EReal)
      = (StableHlo.after hostOps2 (W3 m ρ c) (Proc.devRef .tc main_v11) : S_.Idx → EReal) :=
    congrFun (W4_eq m ρ c) (Proc.devRef .tc main_v11)
  rw [e, after2_main_v11_eq (W3 m ρ c)]
  funext _
  exact Cert.NtXent.loss_eq_of_column (zi m c) (zj m c)
    (fun a => (W3 m ρ c (Proc.devRef .tc main_v0_2) : S4096x1.Idx → EReal) (ix2 a (0 : Fin 1)))
    (fun r => (W3 m ρ c (Proc.devRef .tc main_v2) : S8192x1.Idx → EReal) (ix2 r (0 : Fin 1)))
    (fun a => (congrFun (W3_main_v0_2 m ρ c) (ix2 a (0 : Fin 1))).trans (harr4 a))
    (fun r => (congrFun (U3_main_v2 m ρ c) (ix2 r (0 : Fin 1))).trans
      (hden (stacked m ρ c harr2 harr3) r))

end Join

/-! ## With the first kernel's three arrays read -/

/-- The stacked array holds the 8192 unit rows. -/
theorem stacked_zn (r : Fin 8192) (d : Fin 256) :
    (U2 m ρ c main_v1 : S8192x256.Idx → EReal) (ix2 r d) = Cert.NtXent.zn (zi m c) (zj m c) r d :=
  stacked m ρ c (Cert.KernelIdeal.Val0.arr2_apply (U0 m ρ) c) (Cert.KernelIdeal.Val0.arr3_apply (U0 m ρ) c) r d

/-- The result buffer holds the loss, given that the second kernel's column holds the denominators. -/
theorem result_eq_of_den
    (hden : (∀ (r : Fin 8192) (d : Fin 256),
        (U2 m ρ c main_v1 : S8192x256.Idx → EReal) (ix2 r d) = Cert.NtXent.zn (zi m c) (zj m c) r d) →
      ∀ r : Fin 8192, ((dat1 (U2 m ρ) c).arrAt 2 cfg1.N : S8192x1.Idx → EReal) (ix2 r (0 : Fin 1))
        = Cert.NtXent.den (zi m c) (zj m c) r) :
    (W4 m ρ c (Proc.devRef .tc main_v11) : S_.Idx → EReal)
      = fun _ => Cert.NtXent.loss (zi m c) (zj m c) :=
  result_eq m ρ c (Cert.KernelIdeal.Val0.arr2_apply (U0 m ρ) c) (Cert.KernelIdeal.Val0.arr3_apply (U0 m ρ) c)
    (Cert.KernelIdeal.Val0.arr4_apply (U0 m ρ) c) hden

end Cert.KernelIdeal.Res

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.KernelPay1.lean ====
/-
  The values the denominator body stores, read at an index, at the ideal values.

  The first is the zero column. The second adds to the running column, per row, the sum over the block's 1024 columns of
  `exp (⟨q row, k row⟩ / half)`, the entries whose global row number equals their global column number left out.
-/
import proofs.«135420_j3994319585478_1_alg».proof.Proof.Gen.KernelIdeal.Skeleton
import proofs.«135420_j3994319585478_1_alg».proof.Proof.Spec
import proofs.«135420_j3994319585478_1_alg».proof.Proof.LibKeepdims
import proofs.«135420_j3994319585478_1_alg».proof.Proof.LibMatmulIx
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Cert.KernelIdeal Cert.KernelIdeal.Gen ValueIdx Cert.LibKeepdims Cert.LibMatmulIx

/-- The zero column. -/
theorem pay1_1_apply (p : Fin 1024) : k1_pay1 (F := Ideal) (ix2 p (0 : Fin 1)) = 0 := by
  show shapeCast S1024x1 (broadcast S1024x1 (Scalar.ofBits (F := Ideal) .f32 0x00000000#32)) shapeCasts_S1024x1_S1024x1
      (ix2 p (0 : Fin 1)) = 0
  rw [shapeCast_self]
  exact Ideal.ofBits_zero_f32

/-- The sum of each row's entries of a 1024 x 1024 block, at row `p`. -/
theorem rowsum1024_apply (v : FVec Ideal S1024x1024 .f32) (p : Fin 1024) :
    multiReduction .add [1] S1024 v 0x00000000#32 reduces_S1024x1024_S1024 (.inl rfl) rfl (ix1 p) = ∑ c : Fin 1024, v (ix2 p c) :=
  multiReduction_add_axis1 v _ _ _ _ p

/-- The product of the `q` block with the transposed `k` block, at entry `(p, c)`: the inner product of row `p` of `q`
    with row `c` of `k`. -/
theorem gram_apply (q kk : FVec Ideal S1024x256 .bf16) (p c : Fin 1024) :
    matmul dot_S1024x256_S256x1024_S1024x1024_1_0_0_1_n_n none q
        (transpose S256x1024 [1, 0] kk transposes_S1024x256_p1_0_S256x1024)
        (constant S1024x1024 .f32 0x00000000#32) (ix2 p c)
      = ∑ d : Fin 256, q (ix2 p d) * kk (ix2 c d) := by
  refine (matmul_zero_apply (M := 1024) (K := 256) (N := 1024) dot_S1024x256_S256x1024_S1024x1024_1_0_0_1_n_n_wf none q
    (transpose S256x1024 [1, 0] kk transposes_S1024x256_p1_0_S256x1024) p c).trans ?_
  refine Finset.sum_congr rfl fun d _ => ?_
  rw [transpose_ix2_apply]

/-- A block number times 1024 plus an offset, as 32-bit words. -/
theorem word_lin (a p : ℕ) : BitVec.ofNat 32 a * 1024#32 + BitVec.ofNat 32 p = BitVec.ofNat 32 (a * 1024 + p) := by
  rw [BitVec.ofNat_add, BitVec.ofNat_mul]

/-- The comparison of the global row number with the global column number: the 32-bit sums do not wrap. -/
theorem ne_word (a b p c : ℕ) (ha : a < 8) (hb : b < 8) (hp : p < 1024) (hc : c < 1024) :
    IntOp.cmpi .ne (IntOp.addi (IntOp.muli (BitVec.ofNat 32 a) 1024#32) (BitVec.ofNat 32 p))
        (IntOp.addi (IntOp.muli (BitVec.ofNat 32 b) 1024#32) (BitVec.ofNat 32 c))
      = if a * 1024 + p = b * 1024 + c then 0#1 else 1#1 := by
  show BitVec.ofBool ((BitVec.ofNat 32 a * 1024#32 + BitVec.ofNat 32 p) != (BitVec.ofNat 32 b * 1024#32 + BitVec.ofNat 32 c)) = _
  rw [word_lin, word_lin]
  by_cases e : a * 1024 + p = b * 1024 + c
  · rw [if_pos e, e, bne_self_eq_false]; rfl
  · have hne : BitVec.ofNat 32 (a * 1024 + p) ≠ BitVec.ofNat 32 (b * 1024 + c) :=
      fun h => e ((ofNat32_eq_iff (by omega) (by omega)).1 h)
    rw [if_neg e, bne_iff_ne.2 hne]; rfl

/-- The body's stored column over variables: block numbers `a`, `b` below 8. -/
theorem denom_body_apply (a b : ℕ) (ha : a < 8) (hb : b < 8) (q kk : FVec Ideal S1024x256 .bf16)
    (acc : FVec Ideal S1024x1 .f32) (p : Fin 1024) :
    shapeCast S1024x1 (addf acc (shapeCast S1024x1 (multiReduction .add [1] S1024
        (select
          (cmpi .ne
            (addi (broadcast S1024x1024 (Scalar.muli (BitVec.ofNat 32 a) 1024#32)) (iota .tc S1024x1024 32 [0] iota_S1024x1024_d0_w32))
            (addi (broadcast S1024x1024 (Scalar.muli (BitVec.ofNat 32 b) 1024#32)) (iota .tc S1024x1024 32 [1] iota_S1024x1024_d1_w32)))
          (exp (divf
            (matmul dot_S1024x256_S256x1024_S1024x1024_1_0_0_1_n_n none
              (shapeCast S1024x256 q shapeCasts_S1024x256_S1024x256)
              (transpose S256x1024 [1, 0] (shapeCast S1024x256 kk shapeCasts_S1024x256_S1024x256) transposes_S1024x256_p1_0_S256x1024)
              (constant S1024x1024 .f32 0x00000000#32))
            (broadcast S1024x1024 (Scalar.ofBits (F := Ideal) .f32 0x3F000000#32))))
          (broadcast S1024x1024 (Scalar.ofBits (F := Ideal) .f32 0x00000000#32)))
        0x00000000#32 reduces_S1024x1024_S1024 (.inl rfl) rfl) shapeCasts_S1024_S1024x1)) shapeCasts_S1024x1_S1024x1
        (ix2 p (0 : Fin 1))
      = acc (ix2 p (0 : Fin 1)) + ∑ c : Fin 1024,
          (if a * 1024 + p.val = b * 1024 + c.val then 0
            else Ideal.exp (Ideal.div (∑ d : Fin 256, q (ix2 p d) * kk (ix2 c d)) Cert.NtXent.half)) := by
  rw [shapeCast_self, addf_apply, shapeCast_a_a1_apply, shapeCast_self, shapeCast_self]
  refine congrArg (fun t => acc (ix2 p (0 : Fin 1)) + t) ((rowsum1024_apply _ p).trans (Finset.sum_congr rfl fun c _ => ?_))
  rw [select_apply]
  have hm : cmpi .ne
      (addi (broadcast S1024x1024 (Scalar.muli (BitVec.ofNat 32 a) 1024#32)) (iota .tc S1024x1024 32 [0] iota_S1024x1024_d0_w32))
      (addi (broadcast S1024x1024 (Scalar.muli (BitVec.ofNat 32 b) 1024#32)) (iota .tc S1024x1024 32 [1] iota_S1024x1024_d1_w32))
      (ix2 p c) = if a * 1024 + p.val = b * 1024 + c.val then 0#1 else 1#1 := by
    show IntOp.cmpi .ne (IntOp.addi (IntOp.muli (BitVec.ofNat 32 a) 1024#32) (iota .tc S1024x1024 32 [0] iota_S1024x1024_d0_w32 (ix2 p c)))
        (IntOp.addi (IntOp.muli (BitVec.ofNat 32 b) 1024#32) (iota .tc S1024x1024 32 [1] iota_S1024x1024_d1_w32 (ix2 p c))) = _
    rw [iota_single_apply, iota_single_apply]
    exact ne_word a b p.val c.val ha hb p.isLt c.isLt
  rw [hm]
  have hg := gram_apply q kk p c
  by_cases e : a * 1024 + p.val = b * 1024 + c.val
  · rw [if_pos e, if_pos e, select_zero]
    exact Ideal.ofBits_zero_f32
  · rw [if_neg e, if_neg e, select_one]
    exact congrArg (fun t => Ideal.exp (Ideal.div t Cert.NtXent.half)) hg

theorem pay1_2_apply (i : grid1.Coords) (q kk : Vec Ideal S1024x256 .bf16) (acc : Vec Ideal S1024x1 .f32) (p : Fin 1024) :
    k1_pay2 (F := Ideal) i q kk acc (ix2 p (0 : Fin 1)) = acc (ix2 p (0 : Fin 1)) + ∑ c : Fin 1024,
      (if (i 0).val * 1024 + p.val = (i 1).val * 1024 + c.val then 0
        else Ideal.exp (Ideal.div (∑ d : Fin 256, q (ix2 p d) * kk (ix2 c d)) Cert.NtXent.half)) :=
  denom_body_apply (i 0).val (i 1).val (i 0).isLt (i 1).isLt q kk acc p

end Cert.KernelIdeal.Pay

end
-- ==== Proof.AccValue.lean ====
/-
  The second kernel's running column in closed form: starting from the zero column and adding, for
  each of the eight column blocks in turn, the masked row sums of exponentials, the column after
  block `k` holds at row `p` the blockwise running sum of row `I * 1024 + p`'s denominator terms;
  after the last block, the denominator itself.
-/
import proofs.«135420_j3994319585478_1_alg».proof.Proof.Gen.KernelIdeal.Skeleton
import proofs.«135420_j3994319585478_1_alg».proof.Proof.KernelPay1
import proofs.«135420_j3994319585478_1_alg».proof.Proof.LossJoin
import proofs.«135420_j3994319585478_1_alg».proof.Proof.Spec
import Idealize.ShloMosaic.Lib.ValueIdx

noncomputable section

namespace Cert.KernelIdeal.Acc

open Idealize.ShloMosaic Cert.KernelIdeal Cert.KernelIdeal.Gen Idealize.ShloMosaic.ValueIdx

/-- Block `J` of 1024 rows of the stacked rows `Z`. -/
def blkZ (Z : Fin 8192 → Fin 256 → EReal) (J : Fin 8) : Vec Idealize.ShloMosaic.Ideal S1024x256 .bf16 :=
  fun y => Z ⟨J.val * 1024 + (y 0).val, by have := idx2_lt0 y; have := J.isLt; omega⟩ ⟨(y 1).val, idx2_lt1 y⟩

theorem blkZ_apply (Z : Fin 8192 → Fin 256 → EReal) (J : Fin 8) (p : Fin 1024) (d : Fin 256) :
    blkZ Z J (ix2 p d) = Z ⟨J.val * 1024 + p.val, by omega⟩ d := rfl

/-- Row `r`'s denominator term at column `c`. -/
def denTerm (Z : Fin 8192 → Fin 256 → EReal) (r c : Fin 8192) : EReal :=
  if r = c then 0 else Ideal.exp (Ideal.div (∑ d : Fin 256, Z r d * Z c d) Cert.NtXent.half)

variable (Z : Fin 8192 → Fin 256 → EReal) (I : Fin 8) (coords : Fin 8 → grid1.Coords)

/-- The running column after column block `k` of row block `I`. -/
def accK : (k : ℕ) → k < 8 → Vec Idealize.ShloMosaic.Ideal S1024x1 .f32
  | 0, h => k1_pay2 (F := Idealize.ShloMosaic.Ideal) (coords ⟨0, h⟩) (blkZ Z I) (blkZ Z ⟨0, h⟩)
      (k1_pay1 (F := Idealize.ShloMosaic.Ideal))
  | k+1, h => k1_pay2 (F := Idealize.ShloMosaic.Ideal) (coords ⟨k+1, h⟩) (blkZ Z I) (blkZ Z ⟨k+1, h⟩)
      (accK k (by omega))

theorem accK_zero (h : 0 < 8) :
    accK Z I coords 0 h = k1_pay2 (F := Idealize.ShloMosaic.Ideal) (coords ⟨0, h⟩) (blkZ Z I) (blkZ Z ⟨0, h⟩)
      (k1_pay1 (F := Idealize.ShloMosaic.Ideal)) := rfl

theorem accK_succ (k : ℕ) (h : k + 1 < 8) :
    accK Z I coords (k+1) h = k1_pay2 (F := Idealize.ShloMosaic.Ideal) (coords ⟨k+1, h⟩) (blkZ Z I)
      (blkZ Z ⟨k+1, h⟩) (accK Z I coords k (by omega)) := rfl

/-- One block's step at row `p`: the column before plus the block's masked terms. -/
theorem step_apply (hc0 : ∀ k, ((coords k) 0).val = I.val) (hc1 : ∀ k, ((coords k) 1).val = k.val)
    (k : ℕ) (hk : k < 8) (acc : Vec Idealize.ShloMosaic.Ideal S1024x1 .f32) (p : Fin 1024) :
    k1_pay2 (F := Idealize.ShloMosaic.Ideal) (coords ⟨k, hk⟩) (blkZ Z I) (blkZ Z ⟨k, hk⟩) acc (ix2 p (0 : Fin 1))
      = acc (ix2 p (0 : Fin 1)) + ∑ j : Fin 1024,
          denTerm Z ⟨I.val * 1024 + p.val, by omega⟩ ⟨k * 1024 + j.val, by omega⟩ := by
  rw [Cert.KernelIdeal.Pay.pay1_2_apply]
  refine congrArg (acc (ix2 p (0 : Fin 1)) + ·) (Finset.sum_congr rfl fun j _ => ?_)
  rw [hc0 ⟨k, hk⟩, hc1 ⟨k, hk⟩]
  unfold denTerm
  by_cases e : I.val * 1024 + p.val = k * 1024 + j.val
  · rw [if_pos e, if_pos (Fin.ext e)]
  · rw [if_neg e, if_neg (fun h => e (congrArg Fin.val h))]
    rfl

theorem accK_apply_denTerm (hc0 : ∀ k, ((coords k) 0).val = I.val) (hc1 : ∀ k, ((coords k) 1).val = k.val)
    (p : Fin 1024) : ∀ (k : ℕ) (hk : k < 8),
    accK Z I coords k hk (ix2 p (0 : Fin 1))
      = Cert.NtXent.accBlocks (denTerm Z ⟨I.val * 1024 + p.val, by omega⟩) k
  | 0, hk => by
    rw [accK_zero, step_apply Z I coords hc0 hc1 0 hk, Cert.KernelIdeal.Pay.pay1_1_apply]
    rfl
  | k+1, hk => by
    rw [accK_succ, step_apply Z I coords hc0 hc1 (k+1) hk, accK_apply_denTerm hc0 hc1 p k (by omega)]
    show _ = Cert.NtXent.accBlocks _ k + _
    refine congrArg (Cert.NtXent.accBlocks _ k + ·) (Finset.sum_congr rfl fun j _ => ?_)
    rw [dif_pos (by have := j.isLt; omega)]

/-- The running column after block `k`, at row `p`: the blockwise running sum of the row's terms. -/
theorem accK_apply (hc0 : ∀ k, ((coords k) 0).val = I.val) (hc1 : ∀ k, ((coords k) 1).val = k.val)
    (k : ℕ) (hk : k < 8) (p : Fin 1024) :
    accK Z I coords k hk (ix2 p (0 : Fin 1))
      = Cert.NtXent.accBlocks (fun c : Fin 8192 =>
          if (⟨I.val * 1024 + p.val, by omega⟩ : Fin 8192) = c then 0
          else Ideal.exp (Ideal.div (∑ d : Fin 256, Z ⟨I.val * 1024 + p.val, by omega⟩ d * Z c d)
            Cert.NtXent.half)) k :=
  accK_apply_denTerm Z I coords hc0 hc1 p k hk

/-- Over the stacked unit rows, the column after the last block holds the denominators. -/
theorem accK_seven (zi zj : Fin 4096 → Fin 256 → EReal)
    (hc0 : ∀ k, ((coords k) 0).val = I.val) (hc1 : ∀ k, ((coords k) 1).val = k.val) (h7 : 7 < 8)
    (p : Fin 1024) :
    accK (Cert.NtXent.zn zi zj) I coords 7 h7 (ix2 p (0 : Fin 1))
      = Cert.NtXent.den zi zj ⟨I.val * 1024 + p.val, by omega⟩ :=
  (accK_apply (Cert.NtXent.zn zi zj) I coords hc0 hc1 7 h7 p).trans
    (Cert.NtXent.den_of_blocks zi zj ⟨I.val * 1024 + p.val, by omega⟩)

end Cert.KernelIdeal.Acc

end
-- ==== Proof.ValueI1Pieces.lean ====
/-
  What each case of the second body leaves, as values: in each case the body's stores, read back, are the body's
  payloads of the blocks it loaded.
-/
import proofs.«135420_j3994319585478_1_alg».proof.Proof.FrameI1
import Idealize.ShloMosaic.Lib.Pipeline.Value
import Idealize.ShloMosaic.Lib.Tactic

set_option maxRecDepth 16384

noncomputable section

namespace Cert.KernelIdeal.Val1

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Fr

variable {F : FTy → Type} [FloatOps F]

theorem hz : (![0, 0] : Fin 2 → Nat) = fun _ => 0 := funext fun a => by fin_cases a <;> rfl

/-- Column blocks 1 to 6: the accumulator is left at the body's sum of the two loaded blocks added to what it held. -/
theorem sout1_B_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 x1 : Vec F S1024x256 .bf16) (xs0 : Vec F S1024x1 .f32) :
    sout1_B c i arg2 harg2 arg3 harg3 arg4 harg4 arg5 harg5 hc0 hc1 x0 x1 xs0 = k1_pay2 i x0 x1 xs0 := by
  unfold sout1_B
  rw [View.read_writes_eq_canon _ _ _ (scover1_B c i arg2 harg2 arg3 harg3 arg4 harg4 arg5 harg5 hc0 hc1 x0 x1 xs0)]
  unfold kernelRun1_B
  dsimp only
  rw [View.canon_unit_zero hz]
  simp only [View.readAt_eq_ld, harg2.read_unread, harg3.read_unread, harg5.read_unread,
    View.ld_unit_zero (S := S1024x256) hz, View.ld_unit_zero (S := S1024x1) hz]

/-- Column block 0: the accumulator is reset to the zero column, then left at the body's sum added to it. -/
theorem sout1_A_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 x1 : Vec F S1024x256 .bf16) :
    sout1_A c i arg2 harg2 arg3 harg3 arg4 harg4 arg5 harg5 hc0 hc1 x0 x1 = k1_pay2 i x0 x1 k1_pay1 := by
  unfold sout1_A
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero (S := S1024x1) hz, View.readCov_unit_zero (S := S1024x1) _ hz]
  simp only [View.readAt_eq_ld, harg2.read_unread, harg3.read_unread,
    View.ld_unit_zero (S := S1024x256) hz, View.ld_unit_zero (S := S1024x1) hz]

/-- Column block 7: the accumulator is left at the body's sum added to what it held, -/
theorem sout1_C_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x256 .bf16) (xs0 : Vec F S1024x1 .f32) :
    sout1_C c i arg2 harg2 arg3 harg3 arg4 harg4 arg5 harg5 hc0 hc1 x0 x1 xs0 = k1_pay2 i x0 x1 xs0 := by
  unfold sout1_C
  rw [View.read_writes_eq_canon _ _ _ (scover1_C c i arg2 harg2 arg3 harg3 arg4 harg4 arg5 harg5 hc0 hc1 x0 x1 xs0)]
  unfold kernelRun1_C
  dsimp only
  sl_unfold_words
  rw [View.canon_unit_zero hz]
  simp only [View.readAt_eq_ld, harg2.read_unread, harg3.read_unread, harg5.read_unread,
    View.ld_unit_zero (S := S1024x256) hz, View.ld_unit_zero (S := S1024x1) hz]

/-- and the same column is stored to the output window's buffer. -/
theorem out1_C_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x256 .bf16) (xs0 : Vec F S1024x1 .f32) :
    out1_C c i arg2 harg2 arg3 harg3 arg4 harg4 arg5 harg5 hc0 hc1 x0 x1 xs0 = k1_pay2 i x0 x1 xs0 := by
  unfold out1_C
  rw [View.read_writes_eq_canon _ _ _ (cover1_C c i arg2 harg2 arg3 harg3 arg4 harg4 arg5 harg5 hc0 hc1 x0 x1 xs0)]
  unfold kernelRun1_C
  dsimp only
  sl_unfold_words
  rw [View.canon_unit_zero hz, View.readCov_unit_zero (S := S1024x1) _ hz]
  simp only [View.readAt_eq_ld, harg2.read_unread, harg3.read_unread, harg5.read_unread,
    View.ld_unit_zero (S := S1024x256) hz, View.ld_unit_zero (S := S1024x1) hz]

end Cert.KernelIdeal.Val1

end
-- ==== Proof.ValueI1Blocks.lean ====
/-
  The second kernel's windows read as blocks of arrays: at grid point `t` the two input windows hold
  row blocks `t / 8` and `t mod 8` of the stacked unit rows, and the output window, written back at the
  points with `t mod 8 = 7`, tiles the column of denominators by blocks of 1024 rows.
-/
import proofs.«135420_j3994319585478_1_alg».proof.Proof.FrameI1
import proofs.«135420_j3994319585478_1_alg».proof.Proof.AccValue
import Idealize.ShloMosaic.Lib.Pipeline.Value
import Idealize.ShloMosaic.Lib.ValueIdx

set_option maxRecDepth 16384

noncomputable section

namespace Cert.KernelIdeal.Val1

open Idealize.ShloMosaic Idealize.ShloMosaic.TcCoe Idealize.ShloMosaic.ValueIdx
open Idealize.ShloMosaic.Pipeline (Dat Cfg Window)
open Cert.KernelIdeal Cert.KernelIdeal.Gen Cert.KernelIdeal.Fr

/-! ## The grid's points -/

theorem N1_eq : cfg1.N = 64 := N_1

theorem coords1_0 (t : Fin cfg1.N) : (grid1.coords t 0).val = t.val / 8 :=
  (by decide +kernel : ∀ t : Fin grid1.N, (grid1.coords t 0).val = t.val / 8) t

theorem coords1_1 (t : Fin cfg1.N) : (grid1.coords t 1).val = t.val % 8 :=
  (by decide +kernel : ∀ t : Fin grid1.N, (grid1.coords t 1).val = t.val % 8) t

/-- The printed index maps, decided over the grid. -/
theorem idx_facts1 : ∀ t : Fin cfg1.N, win1_0.index t (0 : Fin 2) = t.val / 8
    ∧ win1_0.index t (1 : Fin 2) = 0
    ∧ win1_1.index t (0 : Fin 2) = t.val % 8
    ∧ win1_1.index t (1 : Fin 2) = 0
    ∧ win1_2.index t (0 : Fin 2) = t.val / 8
    ∧ win1_2.index t (1 : Fin 2) = 0 :=
  (by decide +kernel : ∀ t : Fin grid1.N, _)

variable (V : (c : Dev nD) → (b : Ref sig .tc) → Buf (Elt Idealize.ShloMosaic.Ideal) ((c : Thread nD τ).loc b))
  (c : Dev nD)

/-- The stacked array the two input windows read, by row and column. -/
def Zof : Fin 8192 → Fin 256 → EReal := fun r d => (V c main_v1 : S8192x256.Idx → EReal) (ix2 r d)

/-! ## The input blocks -/

theorem iblk1_0_eq (t : Fin cfg1.N) :
    iblk1 V c 0 t = Acc.blkZ (Zof V c) ⟨t.val / 8, by have := lt_of_lt_of_eq t.isLt N1_eq; omega⟩ := by
  have hN : t.val < 64 := lt_of_lt_of_eq t.isLt N1_eq
  obtain ⟨e0, e1, e2, e3, e4, e5⟩ := idx_facts1 t
  funext y
  show (V c main_v1 : S8192x256.Idx → EReal) (((cfg1.win 0).blk t).view.emb y)
    = (V c main_v1 : S8192x256.Idx → EReal) (ix2 ⟨t.val / 8 * 1024 + (y 0).val, _⟩ ⟨(y 1).val, _⟩)
  refine congrArg (V c main_v1 : S8192x256.Idx → EReal) (funext fun a => Fin.ext ?_)
  match a with
  | ⟨0, _⟩ =>
    show win1_0.index t (0 : Fin 2) * 1024 + 1 * (y 0).val = t.val / 8 * 1024 + (y 0).val
    rw [e0]; omega
  | ⟨1, _⟩ =>
    show win1_0.index t (1 : Fin 2) * 256 + 1 * (y 1).val = (y 1).val
    rw [e1]; omega

theorem iblk1_1_eq (t : Fin cfg1.N) :
    iblk1 V c 1 t = Acc.blkZ (Zof V c) ⟨t.val % 8, by omega⟩ := by
  obtain ⟨e0, e1, e2, e3, e4, e5⟩ := idx_facts1 t
  funext y
  show (V c main_v1 : S8192x256.Idx → EReal) (((cfg1.win 1).blk t).view.emb y)
    = (V c main_v1 : S8192x256.Idx → EReal) (ix2 ⟨t.val % 8 * 1024 + (y 0).val, _⟩ ⟨(y 1).val, _⟩)
  refine congrArg (V c main_v1 : S8192x256.Idx → EReal) (funext fun a => Fin.ext ?_)
  match a with
  | ⟨0, _⟩ =>
    show win1_1.index t (0 : Fin 2) * 1024 + 1 * (y 0).val = t.val % 8 * 1024 + (y 0).val
    rw [e2]; omega
  | ⟨1, _⟩ =>
    show win1_1.index t (1 : Fin 2) * 256 + 1 * (y 1).val = (y 1).val
    rw [e3]; omega

/-! ## From the output window's blocks to the column -/

/-- An index of the column is in point `t`'s block iff each coordinate is in the block's range on its axis. -/
theorem mem_blk1_2 (t : Fin cfg1.N) (i : S8192x1.Idx) :
    i ∈ ((cfg1.win 2).blk t).view.set ↔ ∀ a : Fin 2, win1_2.index t a * S1024x1.size a ≤ (i a).val
      ∧ (i a).val < win1_2.index t a * S1024x1.size a + S1024x1.size a := by
  show i ∈ ((View.whole main_v2).slice (win1_2.rect t)).set ↔ _
  rw [View.set_slice_whole, Rect.mem_set_unit]
  exact Iff.rfl

theorem arrDen_of (G : Fin 8192 → EReal)
    (hout : ∀ (t : Fin cfg1.N), t.val % 8 = 7 → ∀ p : Fin 1024,
      ((outsAt1 V c t.val t.isLt).1 : S1024x1.Idx → EReal) (ix2 p (0 : Fin 1))
        = G ⟨(t.val / 8) * 1024 + p.val, by have := lt_of_lt_of_eq t.isLt N1_eq; omega⟩)
    (r : Fin 8192) :
    ((dat1 V c).arrAt 2 cfg1.N : S8192x1.Idx → EReal) (ix2 r (0 : Fin 1)) = G r := by
  have hall : (dat1 V c).arrAt 2 cfg1.N = (fun i : S8192x1.Idx => G ⟨(i 0).val, idx2_lt0 i⟩) := by
    refine (dat1 V c).arrAt_eq_of_cover 2 (fun i : S8192x1.Idx => G ⟨(i 0).val, idx2_lt0 i⟩) ?_ ?_
    · intro t hf
      have hN : t.val < 64 := lt_of_lt_of_eq t.isLt N1_eq
      have h7 : t.val % 8 = 7 := (flush1_2 t).mp hf
      obtain ⟨e0, e1, e2, e3, e4, e5⟩ := idx_facts1 t
      show (cfg1.win 2).cut (grid1.coords t) ((dat1 V c).after 2 t) = _
      rw [after1_2]
      funext y
      obtain ⟨p, q, rfl⟩ : ∃ (p : Fin 1024) (q : Fin 1), y = ix2 p q := ⟨y 0, y 1, eq_ix2 y⟩
      obtain rfl : q = 0 := Subsingleton.elim _ _
      show ((outsAt1 V c t.val t.isLt).1 : S1024x1.Idx → EReal) (ix2 p (0 : Fin 1))
        = G ⟨((((cfg1.win 2).blk t).view.emb (ix2 p (0 : Fin 1))) 0).val, _⟩
      rw [hout t h7 p]
      refine congrArg G (Fin.ext ?_)
      show t.val / 8 * 1024 + p.val = win1_2.index t (0 : Fin 2) * 1024 + 1 * p.val
      rw [e4]; omega
    · intro i
      have hi0 : (i 0).val < 8192 := idx2_lt0 i
      have hi1 : (i 1).val < 1 := idx2_lt1 i
      have hlt : 8 * ((i 0).val / 1024) + 7 < cfg1.N := by rw [N1_eq]; omega
      refine ⟨⟨8 * ((i 0).val / 1024) + 7, hlt⟩, (flush1_2 _).mpr (by show (8 * ((i 0).val / 1024) + 7) % 8 = 7; omega), ?_⟩
      obtain ⟨e0, e1, e2, e3, e4, e5⟩ := idx_facts1 ⟨8 * ((i 0).val / 1024) + 7, hlt⟩
      rw [mem_blk1_2]
      intro a
      match a with
      | ⟨0, _⟩ =>
        show win1_2.index ⟨8 * ((i 0).val / 1024) + 7, hlt⟩ (0 : Fin 2) * 1024 ≤ (i 0).val
          ∧ (i 0).val < win1_2.index ⟨8 * ((i 0).val / 1024) + 7, hlt⟩ (0 : Fin 2) * 1024 + 1024
        rw [e4]
        show (8 * ((i 0).val / 1024) + 7) / 8 * 1024 ≤ (i 0).val ∧ (i 0).val < (8 * ((i 0).val / 1024) + 7) / 8 * 1024 + 1024
        omega
      | ⟨1, _⟩ =>
        show win1_2.index ⟨8 * ((i 0).val / 1024) + 7, hlt⟩ (1 : Fin 2) * 1 ≤ (i 1).val
          ∧ (i 1).val < win1_2.index ⟨8 * ((i 0).val / 1024) + 7, hlt⟩ (1 : Fin 2) * 1 + 1
        rw [e5]; omega
  rw [hall]

end Cert.KernelIdeal.Val1

end
-- ==== Proof.ValueI1.lean ====
/-
  The second region's accumulator and output buffer after each grid point, as values: by induction on the point, the
  accumulator after the point of row block `I` and column block `k` is the running column after `k` of the eight
  blockwise additions; at column block 7 the output buffer holds the same column; so the output array ends holding
  every row's denominator.
-/
import proofs.«135420_j3994319585478_1_alg».proof.Proof.FrameI1
import proofs.«135420_j3994319585478_1_alg».proof.Proof.AccValue
import proofs.«135420_j3994319585478_1_alg».proof.Proof.ValueI1Pieces
import proofs.«135420_j3994319585478_1_alg».proof.Proof.ValueI1Blocks
import Idealize.ShloMosaic.Lib.Pipeline.Value
import Idealize.ShloMosaic.Lib.ValueIdx

set_option maxRecDepth 16384

noncomputable section

namespace Cert.KernelIdeal.Val1

open Idealize.ShloMosaic Idealize.ShloMosaic.TcCoe Idealize.ShloMosaic.ValueIdx
open Idealize.ShloMosaic.Pipeline (Dat Cfg Window)
open Cert.KernelIdeal Cert.KernelIdeal.Gen Cert.KernelIdeal.Fr

/-! ## The recursion the accumulator obeys, at any values -/

section Rec
variable {F : FTy → Type} [FloatOps F]
variable (V : (c : Dev nD) → (b : Ref sig .tc) → Buf (Elt F) ((c : Thread nD τ).loc b)) (c : Dev nD)

/-- At column block 0 the accumulator is left at the body's sum added to the zero column. -/
theorem acc_rec_first (t : Fin cfg1.N) (h0 : t.val % 8 = 0) :
    (outsAt1 V c t.val t.isLt).2 = k1_pay2 (grid1.coords t) (iblk1 V c 0 t) (iblk1 V c 1 t) k1_pay1 := by
  have h1 : ¬t.val % 8 = 7 := by omega
  rw [outsAt1_A V c t h0 h1]
  dsimp only
  exact sout1_A_eq _ _ _ _ _ _ _ _ _ _ _ _ _ _

/-- At the other column blocks it is left at the body's sum added to what the point before left. -/
theorem acc_rec_next (t : Fin cfg1.N) (h0 : ¬t.val % 8 = 0) :
    (outsAt1 V c t.val t.isLt).2 = k1_pay2 (grid1.coords t) (iblk1 V c 0 t) (iblk1 V c 1 t)
      (outsAt1 V c (t.val - 1) (Nat.lt_of_le_of_lt (Nat.sub_le _ _) t.isLt)).2 := by
  by_cases h1 : t.val % 8 = 7
  · rw [outsAt1_C V c t h0 h1]
    dsimp only
    exact sout1_C_eq _ _ _ _ _ _ _ _ _ _ _ _ _ _ _
  · rw [outsAt1_B V c t h0 h1]
    dsimp only
    exact sout1_B_eq _ _ _ _ _ _ _ _ _ _ _ _ _ _ _

/-- At column block 7 the output buffer is left at what the accumulator is left at. -/
theorem out_rec_last (t : Fin cfg1.N) (h7 : t.val % 8 = 7) :
    (outsAt1 V c t.val t.isLt).1 = (outsAt1 V c t.val t.isLt).2 := by
  have h0 : ¬t.val % 8 = 0 := by omega
  rw [outsAt1_C V c t h0 h7]
  dsimp only
  exact (out1_C_eq _ _ _ _ _ _ _ _ _ _ _ _ _ _ _).trans (sout1_C_eq _ _ _ _ _ _ _ _ _ _ _ _ _ _ _).symm

end Rec

/-! ## The running column -/

/-- The grid coordinates of the point of row block `I` and column block `k`. -/
def coordsOf (I : Fin 8) : Fin 8 → grid1.Coords :=
  fun k => grid1.coords (⟨8 * I.val + k.val, lt_of_lt_of_eq (by have := I.isLt; have := k.isLt; omega) N1_eq.symm⟩ : Fin cfg1.N)

theorem coordsOf_val0 (I k : Fin 8) : ((coordsOf I k) 0).val = I.val :=
  (coords1_0 _).trans (by have := I.isLt; have := k.isLt; show (8 * I.val + k.val) / 8 = I.val; omega)

theorem coordsOf_val1 (I k : Fin 8) : ((coordsOf I k) 1).val = k.val :=
  (coords1_1 _).trans (by have := I.isLt; have := k.isLt; show (8 * I.val + k.val) % 8 = k.val; omega)

section Column
variable (Z : Fin 8192 → Fin 256 → EReal)

theorem accK_first (I : Fin 8) (coords : Fin 8 → grid1.Coords) (k : ℕ) (hk : k < 8) (e : k = 0) :
    Acc.accK Z I coords k hk = k1_pay2 (F := Idealize.ShloMosaic.Ideal) (coords ⟨k, hk⟩) (Acc.blkZ Z I) (Acc.blkZ Z ⟨k, hk⟩)
      (k1_pay1 (F := Idealize.ShloMosaic.Ideal)) := by
  subst e; rfl

theorem accK_next (I : Fin 8) (coords : Fin 8 → grid1.Coords) (k : ℕ) (hk : k < 8) (e : k ≠ 0) :
    Acc.accK Z I coords k hk = k1_pay2 (F := Idealize.ShloMosaic.Ideal) (coords ⟨k, hk⟩) (Acc.blkZ Z I) (Acc.blkZ Z ⟨k, hk⟩)
      (Acc.accK Z I coords (k - 1) (by omega)) := by
  cases k with
  | zero => exact absurd rfl e
  | succ k => rfl

theorem accK_congr (I I' : Fin 8) (eI : I = I') (k k' : ℕ) (ek : k = k') (h : k < 8) (h' : k' < 8) :
    Acc.accK Z I (coordsOf I) k h = Acc.accK Z I' (coordsOf I') k' h' := by
  subst eI; subst ek; rfl

/-- The body's sum at the point `n`, written with the point's row block `n / 8` and column block `n % 8`. -/
theorem pay_step (n : ℕ) (hn : n < cfg1.N) (hI : n / 8 < 8) (hk : n % 8 < 8)
    (x0 x1 : Vec Idealize.ShloMosaic.Ideal S1024x256 .bf16) (acc acc' : Vec Idealize.ShloMosaic.Ideal S1024x1 .f32)
    (e0 : x0 = Acc.blkZ Z ⟨n / 8, hI⟩) (e1 : x1 = Acc.blkZ Z ⟨n % 8, hk⟩) (ea : acc = acc') :
    k1_pay2 (F := Idealize.ShloMosaic.Ideal) (grid1.coords (⟨n, hn⟩ : Fin cfg1.N)) x0 x1 acc
      = k1_pay2 (F := Idealize.ShloMosaic.Ideal) (coordsOf ⟨n / 8, hI⟩ ⟨n % 8, hk⟩) (Acc.blkZ Z ⟨n / 8, hI⟩) (Acc.blkZ Z ⟨n % 8, hk⟩) acc' := by
  subst e0; subst e1; subst ea
  have et : (⟨n, hn⟩ : Fin cfg1.N) = ⟨8 * (n / 8) + n % 8, lt_of_lt_of_eq (by omega) N1_eq.symm⟩ := Fin.ext (by show n = 8 * (n / 8) + n % 8; omega)
  exact congrArg (fun i => k1_pay2 (F := Idealize.ShloMosaic.Ideal) i (Acc.blkZ Z ⟨n / 8, hI⟩) (Acc.blkZ Z ⟨n % 8, hk⟩) acc) (congrArg grid1.coords et)

end Column

section Value
variable (V : (c : Dev nD) → (b : Ref sig .tc) → Buf (Elt Idealize.ShloMosaic.Ideal) ((c : Thread nD τ).loc b)) (c : Dev nD)

/-- After the point `n` the accumulator holds the running column after column block `n % 8` of row block `n / 8`. -/
theorem acc_after_nat : ∀ (n : ℕ) (hn : n < cfg1.N) (hI : n / 8 < 8) (hk : n % 8 < 8),
    (outsAt1 V c n hn).2 = Acc.accK (Zof V c) ⟨n / 8, hI⟩ (coordsOf ⟨n / 8, hI⟩) (n % 8) hk := by
  intro n
  induction n using Nat.strong_induction_on with
  | _ n ih =>
    intro hn hI hk
    have hN : n < 64 := lt_of_lt_of_eq hn N1_eq
    by_cases h0 : n % 8 = 0
    · refine (acc_rec_first V c ⟨n, hn⟩ h0).trans ?_
      rw [accK_first (Zof V c) ⟨n / 8, hI⟩ (coordsOf ⟨n / 8, hI⟩) (n % 8) hk h0]
      exact pay_step (Zof V c) n hn hI hk (iblk1 V c 0 ⟨n, hn⟩) (iblk1 V c 1 ⟨n, hn⟩) _ _
        (iblk1_0_eq V c ⟨n, hn⟩) (iblk1_1_eq V c ⟨n, hn⟩) rfl
    · refine (acc_rec_next V c ⟨n, hn⟩ h0).trans ?_
      rw [accK_next (Zof V c) ⟨n / 8, hI⟩ (coordsOf ⟨n / 8, hI⟩) (n % 8) hk h0]
      exact pay_step (Zof V c) n hn hI hk (iblk1 V c 0 ⟨n, hn⟩) (iblk1 V c 1 ⟨n, hn⟩) _ _
        (iblk1_0_eq V c ⟨n, hn⟩) (iblk1_1_eq V c ⟨n, hn⟩)
        ((ih (n - 1) (by omega) (Nat.lt_of_le_of_lt (Nat.sub_le _ _) hn) (by omega) (by omega)).trans
          (accK_congr (Zof V c) ⟨(n - 1) / 8, by omega⟩ ⟨n / 8, hI⟩ (Fin.ext (by show (n - 1) / 8 = n / 8; omega))
            ((n - 1) % 8) (n % 8 - 1) (by omega) (by omega) (by omega)))

theorem acc_after (t : Fin cfg1.N) :
    (outsAt1 V c t.val t.isLt).2
      = Acc.accK (Zof V c) ⟨t.val / 8, by have := lt_of_lt_of_eq t.isLt N1_eq; omega⟩
          (coordsOf ⟨t.val / 8, by have := lt_of_lt_of_eq t.isLt N1_eq; omega⟩) (t.val % 8) (by omega) :=
  acc_after_nat V c t.val t.isLt _ _

/-- At column block 7 the output buffer holds the completed column of row block `t / 8`. -/
theorem out_at7 (t : Fin cfg1.N) (h7 : t.val % 8 = 7) :
    (outsAt1 V c t.val t.isLt).1
      = Acc.accK (Zof V c) ⟨t.val / 8, by have := lt_of_lt_of_eq t.isLt N1_eq; omega⟩
          (coordsOf ⟨t.val / 8, by have := lt_of_lt_of_eq t.isLt N1_eq; omega⟩) 7 (by omega) :=
  (out_rec_last V c t h7).trans ((acc_after V c t).trans (accK_congr (Zof V c) _ _ rfl _ _ h7 _ _))

/-- The output array after the region: every row's denominator. -/
theorem arrDen_apply (zi zj : Fin 4096 → Fin 256 → EReal)
    (hZ : ∀ r d, (V c main_v1 : S8192x256.Idx → EReal) (ix2 r d) = Cert.NtXent.zn zi zj r d) (r : Fin 8192) :
    ((dat1 V c).arrAt 2 cfg1.N : S8192x1.Idx → EReal) (ix2 r (0 : Fin 1)) = Cert.NtXent.den zi zj r := by
  have hZ' : Zof V c = Cert.NtXent.zn zi zj := funext fun r => funext fun d => hZ r d
  refine arrDen_of V c (Cert.NtXent.den zi zj) (fun t h7 p => ?_) r
  rw [out_at7 V c t h7, hZ']
  exact Acc.accK_seven _ _ zi zj (fun k => coordsOf_val0 _ k) (fun k => coordsOf_val1 _ k) _ p

end Value

end Cert.KernelIdeal.Val1

end
-- ==== Proof.RefIndex.lean ====
/-
  The reference's stages up to the matrix of inner products, read at an index.

  The two arguments are stacked by rows; each row is divided by its Euclidean norm clipped below; the matrix of
  inner products of the unit rows is the product with the transpose. Each stage at an index is the corresponding
  function of the specification.
-/
import proofs.«135420_j3994319585478_1_alg».proof.Proof.Gen.ReferenceIdeal.Read
import proofs.«135420_j3994319585478_1_alg».proof.Proof.Spec
import proofs.«135420_j3994319585478_1_alg».proof.Proof.LibHostIx

noncomputable section

open scoped BigOperators

namespace Cert.ReferenceIdeal.RefValue

open Cert.ReferenceIdeal Cert.ReferenceIdeal.Gen Cert.ReferenceIdeal.Read Idealize.ShloMosaic Idealize.ShloMosaic.ValueIdx
  Cert.RefValLib

/-- An argument array as a matrix of extended reals. -/
abbrev mat (x : FVec Ideal S4096x256 .f32) : Fin 4096 → Fin 256 → EReal := fun a d => x (ix2 a d)

variable (x0 x1 : FVec Ideal S4096x256 .f32)

/-- The stacked matrix at row `r`: the first argument's row `r` below 4096, the second's row `r - 4096` from there on. -/
theorem v0_at (r : Fin 8192) (d : Fin 256) :
    val_main_v0 (F := Ideal) x0 x1 (ix2 r d)
      = if h : r.val < 4096 then x0 (ix2 ⟨r.val, h⟩ d) else x1 (ix2 ⟨r.val - 4096, by omega⟩ d) := by
  unfold val_main_v0
  by_cases h : r.val < 4096
  · rw [dif_pos h]
    exact concatenate_rows_apply_left x0 x1 _ r d h
  · rw [dif_neg h]
    exact concatenate_rows_apply_right x0 x1 _ r d ⟨r.val - 4096, by omega⟩ (by show r.val = 4096 + (r.val - 4096); omega)

/-- The clipped norm of row `r` of the stacked matrix. -/
theorem v3_at (r : Fin 8192) :
    val_main_v3 (F := Ideal) x0 x1 (ix2 r (0 : Fin 1))
      = max (Ideal.sqrt (∑ k : Fin 256, val_main_v0 (F := Ideal) x0 x1 (ix2 r k) * val_main_v0 (F := Ideal) x0 x1 (ix2 r k)))
          Cert.NtXent.eps := by
  rw [val_main_v3_apply, val_main_v1_apply, val_main_call0_v2_apply, val_main_v2_apply, val_main_cst_apply]
  have e1 : idx_main_call0_v2 (ix2 r (0 : Fin 1)) = ix1 r := funext fun a => match a with | ⟨0, _⟩ => rfl
  rw [e1, val_main_call0_v1_apply, val_main_call0_cst_apply]
  have e2 : ∀ k, idx_main_call0_v1 (ix1 r) k = ix2 r k := fun k => funext fun a => match a with
    | ⟨0, _⟩ => rfl
    | ⟨1, _⟩ => rfl
  simp only [e2, val_main_call0_v0_apply, Ideal.maximumf_def, Ideal.hostUnary_sqrt_def, Ideal.ofBits_def, Ideal.mulf_def,
    Ideal.ofBits_zero_f32, zero_add, Cert.NtXent.eps]

/-- The unit rows: the stacked matrix divided by its rows' clipped norms is the specification's `zn`. -/
theorem v5_at (r : Fin 8192) (d : Fin 256) :
    val_main_v5 (F := Ideal) x0 x1 (ix2 r d) = Cert.NtXent.zn (mat x0) (mat x1) r d := by
  rw [val_main_v5_apply, val_main_v4_apply]
  have e : idx_main_v4 (ix2 r d) = ix2 r (0 : Fin 1) := funext fun a => match a with
    | ⟨0, _⟩ => rfl
    | ⟨1, _⟩ => rfl
  rw [e, v3_at, Ideal.hostDivf_def]
  unfold Cert.NtXent.zn Cert.NtXent.unitRow Cert.NtXent.nrm
  by_cases h : r.val < 4096
  · simp only [v0_at, dif_pos h]
  · simp only [v0_at, dif_neg h]

/-- The product with the transpose at `(r, c)`: the inner product of unit rows `r` and `c`. -/
theorem v7_at (r c : Fin 8192) :
    val_main_v7 (F := Ideal) x0 x1 (ix2 r c) = Cert.NtXent.sim (mat x0) (mat x1) r c := by
  rw [val_main_v7_apply]
  unfold Cert.NtXent.sim
  refine Finset.sum_congr rfl fun k _ => ?_
  have el : lidx_main_v7 (ix2 r c) k = ix2 r k := funext fun a => match a with
    | ⟨0, _⟩ => rfl
    | ⟨1, _⟩ => rfl
  have er : ridx_main_v7 (ix2 r c) k = ix2 k c := funext fun a => match a with
    | ⟨0, _⟩ => rfl
    | ⟨1, _⟩ => rfl
  rw [el, er, val_main_v6_apply]
  have e6 : idx_main_v6 (ix2 k c) = ix2 c k := funext fun a => match a with
    | ⟨0, _⟩ => rfl
    | ⟨1, _⟩ => rfl
  rw [e6, v5_at, v5_at]

end Cert.ReferenceIdeal.RefValue

end
-- ==== Proof.RefDiag.lean ====
/-
  The reference's two diagonals, the mask and the row sums, read at an index.

  The element `i` of the upper diagonal is the matrix of inner products at `(i, i + 4096)`, of the lower at
  `(i + 4096, i)`: the start indices are small non-negative integers, so neither the wrap of a negative index nor
  the clamp into the axis changes them. Stacked, entry `r` is the inner product of row `r` with its partner.
  The mask is false exactly on the diagonal, and a row's sum over the masked exponentials is its denominator.
-/
import proofs.«135420_j3994319585478_1_alg».proof.Proof.RefIndex

noncomputable section

open scoped BigOperators

namespace Cert.ReferenceIdeal.RefValue

open Cert.ReferenceIdeal Cert.ReferenceIdeal.Gen Cert.ReferenceIdeal.Read Idealize.ShloMosaic Idealize.ShloMosaic.ValueIdx
  Cert.RefValLib

/-! ## Words -/

/-- The word of a natural below `2 ^ 31`, read signed, is the natural. -/
theorem toInt_toNat_ofNat (n : Nat) (hn : n < 2 ^ 31) : (BitVec.ofNat 32 n).toInt.toNat = n := by
  rw [BitVec.toInt_eq_toNat_of_msb (msb_ofNat_small n hn), Int.toNat_natCast, toNat_ofNat_lt n (by omega)]

/-- Words add as their naturals do (modulo `2 ^ 32` on both sides). -/
theorem addi_ofNat (a b : Nat) : IntOp.addi (BitVec.ofNat 32 a) (BitVec.ofNat 32 b) = BitVec.ofNat 32 (a + b) :=
  (BitVec.ofNat_add a b).symm

/-- The wrap of a negative index leaves the word of a natural below `2 ^ 31` alone. -/
theorem wrap_id (n : Nat) (hn : n < 2 ^ 31) (w : BitVec 32) :
    Scalar.select (IntOp.cmpi .slt (BitVec.ofNat 32 n) 0#32) w (BitVec.ofNat 32 n) = BitVec.ofNat 32 n := by
  rw [slt_zero_ofNat n hn]; exact select_zero _ _

/-- The mask's bit at `(r, c)`: clear exactly when `r = c`. -/
theorem mask_word (r c : Nat) (hr : r < 2 ^ 32) (hc : c < 2 ^ 32) :
    ~~~ (IntOp.cmpi .eq (IntOp.addi (BitVec.ofNat 32 r) 0#32) (BitVec.ofNat 32 c)) = if r = c then 0#1 else 1#1 := by
  show ~~~ (BitVec.ofBool (BitVec.ofNat 32 r + 0#32 == BitVec.ofNat 32 c)) = _
  rw [BitVec.add_zero]
  by_cases e : r = c
  · subst e; simp
  · have hne : BitVec.ofNat 32 r ≠ BitVec.ofNat 32 c := fun h => e (by
      have := congrArg BitVec.toNat h
      rwa [toNat_ofNat_lt r hr, toNat_ofNat_lt c hc] at this)
    rw [if_neg e, (beq_eq_false_iff_ne.2 hne : (BitVec.ofNat 32 r == BitVec.ofNat 32 c) = false)]
    rfl

/-! ## Layout -/

section Layout
variable {α : Type}

/-- Two vectors joined, at a position below the first length: the first vector there. -/
theorem concatenate_vec_apply_left {A B T : Nat}
    (x₁ : (⟨1, ![A]⟩ : Shape).Idx → α) (x₂ : (⟨1, ![B]⟩ : Shape).Idx → α)
    (h : Shape.Concatenates [⟨1, ![A]⟩, ⟨1, ![B]⟩] ⟨1, ![T]⟩ 0) (p : Fin T) (hp : p.val < A) :
    concatenate ⟨1, ![T]⟩ 0 [⟨⟨1, ![A]⟩, x₁⟩, ⟨⟨1, ![B]⟩, x₂⟩] h (ix1 p) = x₁ (ix1 ⟨p.val, hp⟩) :=
  concatenate_pair_apply_left _ x₁ x₂ h (ix1 p) rfl (ix1 ⟨p.val, hp⟩) (fun b => match b with | ⟨0, _⟩ => rfl)

/-- Two vectors joined, at position `A + p'`: the second vector at `p'`. -/
theorem concatenate_vec_apply_right {A B T : Nat}
    (x₁ : (⟨1, ![A]⟩ : Shape).Idx → α) (x₂ : (⟨1, ![B]⟩ : Shape).Idx → α)
    (h : Shape.Concatenates [⟨1, ![A]⟩, ⟨1, ![B]⟩] ⟨1, ![T]⟩ 0) (p : Fin T) (p' : Fin B) (hp : p.val = A + p'.val) :
    concatenate ⟨1, ![T]⟩ 0 [⟨⟨1, ![A]⟩, x₁⟩, ⟨⟨1, ![B]⟩, x₂⟩] h (ix1 p) = x₂ (ix1 p') :=
  concatenate_pair_apply_right _ x₁ x₂ h (ix1 p) rfl rfl (ix1 p')
    (fun b hb => match b, hb with | ⟨0, _⟩, hb => (hb rfl).elim)
    (by show p'.val + A = p.val; omega)

/-- A gather of single elements whose start indices at `i` are the words of `a` and `b` reads the matrix at `(a, b)`. -/
theorem gather_at (x : (⟨2, ![8192, 8192]⟩ : Shape).Idx → α) (idx : IVec ⟨2, ![4096, 2]⟩ 32) (i : Fin 4096) (a b : Fin 8192)
    (ha : idx (ix2 i (0 : Fin 2)) = BitVec.ofNat 32 a.val) (hb : idx (ix2 i (1 : Fin 2)) = BitVec.ofNat 32 b.val) :
    Host.gather gather_S8192x8192_S4096x2_S4096_n_01_n_n_01_1_11 x idx (ix1 i) = x (ix2 a b) := by
  refine (gather_elem_apply (M := 8192) (N := 8192) (by decide) (by decide)
    gather_S8192x8192_S4096x2_S4096_n_01_n_n_01_1_11_wf x idx i).trans ?_
  have h0 : min (idx (ix2 i (0 : Fin 2))).toInt.toNat (8192 - 1) = a.val := by
    rw [ha, toInt_toNat_ofNat _ (by omega)]; omega
  have h1 : min (idx (ix2 i (1 : Fin 2))).toInt.toNat (8192 - 1) = b.val := by
    rw [hb, toInt_toNat_ofNat _ (by omega)]; omega
  exact congrArg x (funext fun c => match c with
    | ⟨0, _⟩ => Fin.ext h0
    | ⟨1, _⟩ => Fin.ext h1)

end Layout

/-! ## The start indices of the two diagonals -/

theorem call1_row (i : Fin 4096) : val_main_call1_v16 (F := Ideal) (ix2 i (0 : Fin 2)) = BitVec.ofNat 32 i.val := by
  unfold val_main_call1_v16
  refine (concatenate_cols2_apply_zero _ _ _ i).trans ?_
  rw [val_main_call1_v14_apply]
  have e : idx_main_call1_v14 (ix2 i (0 : Fin 1)) = ix1 i := funext fun a => match a with | ⟨0, _⟩ => rfl
  rw [e, val_main_call1_v8_apply, val_main_call1_v5_apply, val_main_call1_v0_apply, val_main_call1_v4_apply,
    val_main_call1_c_0_apply]
  exact wrap_id i.val (by omega) _

theorem call1_v3_at (i : Fin 4096) : val_main_call1_v3 (F := Ideal) (ix1 i) = BitVec.ofNat 32 (4096 + i.val) := by
  rw [val_main_call1_v3_apply, val_main_call1_v2_apply, val_main_call1_c_apply, val_main_call1_v1_apply]
  exact addi_ofNat 4096 i.val

theorem call1_col (i : Fin 4096) : val_main_call1_v16 (F := Ideal) (ix2 i (1 : Fin 2)) = BitVec.ofNat 32 (4096 + i.val) := by
  unfold val_main_call1_v16
  refine (concatenate_cols2_apply_one _ _ _ i).trans ?_
  rw [val_main_call1_v15_apply]
  have e : idx_main_call1_v15 (ix2 i (0 : Fin 1)) = ix1 i := funext fun a => match a with | ⟨0, _⟩ => rfl
  rw [e, val_main_call1_v13_apply, val_main_call1_v10_apply, val_main_call1_v9_apply, val_main_call1_c_2_apply, call1_v3_at]
  exact wrap_id _ (by omega) _

theorem call2_v3_at (i : Fin 4096) : val_main_call2_v3 (F := Ideal) (ix1 i) = BitVec.ofNat 32 (4096 + i.val) := by
  rw [val_main_call2_v3_apply, val_main_call2_v2_apply, val_main_call2_c_apply, val_main_call2_v1_apply]
  exact addi_ofNat 4096 i.val

theorem call2_row (i : Fin 4096) : val_main_call2_v16 (F := Ideal) (ix2 i (0 : Fin 2)) = BitVec.ofNat 32 (4096 + i.val) := by
  unfold val_main_call2_v16
  refine (concatenate_cols2_apply_zero _ _ _ i).trans ?_
  rw [val_main_call2_v14_apply]
  have e : idx_main_call2_v14 (ix2 i (0 : Fin 1)) = ix1 i := funext fun a => match a with | ⟨0, _⟩ => rfl
  rw [e, val_main_call2_v8_apply, val_main_call2_v5_apply, val_main_call2_v4_apply, val_main_call2_c_0_apply, call2_v3_at]
  exact wrap_id _ (by omega) _

theorem call2_col (i : Fin 4096) : val_main_call2_v16 (F := Ideal) (ix2 i (1 : Fin 2)) = BitVec.ofNat 32 i.val := by
  unfold val_main_call2_v16
  refine (concatenate_cols2_apply_one _ _ _ i).trans ?_
  rw [val_main_call2_v15_apply]
  have e : idx_main_call2_v15 (ix2 i (0 : Fin 1)) = ix1 i := funext fun a => match a with | ⟨0, _⟩ => rfl
  rw [e, val_main_call2_v13_apply, val_main_call2_v10_apply, val_main_call2_v0_apply, val_main_call2_v9_apply,
    val_main_call2_c_2_apply]
  exact wrap_id i.val (by omega) _

/-! ## The diagonals and their join -/

variable (x0 x1 : FVec Ideal S4096x256 .f32)

/-- The upper diagonal at `i`: the matrix of inner products at `(i, 4096 + i)`. -/
theorem v8_at (i : Fin 4096) (a b : Fin 8192) (ha : a.val = i.val) (hb : b.val = 4096 + i.val) :
    val_main_v8 (F := Ideal) x0 x1 (ix1 i) = val_main_v7 (F := Ideal) x0 x1 (ix2 a b) := by
  unfold val_main_v8
  exact gather_at _ _ i a b ((call1_row i).trans (by rw [ha])) ((call1_col i).trans (by rw [hb]))

/-- The lower diagonal at `i`: the matrix of inner products at `(4096 + i, i)`. -/
theorem v9_at (i : Fin 4096) (a b : Fin 8192) (ha : a.val = 4096 + i.val) (hb : b.val = i.val) :
    val_main_v9 (F := Ideal) x0 x1 (ix1 i) = val_main_v7 (F := Ideal) x0 x1 (ix2 a b) := by
  unfold val_main_v9
  exact gather_at _ _ i a b ((call2_row i).trans (by rw [ha])) ((call2_col i).trans (by rw [hb]))

/-- The joined diagonals at `r`: the inner product of unit row `r` with its partner. -/
theorem v10_at (r : Fin 8192) :
    val_main_v10 (F := Ideal) x0 x1 (ix1 r) = Cert.NtXent.sim (mat x0) (mat x1) r (Cert.NtXent.partner r) := by
  unfold val_main_v10 Cert.NtXent.partner
  by_cases h : r.val < 4096
  · rw [dif_pos h]
    refine (concatenate_vec_apply_left _ _ _ r h).trans ?_
    rw [v8_at x0 x1 ⟨r.val, h⟩ r ⟨r.val + 4096, by omega⟩ rfl (Nat.add_comm _ _), v7_at]
  · rw [dif_neg h]
    refine (concatenate_vec_apply_right _ _ _ r ⟨r.val - 4096, by omega⟩ (by show r.val = 4096 + (r.val - 4096); omega)).trans ?_
    rw [v9_at x0 x1 ⟨r.val - 4096, by omega⟩ r ⟨r.val - 4096, by omega⟩ (by show r.val = 4096 + (r.val - 4096); omega) rfl, v7_at]

/-! ## The mask and the denominators -/

theorem v19_at (r c : Fin 8192) : val_main_v19 (F := Ideal) (ix2 r c) = if r.val = c.val then 0#1 else 1#1 := by
  rw [val_main_v19_apply, val_main_v18_apply, val_main_v17_apply, val_main_v14_apply, val_main_v15_apply, val_main_v16_apply,
    val_main_c_apply]
  exact mask_word r.val c.val (by omega) (by omega)

/-- The masked exponentials at `(r, c)`: zero on the diagonal, `exp (sim r c / half)` off it. -/
theorem v20_at (r c : Fin 8192) :
    val_main_v20 (F := Ideal) x0 x1 (ix2 r c)
      = if r = c then 0 else Ideal.exp (Ideal.div (Cert.NtXent.sim (mat x0) (mat x1) r c) Cert.NtXent.half) := by
  rw [val_main_v20_apply, v19_at, val_main_v13_apply, val_main_v12_apply, val_main_v11_apply, val_main_cst_0_apply,
    val_main_call3_v1_apply, val_main_call3_v0_apply, val_main_cst_1_apply, v7_at]
  by_cases e : r = c
  · rw [if_pos e, if_pos (congrArg Fin.val e), select_zero, Ideal.ofBits_def, Ideal.ofBits_zero_f32]
  · rw [if_neg e, if_neg (fun h => e (Fin.ext h)), select_one, Ideal.hostUnary_exp_def, Ideal.hostDivf_def, Ideal.ofBits_def]
    rfl

/-- Row `r`'s sum of the masked exponentials is its denominator. -/
theorem v21_at (r : Fin 8192) :
    val_main_v21 (F := Ideal) x0 x1 (ix1 r) = Cert.NtXent.den (mat x0) (mat x1) r := by
  rw [val_main_v21_apply, val_main_cst_2_apply, Ideal.ofBits_def, Ideal.ofBits_zero_f32, zero_add]
  unfold Cert.NtXent.den
  refine Finset.sum_congr rfl fun k _ => ?_
  have e : idx_main_v21 (ix1 r) k = ix2 r k := funext fun a => match a with
    | ⟨0, _⟩ => rfl
    | ⟨1, _⟩ => rfl
  rw [e, v20_at]

end Cert.ReferenceIdeal.RefValue

end
-- ==== Proof.RefValue.lean ====
/-
  The reference's result is the loss of the specification.

  Each row's term is the logarithm of the quotient of the exponential of its partner's inner product by its
  denominator; the result is minus the mean of the 8192 terms. The sums' initial values are the zero word, and the
  temperature, the clip and the count are kept as their words.
-/
import proofs.«135420_j3994319585478_1_alg».proof.Proof.RefDiag

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Cert.RefValLib

variable (x0 x1 : FVec Ideal S4096x256 .f32)

/-- Row `r`'s logarithm is the specification's term. -/
theorem v26_at (r : Fin 8192) :
    val_main_v26 (F := Ideal) x0 x1 (ix1 r) = Cert.NtXent.term (mat x0) (mat x1) r := by
  rw [val_main_v26_apply, val_main_v25_apply, val_main_v24_apply, val_main_v23_apply, val_main_v22_apply,
    val_main_cst_3_apply, v10_at, v21_at, Ideal.hostUnary_log_def, Ideal.hostDivf_def, Ideal.hostUnary_exp_def,
    Ideal.hostDivf_def, Ideal.ofBits_def]
  rfl

/-- The reference's result, as a function of the two argument arrays: the loss, at the one index of a scalar. -/
theorem result_eq :
    val_main_v29 (F := Ideal) x0 x1 = fun _ => Cert.NtXent.loss (mat x0) (mat x1) := by
  funext i
  rw [val_main_v29_apply, val_main_v28_apply, val_main_v27_apply, val_main_cst_4_apply, val_main_cst_5_apply, sum_idx1]
  simp only [v26_at, Ideal.hostNegf_def, Ideal.negf_def, Ideal.hostDivf_def, Ideal.ofBits_def, Ideal.ofBits_zero_f32, zero_add]
  rfl

/-- On every device, from any memory with zero counters, the reference terminates with its result the loss of the
    two argument arrays' launch contents, the arguments unchanged. -/
theorem run_loss (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v29)
        = (fun _ => Cert.NtXent.loss (fun a d => m' ((c.tc : Thread nD τ).loc main_arg0) (ix2 a d))
            (fun a d => m' ((c.tc : Thread nD τ).loc main_arg1) (ix2 a d)))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run defs _ _).mono
    (fun _ h c => ⟨(h c).1.trans ((val_main_v29_eq m' c).trans (result_eq _ _)), (h c).2⟩)
    (Cert.ReferenceIdeal.Value.run (F := Ideal) m' ρ')

end Cert.ReferenceIdeal.RefValue

end
-- ==== Proof.lean ====
/-
  The certificate of the NT-Xent contrastive loss kernel against its reference.

  Both programs compute, from two 4096×256 matrices, minus the mean over the 8192 stacked rows of
  log (exp (s(r, partner r) / ½) / Σ_{c ≠ r} exp (s(r, c) / ½)), where s is the inner product of the rows after each is
  divided by its Euclidean norm clipped below at 1e-8, and a row's partner is the row 4096 away (Proof/Spec.lean).

  The kernel program does it in two regions. The first normalises the rows block by block (512 rows per grid point) and
  forms the inner products of corresponding rows of the two inputs. The second, over an 8×8 grid of 1024×1024 tiles of
  the similarity matrix, keeps for each block of 1024 rows a running sum over the eight column blocks of the masked
  exponentials, reset at the first column block and written out at the last. On the extended reals the running sum is
  the sum over all 8192 columns (addition is associative and commutative there, and 0 + x = x), the positive pair's
  similarity is the same whichever of the two rows is read first (multiplication commutes), and every other step is
  the same operation applied to the same values: no finiteness of the inputs is used.

  The three frame claims are the programs' runs (the kernel's two regions with the host operations between and after
  them; the reference's host operations) with the results forgotten. Nothing was rewritten by the idealisation, so its
  preservation claim is trivial.
-/
import proofs.«135420_j3994319585478_1_alg».proof.Defs
import proofs.«135420_j3994319585478_1_alg».proof.Proof.Gen.Kernel
import proofs.«135420_j3994319585478_1_alg».proof.Proof.Gen.KernelIdeal
import proofs.«135420_j3994319585478_1_alg».proof.Proof.Gen.ReferenceIdeal
import proofs.«135420_j3994319585478_1_alg».proof.Proof.Gen.Pre_finite_inputs
import proofs.«135420_j3994319585478_1_alg».proof.Proof.RunB
import proofs.«135420_j3994319585478_1_alg».proof.Proof.ResultI
import proofs.«135420_j3994319585478_1_alg».proof.Proof.ValueI1
import proofs.«135420_j3994319585478_1_alg».proof.Proof.RefValue

noncomputable section

namespace Cert.Proof

open Idealize.ShloMosaic Idealize.ShloMosaic.TcCoe Idealize.SL.Sem

theorem frame_k : Cert.frame_Kernel := fun m ρ _ => Cert.Kernel.Fr.frame (F := Bits) m ρ
theorem frame_ki : Cert.frame_KernelIdeal := fun m ρ _ => Cert.KernelIdeal.Fr.frame (F := Idealize.ShloMosaic.Ideal) m ρ
theorem frame_ri : Cert.frame_ReferenceIdeal := fun m ρ _ =>
  (θ_run Cert.ReferenceIdeal.defs _ _).mono (fun _ h c => (h c).2) (Cert.ReferenceIdeal.RefValue.run_loss m ρ)

theorem preserves : Cert.preserves_Kernel_KernelIdeal := trivial

/-- Both programs end at the loss of the two inputs, which agree. -/
theorem algebraic : Cert.algebraic_KernelIdeal_ReferenceIdeal := by
  intro m ρ m' ρ' _ hagree
  refine ⟨fun c => fun _ => Cert.NtXent.loss
      (fun a d => (m ((c.tc : Thread Cert.KernelIdeal.nD Cert.KernelIdeal.τ).loc Cert.KernelIdeal.main_arg0) : Cert.KernelIdeal.S4096x256.Idx → EReal) (ValueIdx.ix2 a d))
      (fun a d => (m ((c.tc : Thread Cert.KernelIdeal.nD Cert.KernelIdeal.τ).loc Cert.KernelIdeal.main_arg1) : Cert.KernelIdeal.S4096x256.Idx → EReal) (ValueIdx.ix2 a d)), ?_, ?_⟩
  · exact (θ_run Cert.KernelIdeal.defs _ _).mono (fun _ h c => ⟨(h c).1.trans (Cert.KernelIdeal.Res.result_eq_of_den m ρ c (fun hZ r => Cert.KernelIdeal.Val1.arrDen_apply (Cert.KernelIdeal.Fr.U2 m ρ) c _ _ hZ r)), (h c).2⟩)
      (Cert.KernelIdeal.Fr.run_result (F := Idealize.ShloMosaic.Ideal) m ρ)
  · refine (θ_run Cert.ReferenceIdeal.defs _ _).mono (fun _ h c => ⟨(h c).1.trans ?_, (h c).2⟩)
      (Cert.ReferenceIdeal.RefValue.run_loss m' ρ')
    rw [(hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
